-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S512x512 : Shape := ⟨2, ![512, 512]⟩
abbrev S512 : Shape := ⟨1, ![512]⟩
abbrev S2x300000 : Shape := ⟨2, ![2, 300000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S512x512 .f32) (main_arg8 : FVec F S512 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x512 .f32) (main_arg1 : FVec F S512x256 .f32) (main_arg2 : FVec F S256 .f32) (main_arg3 : FVec F S256x128 .f32) (main_arg4 : FVec F S128 .f32) (main_arg5 : FVec F S128x128 .f32) (main_arg6 : FVec F S128 .f32) (main_arg7 : FVec F S512x512 .f32) (main_arg8 : FVec F S512 .f32) (main_arg9 : IVec S2x300000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S100000x512 : Shape := ⟨2, ![100000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S512x512 : Shape := ⟨2, ![512, 512]⟩
abbrev S512 : Shape := ⟨1, ![512]⟩
abbrev S2x300000 : Shape := ⟨2, ![2, 300000]⟩
abbrev S1x300000 : Shape := ⟨2, ![1, 300000]⟩
abbrev S300000 : Shape := ⟨1, ![300000]⟩
abbrev S_ : Shape := ⟨0, ![]⟩
abbrev S1x256 : Shape := ⟨2, ![1, 256]⟩
abbrev S100000x256 : Shape := ⟨2, ![100000, 256]⟩
abbrev S1000x512 : Shape := ⟨2, ![1000, 512]⟩
abbrev S1000x256 : Shape := ⟨2, ![1000, 256]⟩
abbrev S100000 : Shape := ⟨1, ![100000]⟩
abbrev S400000 : Shape := ⟨1, ![400000]⟩
abbrev S400000x1 : Shape := ⟨2, ![400000, 1]⟩
abbrev S400000x256 : Shape := ⟨2, ![400000, 256]⟩
abbrev S1x128 : Shape := ⟨2, ![1, 128]⟩
abbrev S100000x128 : Shape := ⟨2, ![100000, 128]⟩
abbrev S1000x128 : Shape := ⟨2, ![1000, 128]⟩
abbrev S400000x128 : Shape := ⟨2, ![400000, 128]⟩
abbrev S1x512 : Shape := ⟨2, ![1, 512]⟩

abbrev nBuf : Space → Nat
  | .hbm => 189
  | .vmem => 39
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x128, .f32⟩
  | 4 => ⟨S128, .f32⟩
  | 5 => ⟨S128x128, .f32⟩
  | 6 => ⟨S128, .f32⟩
  | 7 => ⟨S512x512, .f32⟩
  | 8 => ⟨S512, .f32⟩
  | 9 => ⟨S2x300000, .i32⟩
  | 10 => ⟨S1x300000, .i32⟩
  | 11 => ⟨S300000, .i32⟩
  | 12 => ⟨S1x300000, .i32⟩
  | 13 => ⟨S300000, .i32⟩
  | 14 => ⟨S_, .f32⟩
  | 15 => ⟨S256, .f32⟩
  | 16 => ⟨S1x256, .f32⟩
  | 17 => ⟨S100000x256, .f32⟩
  | 18 => ⟨S100000, .i32⟩
  | 19 => ⟨S400000, .i32⟩
  | 20 => ⟨S400000, .i32⟩
  | 21 => ⟨S_, .f32⟩
  | 22 => ⟨S400000, .f32⟩
  | 23 => ⟨S_, .f32⟩
  | 24 => ⟨S100000, .f32⟩
  | 25 => ⟨S400000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S100000, .f32⟩
  | 33 => ⟨S100000, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000, .f32⟩
  | 52 => ⟨S400000, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x256, .f32⟩
  | 62 => ⟨S400000x1, .f32⟩
  | 63 => ⟨S400000x256, .f32⟩
  | 64 => ⟨S400000x256, .f32⟩
  | 65 => ⟨S_, .f32⟩
  | 66 => ⟨S100000x256, .f32⟩
  | 67 => ⟨S400000x1, .i32⟩
  | 68 => ⟨S100000x256, .f32⟩
  | 69 => ⟨S1x256, .f32⟩
  | 70 => ⟨S100000x256, .f32⟩
  | 71 => ⟨S_, .f32⟩
  | 72 => ⟨S128, .f32⟩
  | 73 => ⟨S1x128, .f32⟩
  | 74 => ⟨S100000x128, .f32⟩
  | 75 => ⟨S100000, .i32⟩
  | 76 => ⟨S400000, .i32⟩
  | 77 => ⟨S400000, .i32⟩
  | 78 => ⟨S_, .f32⟩
  | 79 => ⟨S400000, .f32⟩
  | 80 => ⟨S_, .f32⟩
  | 81 => ⟨S100000, .f32⟩
  | 82 => ⟨S400000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S100000, .f32⟩
  | 90 => ⟨S100000, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000, .f32⟩
  | 109 => ⟨S400000, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S400000x1, .f32⟩
  | 120 => ⟨S400000x128, .f32⟩
  | 121 => ⟨S400000x128, .f32⟩
  | 122 => ⟨S_, .f32⟩
  | 123 => ⟨S100000x128, .f32⟩
  | 124 => ⟨S400000x1, .i32⟩
  | 125 => ⟨S100000x128, .f32⟩
  | 126 => ⟨S1x128, .f32⟩
  | 127 => ⟨S100000x128, .f32⟩
  | _ => ⟨S100000x512, .f32⟩

abbrev hbmTy0_1 (i : Nat) : BufTy := match i % 128 with
  | 0 => ⟨S_, .f32⟩
  | 1 => ⟨S128, .f32⟩
  | 2 => ⟨S1x128, .f32⟩
  | 3 => ⟨S100000x128, .f32⟩
  | 4 => ⟨S100000, .i32⟩
  | 5 => ⟨S400000, .i32⟩
  | 6 => ⟨S400000, .i32⟩
  | 7 => ⟨S_, .f32⟩
  | 8 => ⟨S400000, .f32⟩
  | 9 => ⟨S_, .f32⟩
  | 10 => ⟨S100000, .f32⟩
  | 11 => ⟨S400000x1, .i32⟩
  | 12 => ⟨S100000, .f32⟩
  | 13 => ⟨S_, .f32⟩
  | 14 => ⟨S100000, .f32⟩
  | 15 => ⟨S100000, .i1⟩
  | 16 => ⟨S100000, .f32⟩
  | 17 => ⟨S_, .f32⟩
  | 18 => ⟨S100000, .f32⟩
  | 19 => ⟨S100000, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000, .f32⟩
  | 38 => ⟨S400000, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x128, .f32⟩
  | 48 => ⟨S400000x1, .f32⟩
  | 49 => ⟨S400000x128, .f32⟩
  | 50 => ⟨S400000x128, .f32⟩
  | 51 => ⟨S_, .f32⟩
  | 52 => ⟨S100000x128, .f32⟩
  | 53 => ⟨S400000x1, .i32⟩
  | 54 => ⟨S100000x128, .f32⟩
  | 55 => ⟨S1x128, .f32⟩
  | 56 => ⟨S100000x128, .f32⟩
  | 57 => ⟨S100000x512, .f32⟩
  | 58 => ⟨S512x512, .f32⟩
  | 59 => ⟨S1x512, .f32⟩
  | 60 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S256x128, .f32⟩
  | .local _ .vmem, ⟨14, _⟩ => ⟨S1x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S128x128, .f32⟩
  | .local _ .vmem, ⟨25, _⟩ => ⟨S1x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1x128, .f32⟩
  | .local _ .vmem, ⟨31, _⟩ => ⟨S1000x128, .f32⟩
  | .local _ .vmem, ⟨32, _⟩ => ⟨S1000x128, .f32⟩
  | .local _ .vmem, ⟨33, _⟩ => ⟨S1000x512, .f32⟩
  | .local _ .vmem, ⟨34, _⟩ => ⟨S1000x512, .f32⟩
  | .local _ .vmem, ⟨35, _⟩ => ⟨S512x512, .f32⟩
  | .local _ .vmem, ⟨36, _⟩ => ⟨S1x512, .f32⟩
  | .local _ .vmem, ⟨37, _⟩ => ⟨S1000x512, .f32⟩
  | .local _ .vmem, ⟨38, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_c_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_c_20 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_23 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_25 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_c_27 : Ref sig .tc := ⟨.hbm, 148, rfl⟩
abbrev main_v109 : Ref sig .tc := ⟨.hbm, 149, rfl⟩
abbrev main_v110 : Ref sig .tc := ⟨.hbm, 150, rfl⟩
abbrev main_c_28 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_29 : Ref sig .tc := ⟨.hbm, 157, rfl⟩
abbrev main_v116 : Ref sig .tc := ⟨.hbm, 158, rfl⟩
abbrev main_v117 : Ref sig .tc := ⟨.hbm, 159, rfl⟩
abbrev main_c_30 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_31 : Ref sig .tc := ⟨.hbm, 167, rfl⟩
abbrev main_v124 : Ref sig .tc := ⟨.hbm, 168, rfl⟩
abbrev main_v125 : Ref sig .tc := ⟨.hbm, 169, rfl⟩
abbrev main_c_32 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_33 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S256 : S_.BroadcastsInDim S256 (![] : Fin 0 → Fin S256.rank)
  shapeCasts_S256_S1x256 : S256.ShapeCasts S1x256
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  concatenates_S300000_S100000_S400000_d0 : Shape.Concatenates [S300000, S100000] S400000 0
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  shapeCasts_S1000x256_S1000x256 : S1000x256.ShapeCasts S1000x256
  bcast_S_S128 : S_.BroadcastsInDim S128 (![] : Fin 0 → Fin S128.rank)
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  concatenates_S100000x256_S100000x128_S100000x128_S100000x512_d1 : Shape.Concatenates [S100000x256, S100000x128, S100000x128] S100000x512 1
  transposes_S512x512_S512x512_1_0 : S512x512.Transposes [1, 0] S512x512
  shapeCasts_S512_S1x512 : S512.ShapeCasts S1x512
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  dot_S1000x512_S512x256_S1000x256_1_0_0_1_n_n_wf : DotDims.WF S1000x512 S512x256 S1000x256 [1] [0] [0] [1] [] []
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S1000x256_S256x128_S1000x128_1_0_0_1_n_n_wf : DotDims.WF S1000x256 S256x128 S1000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S1000x128_S128x128_S1000x128_1_0_0_1_n_n_wf : DotDims.WF S1000x128 S128x128 S1000x128 [1] [0] [0] [1] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S100000x256.size a
  hwx0_3 : ∀ i : grid0.Coords, EltTy.bits .f32 = 32 ∨ (Rect.block (s := S100000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S100000x256.size a
  hwx1_0 : ∀ i : grid1.Coords, EltTy.bits .f32 = 32 ∨ (Rect.block (s := S100000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S100000x256.size a
  hwx1_2 : ∀ i : grid1.Coords, EltTy.bits .f32 = 32 ∨ (Rect.block (s := S100000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S100000x256.size a
  hwx2_0 : ∀ i : grid2.Coords, EltTy.bits .f32 = 32 ∨ (Rect.block (s := S100000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S100000x128.size a
  hwx2_3 : ∀ i : grid2.Coords, EltTy.bits .f32 = 32 ∨ (Rect.block (s := S100000x128) S1000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S100000x128.size a
  hwx3_2 : ∀ i : grid3.Coords, EltTy.bits .f32 = 32 ∨ (Rect.block (s := S100000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S100000x128.size a
  hwx4_3 : ∀ i : grid4.Coords, EltTy.bits .f32 = 32 ∨ (Rect.block (s := S100000x128) S1000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S100000x128.size a
  hwx5_0 : ∀ i : grid5.Coords, EltTy.bits .f32 = 32 ∨ (Rect.block (s := S100000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S100000x128.size a
  hwx5_2 : ∀ i : grid5.Coords, EltTy.bits .f32 = 32 ∨ (Rect.block (s := S100000x128) S1000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x512.size a ≤ S100000x512.size a
  hwx6_0 : ∀ i : grid6.Coords, EltTy.bits .f32 = 32 ∨ (Rect.block (s := S100000x512) S1000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .f32 = 32 ∨ (Rect.block (s := S512x512) S512x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x512.size a ≤ S100000x512.size a
  hwx6_3 : ∀ i : grid6.Coords, EltTy.bits .f32 = 32 ∨ (Rect.block (s := S100000x512) S1000x512.size (cc6_transform_3 i) (hinb6_3 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v91) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v136) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v137) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v138) S1000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v139) S1000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v140) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v141) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v142) S1000x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S512x512 : Shape := ⟨2, ![512, 512]⟩
abbrev S512 : Shape := ⟨1, ![512]⟩
abbrev S2x300000 : Shape := ⟨2, ![2, 300000]⟩
abbrev S1x300000 : Shape := ⟨2, ![1, 300000]⟩
abbrev S300000 : Shape := ⟨1, ![300000]⟩
abbrev S100000x256 : Shape := ⟨2, ![100000, 256]⟩
abbrev S100000 : Shape := ⟨1, ![100000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S100000x128 : Shape := ⟨2, ![100000, 128]⟩
abbrev S400000x128 : Shape := ⟨2, ![400000, 128]⟩
abbrev S1x128 : Shape := ⟨2, ![1, 128]⟩
abbrev S1x512 : Shape := ⟨2, ![1, 512]⟩

abbrev nBuf : Space → Nat
  | .hbm => 194
  | .vmem => 0
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x128, .f32⟩
  | 4 => ⟨S128, .f32⟩
  | 5 => ⟨S128x128, .f32⟩
  | 6 => ⟨S128, .f32⟩
  | 7 => ⟨S512x512, .f32⟩
  | 8 => ⟨S512, .f32⟩
  | 9 => ⟨S2x300000, .i32⟩
  | 10 => ⟨S1x300000, .i32⟩
  | 11 => ⟨S300000, .i32⟩
  | 12 => ⟨S1x300000, .i32⟩
  | 13 => ⟨S300000, .i32⟩
  | 14 => ⟨S100000x256, .f32⟩
  | 15 => ⟨S100000, .i32⟩
  | 16 => ⟨S400000, .i32⟩
  | 17 => ⟨S400000, .i32⟩
  | 18 => ⟨S_, .f32⟩
  | 19 => ⟨S400000, .f32⟩
  | 20 => ⟨S_, .f32⟩
  | 21 => ⟨S100000, .f32⟩
  | 22 => ⟨S400000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000, .f32⟩
  | 49 => ⟨S400000, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x256, .f32⟩
  | 59 => ⟨S400000x1, .f32⟩
  | 60 => ⟨S400000x256, .f32⟩
  | 61 => ⟨S400000x256, .f32⟩
  | 62 => ⟨S_, .f32⟩
  | 63 => ⟨S100000x256, .f32⟩
  | 64 => ⟨S400000x1, .i32⟩
  | 65 => ⟨S100000x256, .f32⟩
  | 66 => ⟨S1x256, .f32⟩
  | 67 => ⟨S100000x256, .f32⟩
  | 68 => ⟨S100000x256, .f32⟩
  | 69 => ⟨S_, .f32⟩
  | 70 => ⟨S100000x256, .f32⟩
  | 71 => ⟨S100000x256, .f32⟩
  | 72 => ⟨S100000x128, .f32⟩
  | 73 => ⟨S100000, .i32⟩
  | 74 => ⟨S400000, .i32⟩
  | 75 => ⟨S400000, .i32⟩
  | 76 => ⟨S_, .f32⟩
  | 77 => ⟨S400000, .f32⟩
  | 78 => ⟨S_, .f32⟩
  | 79 => ⟨S100000, .f32⟩
  | 80 => ⟨S400000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S100000, .f32⟩
  | 88 => ⟨S100000, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000, .f32⟩
  | 107 => ⟨S400000, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x128, .f32⟩
  | 117 => ⟨S400000x1, .f32⟩
  | 118 => ⟨S400000x128, .f32⟩
  | 119 => ⟨S400000x128, .f32⟩
  | 120 => ⟨S_, .f32⟩
  | 121 => ⟨S100000x128, .f32⟩
  | 122 => ⟨S400000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x512, .f32⟩

abbrev hbmTy0_1 (i : Nat) : BufTy := match i % 128 with
  | 0 => ⟨S100000x128, .f32⟩
  | 1 => ⟨S100000x128, .f32⟩
  | 2 => ⟨S100000x128, .f32⟩
  | 3 => ⟨S100000, .i32⟩
  | 4 => ⟨S400000, .i32⟩
  | 5 => ⟨S400000, .i32⟩
  | 6 => ⟨S_, .f32⟩
  | 7 => ⟨S400000, .f32⟩
  | 8 => ⟨S_, .f32⟩
  | 9 => ⟨S100000, .f32⟩
  | 10 => ⟨S400000x1, .i32⟩
  | 11 => ⟨S100000, .f32⟩
  | 12 => ⟨S_, .f32⟩
  | 13 => ⟨S100000, .f32⟩
  | 14 => ⟨S100000, .i1⟩
  | 15 => ⟨S100000, .f32⟩
  | 16 => ⟨S_, .f32⟩
  | 17 => ⟨S100000, .f32⟩
  | 18 => ⟨S100000, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000, .f32⟩
  | 37 => ⟨S400000, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S400000x1, .f32⟩
  | 48 => ⟨S400000x128, .f32⟩
  | 49 => ⟨S400000x128, .f32⟩
  | 50 => ⟨S_, .f32⟩
  | 51 => ⟨S100000x128, .f32⟩
  | 52 => ⟨S400000x1, .i32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x512, .f32⟩
  | 61 => ⟨S512x512, .f32⟩
  | 62 => ⟨S100000x512, .f32⟩
  | 63 => ⟨S1x512, .f32⟩
  | 64 => ⟨S100000x512, .f32⟩
  | 65 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call3_cst : Ref sig .tc := ⟨.hbm, 127, rfl⟩
abbrev main_call3_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_cst_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_22 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_23 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_26 : Ref sig .tc := ⟨.hbm, 156, rfl⟩
abbrev main_v114 : Ref sig .tc := ⟨.hbm, 157, rfl⟩
abbrev main_v115 : Ref sig .tc := ⟨.hbm, 158, rfl⟩
abbrev main_c_27 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_28 : Ref sig .tc := ⟨.hbm, 166, rfl⟩
abbrev main_v122 : Ref sig .tc := ⟨.hbm, 167, rfl⟩
abbrev main_v123 : Ref sig .tc := ⟨.hbm, 168, rfl⟩
abbrev main_c_29 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_30 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_call5_cst : Ref sig .tc := ⟨.hbm, 185, rfl⟩
abbrev main_call5_v0 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S100000_S400000_d0 : Shape.Concatenates [S300000, S100000] S400000 0
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x256_S100000x128_S100000x128_S100000x512_d1 : Shape.Concatenates [S100000x256, S100000x128, S100000x128] S100000x512 1
  transposes_S512x512_S512x512_1_0 : S512x512.Transposes [1, 0] S512x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x256_S100000x256_1_0_0_1_n_n_wf : DotDims.WF S100000x512 S512x256 S100000x256 [1] [0] [0] [1] [] []
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x128_S100000x128_1_0_0_1_n_n_wf : DotDims.WF S100000x256 S256x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []
  dot_S100000x512_S512x512_S100000x512_1_0_0_1_n_n_wf : DotDims.WF S100000x512 S512x512 S100000x512 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.BitsRegions.Region0.lean ====
/-
  Region 0 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.Kernel.Launch
import proofs.«150991_j71700184039837_1_alg».proof.Proof.Gen.Kernel.Skeleton
import proofs.«150991_j71700184039837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline fetched it
    there or left it in place because its block index had not moved. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds the window's block at every point, whether the pipeline fetched it
    there or left it in place because its block index had not moved. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds the window's block at every point, whether the pipeline fetched it
    there or left it in place because its block index had not moved. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! The body reads and writes each staging buffer whole. -/

abbrev whole0_S1000x512 : Rect S1000x512 := Rect.unit (s := S1000x512) ![0, 0] S1000x512.size inb_S1000x512_S1000x512_0_0
abbrev whole0_S512x256 : Rect S512x256 := Rect.unit (s := S512x256) ![0, 0] S512x256.size inb_S512x256_S512x256_0_0
abbrev whole0_S1x256 : Rect S1x256 := Rect.unit (s := S1x256) ![0, 0] S1x256.size inb_S1x256_S1x256_0_0
abbrev whole0_S1000x256 : Rect S1000x256 := Rect.unit (s := S1000x256) ![0, 0] S1000x256.size inb_S1000x256_S1000x256_0_0

/-- What the body leaves in the output's staging buffer, from the blocks it loaded: its one store, of the
    payload (the product of the first two blocks into a zero accumulator, plus the bias row broadcast down the rows). -/
def stored0 (x0 : Vec F S1000x512 .f32) (x1 : Vec F S512x256 .f32) (x2 : Vec F S1x256 .f32) : Vec F S1000x256 .f32 :=
  View.canon [⟨whole0_S1000x256, k0_pay1 (View.ld x0 whole0_S1000x512) (View.ld x1 whole0_S512x256) (View.ld x2 whole0_S1x256)⟩]

/-- The one store covers the whole buffer. -/
theorem stored0_covers (p0 : Vec F S1000x256 .f32) (y : S1000x256.Idx) :
    ∃ pc ∈ ([⟨whole0_S1000x256, p0⟩] : List (View.Piece (Elt F) S1000x256 .f32)), y ∈ pc.1.set :=
  View.cover_of_tiled [⟨whole0_S1000x256, p0⟩] S1000x256.size (by rfl) y

set_option maxHeartbeats 4000000 in
/-- The body on whole staging buffers, the inputs' at known contents and the output's at anything, runs to a state
    with the inputs' as they were and the output's at `stored0` of them. -/
theorem body_runs0 (c : Dev nD) (E : Set ℕ) (i : grid0.Coords) (a0 : Memref sig .tc .vmem S1000x512 .f32) (h0 : a0.IsWhole) (a1 : Memref sig .tc .vmem S512x256 .f32) (h1 : a1.IsWhole) (a2 : Memref sig .tc .vmem S1x256 .f32) (h2 : a2.IsWhole) (a3 : Memref sig .tc .vmem S1000x256 .f32) (h3 : a3.IsWhole)
    (x0 : Vec F S1000x512 .f32) (x1 : Vec F S512x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored0 x0 x1 x2)) -∗ K ⟨⟩))
      ⊢ wp frame (wpE (defs₀ (F := F)) Variants.none c none) E (cc0__matmul_bias_kernel i a0 h0 a1 h1 a2 h2 a3 h3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored0_covers _)

/-- The proof data of this pipeline on core c: the arrays as the region finds them; after the body at point t each
    input's buffer still at its block and the output's at `stored0` of the input blocks; the invariant is the untouched
    scoped rest and generator register; nothing owed; full shares. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => stored0 (blk0 V c 0 t) (blk0 V c 1 t) (blk0 V c 2 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after0 (c : Dev nD) (t : Fin cfg0.N) : (data0 V c).after 0 t = blk0 V c 0 t := by dsimp only [data0]
theorem data0_after1 (c : Dev nD) (t : Fin cfg0.N) : (data0 V c).after 1 t = blk0 V c 1 t := by dsimp only [data0]
theorem data0_after2 (c : Dev nD) (t : Fin cfg0.N) : (data0 V c).after 2 t = blk0 V c 2 t := by dsimp only [data0]
theorem data0_after3 (c : Dev nD) (t : Fin cfg0.N) : (data0 V c).after 3 t = stored0 (blk0 V c 0 t) (blk0 V c 1 t) (blk0 V c 2 t) := by dsimp only [data0]
theorem data0_found0 (c : Dev nD) (t : Fin cfg0.N) (d) : (data0 V c).before 0 t d = blk0 V c 0 t :=
  found0_0_of V (data0 V c) (data0_A V c 0) (data0_after0 V c) t d
theorem data0_found1 (c : Dev nD) (t : Fin cfg0.N) (d) : (data0 V c).before 1 t d = blk0 V c 1 t :=
  found0_1_of V (data0 V c) (data0_A V c 1) (data0_after1 V c) t d
theorem data0_found2 (c : Dev nD) (t : Fin cfg0.N) (d) : (data0 V c).before 2 t d = blk0 V c 2 t :=
  found0_2_of V (data0 V c) (data0_A V c 2) (data0_after2 V c) t d

/-- What the body is called with at point t, and what it returns. -/
def called0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any point: the inputs' buffers hold their blocks, so `body_runs0` applies; the invariant and the
    core's dues pass through unread. -/
theorem point_runs0 (c : Dev nD) (t : Fin cfg0.N) :
    called0 V c t ⊢ wp frame (wpE (defs₀ (F := F)) Variants.none c none) Set.univ (bodyAt0 t) (fun _ => returned0 V c t) := by
  unfold called0 returned0 bodyAt0
  simp only [data0_found0, data0_found1, data0_found2]
  rw [show (data0 V c).Φ t.succ = (data0 V c).Φ t.castSucc from rfl,
    show (data0 V c).owesAt () t.succ = (data0 V c).owesAt () t.castSucc from rfl,
    data0_after0, data0_after1, data0_after2, data0_after3]
  iintro ⟨HΦ, Ho, ⟨%d0, H0⟩, ⟨%d1, H1⟩, ⟨%d2, H2⟩, ⟨%d3, H3⟩⟩
  iapply (body_runs0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation0 (c : Dev nD) : BodyObligation (data0 (F := F) V c) (defs₀ (F := F)) Variants.none () Set.univ := fun t => by
  rw [bigSep_W0, bigSep_W0]
  exact point_runs0 V c t

end Cert.Kernel.Frame

end
-- ==== Proof.BitsRegions.Region1.lean ====
/-
  Region 1 of the program's main function, one grid point at a time: one row block of max(a + bias row, 0).
  The grid has 100 points; point t reads rows 1000·t … 1000·t + 999 of the first operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.Kernel.Launch
import proofs.«150991_j71700184039837_1_alg».proof.Proof.Gen.Kernel.Skeleton
import proofs.«150991_j71700184039837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the pipeline fetched it
    there or left it in place because its block index had not moved. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds the window's block at every point, whether the pipeline fetched it
    there or left it in place because its block index had not moved. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! The body reads and writes each staging buffer whole. -/

abbrev whole1_S1000x256 : Rect S1000x256 := Rect.unit (s := S1000x256) ![0, 0] S1000x256.size inb_S1000x256_S1000x256_0_0
abbrev whole1_S1x256 : Rect S1x256 := Rect.unit (s := S1x256) ![0, 0] S1x256.size inb_S1x256_S1x256_0_0

/-- What the body leaves in the output's staging buffer, from the blocks it loaded: its one store, of the
    payload (the block plus the bias row broadcast down the rows, then the maximum with zero). -/
def stored1 (x0 : Vec F S1000x256 .f32) (x1 : Vec F S1x256 .f32) : Vec F S1000x256 .f32 :=
  View.canon [⟨whole1_S1000x256, k1_pay1 (View.ld x0 whole1_S1000x256) (View.ld x1 whole1_S1x256)⟩]

/-- The one store covers the whole buffer. -/
theorem stored1_covers (p0 : Vec F S1000x256 .f32) (y : S1000x256.Idx) :
    ∃ pc ∈ ([⟨whole1_S1000x256, p0⟩] : List (View.Piece (Elt F) S1000x256 .f32)), y ∈ pc.1.set :=
  View.cover_of_tiled [⟨whole1_S1000x256, p0⟩] S1000x256.size (by rfl) y

set_option maxHeartbeats 4000000 in
/-- The body on whole staging buffers, the inputs' at known contents and the output's at anything, runs to a state
    with the inputs' as they were and the output's at `stored1` of them. -/
theorem body_runs1 (c : Dev nD) (E : Set ℕ) (i : grid1.Coords) (a0 : Memref sig .tc .vmem S1000x256 .f32) (h0 : a0.IsWhole) (a1 : Memref sig .tc .vmem S1x256 .f32) (h1 : a1.IsWhole) (a2 : Memref sig .tc .vmem S1000x256 .f32) (h2 : a2.IsWhole)
    (x0 : Vec F S1000x256 .f32) (x1 : Vec F S1x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored1 x0 x1)) -∗ K ⟨⟩))
      ⊢ wp frame (wpE (defs₀ (F := F)) Variants.none c none) E (cc1__bias_relu_kernel i a0 h0 a1 h1 a2 h2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The proof data of this pipeline on core c: the arrays as the region finds them; after the body at point t each
    input's buffer still at its block and the output's at `stored1` of the input blocks; the invariant is the untouched
    scoped rest and generator register; nothing owed; full shares. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => stored1 (blk1 V c 0 t) (blk1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after0 (c : Dev nD) (t : Fin cfg1.N) : (data1 V c).after 0 t = blk1 V c 0 t := by dsimp only [data1]
theorem data1_after1 (c : Dev nD) (t : Fin cfg1.N) : (data1 V c).after 1 t = blk1 V c 1 t := by dsimp only [data1]
theorem data1_after2 (c : Dev nD) (t : Fin cfg1.N) : (data1 V c).after 2 t = stored1 (blk1 V c 0 t) (blk1 V c 1 t) := by dsimp only [data1]
theorem data1_found0 (c : Dev nD) (t : Fin cfg1.N) (d) : (data1 V c).before 0 t d = blk1 V c 0 t :=
  found1_0_of V (data1 V c) (data1_A V c 0) (data1_after0 V c) t d
theorem data1_found1 (c : Dev nD) (t : Fin cfg1.N) (d) : (data1 V c).before 1 t d = blk1 V c 1 t :=
  found1_1_of V (data1 V c) (data1_A V c 1) (data1_after1 V c) t d

/-- What the body is called with at point t, and what it returns. -/
def called1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the inputs' buffers hold their blocks, so `body_runs1` applies; the invariant and the
    core's dues pass through unread. -/
theorem point_runs1 (c : Dev nD) (t : Fin cfg1.N) :
    called1 V c t ⊢ wp frame (wpE (defs₀ (F := F)) Variants.none c none) Set.univ (bodyAt1 t) (fun _ => returned1 V c t) := by
  unfold called1 returned1 bodyAt1
  simp only [data1_found0, data1_found1]
  rw [show (data1 V c).Φ t.succ = (data1 V c).Φ t.castSucc from rfl,
    show (data1 V c).owesAt () t.succ = (data1 V c).owesAt () t.castSucc from rfl,
    data1_after0, data1_after1, data1_after2]
  iintro ⟨HΦ, Ho, ⟨%d0, H0⟩, ⟨%d1, H1⟩, ⟨%d2, H2⟩⟩
  iapply (body_runs1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem obligation1 (c : Dev nD) : BodyObligation (data1 (F := F) V c) (defs₀ (F := F)) Variants.none () Set.univ := fun t => by
  rw [bigSep_W1, bigSep_W1]
  exact point_runs1 V c t

end Cert.Kernel.Frame

end
-- ==== Proof.BitsRegions.Region2.lean ====
/-
  Region 2 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.Kernel.Launch
import proofs.«150991_j71700184039837_1_alg».proof.Proof.Gen.Kernel.Skeleton
import proofs.«150991_j71700184039837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the pipeline fetched it
    there or left it in place because its block index had not moved. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds the window's block at every point, whether the pipeline fetched it
    there or left it in place because its block index had not moved. -/
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's current staging buffer holds the window's block at every point, whether the pipeline fetched it
    there or left it in place because its block index had not moved. -/
theorem found2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! The body reads and writes each staging buffer whole. -/

abbrev whole2_S1000x256 : Rect S1000x256 := Rect.unit (s := S1000x256) ![0, 0] S1000x256.size inb_S1000x256_S1000x256_0_0
abbrev whole2_S256x128 : Rect S256x128 := Rect.unit (s := S256x128) ![0, 0] S256x128.size inb_S256x128_S256x128_0_0
abbrev whole2_S1x128 : Rect S1x128 := Rect.unit (s := S1x128) ![0, 0] S1x128.size inb_S1x128_S1x128_0_0
abbrev whole2_S1000x128 : Rect S1000x128 := Rect.unit (s := S1000x128) ![0, 0] S1000x128.size inb_S1000x128_S1000x128_0_0

/-- What the body leaves in the output's staging buffer, from the blocks it loaded: its one store, of the
    payload (the product of the first two blocks into a zero accumulator, plus the bias row broadcast down the rows). -/
def stored2 (x0 : Vec F S1000x256 .f32) (x1 : Vec F S256x128 .f32) (x2 : Vec F S1x128 .f32) : Vec F S1000x128 .f32 :=
  View.canon [⟨whole2_S1000x128, k2_pay1 (View.ld x0 whole2_S1000x256) (View.ld x1 whole2_S256x128) (View.ld x2 whole2_S1x128)⟩]

/-- The one store covers the whole buffer. -/
theorem stored2_covers (p0 : Vec F S1000x128 .f32) (y : S1000x128.Idx) :
    ∃ pc ∈ ([⟨whole2_S1000x128, p0⟩] : List (View.Piece (Elt F) S1000x128 .f32)), y ∈ pc.1.set :=
  View.cover_of_tiled [⟨whole2_S1000x128, p0⟩] S1000x128.size (by rfl) y

set_option maxHeartbeats 4000000 in
/-- The body on whole staging buffers, the inputs' at known contents and the output's at anything, runs to a state
    with the inputs' as they were and the output's at `stored2` of them. -/
theorem body_runs2 (c : Dev nD) (E : Set ℕ) (i : grid2.Coords) (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored2 x0 x1 x2)) -∗ K ⟨⟩))
      ⊢ wp frame (wpE (defs₀ (F := F)) Variants.none c none) E (cc2__matmul_bias_kernel i a0 h0 a1 h1 a2 h2 a3 h3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored2_covers _)

/-- The proof data of this pipeline on core c: the arrays as the region finds them; after the body at point t each
    input's buffer still at its block and the output's at `stored2` of the input blocks; the invariant is the untouched
    scoped rest and generator register; nothing owed; full shares. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => stored2 (blk2 V c 0 t) (blk2 V c 1 t) (blk2 V c 2 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after0 (c : Dev nD) (t : Fin cfg2.N) : (data2 V c).after 0 t = blk2 V c 0 t := by dsimp only [data2]
theorem data2_after1 (c : Dev nD) (t : Fin cfg2.N) : (data2 V c).after 1 t = blk2 V c 1 t := by dsimp only [data2]
theorem data2_after2 (c : Dev nD) (t : Fin cfg2.N) : (data2 V c).after 2 t = blk2 V c 2 t := by dsimp only [data2]
theorem data2_after3 (c : Dev nD) (t : Fin cfg2.N) : (data2 V c).after 3 t = stored2 (blk2 V c 0 t) (blk2 V c 1 t) (blk2 V c 2 t) := by dsimp only [data2]
theorem data2_found0 (c : Dev nD) (t : Fin cfg2.N) (d) : (data2 V c).before 0 t d = blk2 V c 0 t :=
  found2_0_of V (data2 V c) (data2_A V c 0) (data2_after0 V c) t d
theorem data2_found1 (c : Dev nD) (t : Fin cfg2.N) (d) : (data2 V c).before 1 t d = blk2 V c 1 t :=
  found2_1_of V (data2 V c) (data2_A V c 1) (data2_after1 V c) t d
theorem data2_found2 (c : Dev nD) (t : Fin cfg2.N) (d) : (data2 V c).before 2 t d = blk2 V c 2 t :=
  found2_2_of V (data2 V c) (data2_A V c 2) (data2_after2 V c) t d

/-- What the body is called with at point t, and what it returns. -/
def called2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

/-- The body at any point: the inputs' buffers hold their blocks, so `body_runs2` applies; the invariant and the
    core's dues pass through unread. -/
theorem point_runs2 (c : Dev nD) (t : Fin cfg2.N) :
    called2 V c t ⊢ wp frame (wpE (defs₀ (F := F)) Variants.none c none) Set.univ (bodyAt2 t) (fun _ => returned2 V c t) := by
  unfold called2 returned2 bodyAt2
  simp only [data2_found0, data2_found1, data2_found2]
  rw [show (data2 V c).Φ t.succ = (data2 V c).Φ t.castSucc from rfl,
    show (data2 V c).owesAt () t.succ = (data2 V c).owesAt () t.castSucc from rfl,
    data2_after0, data2_after1, data2_after2, data2_after3]
  iintro ⟨HΦ, Ho, ⟨%d0, H0⟩, ⟨%d1, H1⟩, ⟨%d2, H2⟩, ⟨%d3, H3⟩⟩
  iapply (body_runs2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation2 (c : Dev nD) : BodyObligation (data2 (F := F) V c) (defs₀ (F := F)) Variants.none () Set.univ := fun t => by
  rw [bigSep_W2, bigSep_W2]
  exact point_runs2 V c t

end Cert.Kernel.Frame

end
-- ==== Proof.BitsRegions.Region3.lean ====
/-
  Region 3 of the program's main function, one grid point at a time: one row block of max(a + bias row, 0).
  The grid has 100 points; point t reads rows 1000·t … 1000·t + 999 of the first operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.Kernel.Launch
import proofs.«150991_j71700184039837_1_alg».proof.Proof.Gen.Kernel.Skeleton
import proofs.«150991_j71700184039837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, whether the pipeline fetched it
    there or left it in place because its block index had not moved. -/
theorem found3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's current staging buffer holds the window's block at every point, whether the pipeline fetched it
    there or left it in place because its block index had not moved. -/
theorem found3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! The body reads and writes each staging buffer whole. -/

abbrev whole3_S1000x128 : Rect S1000x128 := Rect.unit (s := S1000x128) ![0, 0] S1000x128.size inb_S1000x128_S1000x128_0_0
abbrev whole3_S1x128 : Rect S1x128 := Rect.unit (s := S1x128) ![0, 0] S1x128.size inb_S1x128_S1x128_0_0

/-- What the body leaves in the output's staging buffer, from the blocks it loaded: its one store, of the
    payload (the block plus the bias row broadcast down the rows, then the maximum with zero). -/
def stored3 (x0 : Vec F S1000x128 .f32) (x1 : Vec F S1x128 .f32) : Vec F S1000x128 .f32 :=
  View.canon [⟨whole3_S1000x128, k3_pay1 (View.ld x0 whole3_S1000x128) (View.ld x1 whole3_S1x128)⟩]

/-- The one store covers the whole buffer. -/
theorem stored3_covers (p0 : Vec F S1000x128 .f32) (y : S1000x128.Idx) :
    ∃ pc ∈ ([⟨whole3_S1000x128, p0⟩] : List (View.Piece (Elt F) S1000x128 .f32)), y ∈ pc.1.set :=
  View.cover_of_tiled [⟨whole3_S1000x128, p0⟩] S1000x128.size (by rfl) y

set_option maxHeartbeats 4000000 in
/-- The body on whole staging buffers, the inputs' at known contents and the output's at anything, runs to a state
    with the inputs' as they were and the output's at `stored3` of them. -/
theorem body_runs3 (c : Dev nD) (E : Set ℕ) (i : grid3.Coords) (a0 : Memref sig .tc .vmem S1000x128 .f32) (h0 : a0.IsWhole) (a1 : Memref sig .tc .vmem S1x128 .f32) (h1 : a1.IsWhole) (a2 : Memref sig .tc .vmem S1000x128 .f32) (h2 : a2.IsWhole)
    (x0 : Vec F S1000x128 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored3 x0 x1)) -∗ K ⟨⟩))
      ⊢ wp frame (wpE (defs₀ (F := F)) Variants.none c none) E (cc3__bias_relu_kernel i a0 h0 a1 h1 a2 h2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored3_covers _)

/-- The proof data of this pipeline on core c: the arrays as the region finds them; after the body at point t each
    input's buffer still at its block and the output's at `stored3` of the input blocks; the invariant is the untouched
    scoped rest and generator register; nothing owed; full shares. -/
def data3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => stored3 (blk3 V c 0 t) (blk3 V c 1 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after0 (c : Dev nD) (t : Fin cfg3.N) : (data3 V c).after 0 t = blk3 V c 0 t := by dsimp only [data3]
theorem data3_after1 (c : Dev nD) (t : Fin cfg3.N) : (data3 V c).after 1 t = blk3 V c 1 t := by dsimp only [data3]
theorem data3_after2 (c : Dev nD) (t : Fin cfg3.N) : (data3 V c).after 2 t = stored3 (blk3 V c 0 t) (blk3 V c 1 t) := by dsimp only [data3]
theorem data3_found0 (c : Dev nD) (t : Fin cfg3.N) (d) : (data3 V c).before 0 t d = blk3 V c 0 t :=
  found3_0_of V (data3 V c) (data3_A V c 0) (data3_after0 V c) t d
theorem data3_found1 (c : Dev nD) (t : Fin cfg3.N) (d) : (data3 V c).before 1 t d = blk3 V c 1 t :=
  found3_1_of V (data3 V c) (data3_A V c 1) (data3_after1 V c) t d

/-- What the body is called with at point t, and what it returns. -/
def called3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

/-- The body at any point: the inputs' buffers hold their blocks, so `body_runs3` applies; the invariant and the
    core's dues pass through unread. -/
theorem point_runs3 (c : Dev nD) (t : Fin cfg3.N) :
    called3 V c t ⊢ wp frame (wpE (defs₀ (F := F)) Variants.none c none) Set.univ (bodyAt3 t) (fun _ => returned3 V c t) := by
  unfold called3 returned3 bodyAt3
  simp only [data3_found0, data3_found1]
  rw [show (data3 V c).Φ t.succ = (data3 V c).Φ t.castSucc from rfl,
    show (data3 V c).owesAt () t.succ = (data3 V c).owesAt () t.castSucc from rfl,
    data3_after0, data3_after1, data3_after2]
  iintro ⟨HΦ, Ho, ⟨%d0, H0⟩, ⟨%d1, H1⟩, ⟨%d2, H2⟩⟩
  iapply (body_runs3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem obligation3 (c : Dev nD) : BodyObligation (data3 (F := F) V c) (defs₀ (F := F)) Variants.none () Set.univ := fun t => by
  rw [bigSep_W3, bigSep_W3]
  exact point_runs3 V c t

end Cert.Kernel.Frame

end
-- ==== Proof.BitsRegions.Region4.lean ====
/-
  Region 4 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.Kernel.Launch
import proofs.«150991_j71700184039837_1_alg».proof.Proof.Gen.Kernel.Skeleton
import proofs.«150991_j71700184039837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, whether the pipeline fetched it
    there or left it in place because its block index had not moved. -/
theorem found4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1's current staging buffer holds the window's block at every point, whether the pipeline fetched it
    there or left it in place because its block index had not moved. -/
theorem found4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2's current staging buffer holds the window's block at every point, whether the pipeline fetched it
    there or left it in place because its block index had not moved. -/
theorem found4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-! The body reads and writes each staging buffer whole. -/

abbrev whole4_S1000x128 : Rect S1000x128 := Rect.unit (s := S1000x128) ![0, 0] S1000x128.size inb_S1000x128_S1000x128_0_0
abbrev whole4_S128x128 : Rect S128x128 := Rect.unit (s := S128x128) ![0, 0] S128x128.size inb_S128x128_S128x128_0_0
abbrev whole4_S1x128 : Rect S1x128 := Rect.unit (s := S1x128) ![0, 0] S1x128.size inb_S1x128_S1x128_0_0

/-- What the body leaves in the output's staging buffer, from the blocks it loaded: its one store, of the
    payload (the product of the first two blocks into a zero accumulator, plus the bias row broadcast down the rows). -/
def stored4 (x0 : Vec F S1000x128 .f32) (x1 : Vec F S128x128 .f32) (x2 : Vec F S1x128 .f32) : Vec F S1000x128 .f32 :=
  View.canon [⟨whole4_S1000x128, k4_pay1 (View.ld x0 whole4_S1000x128) (View.ld x1 whole4_S128x128) (View.ld x2 whole4_S1x128)⟩]

/-- The one store covers the whole buffer. -/
theorem stored4_covers (p0 : Vec F S1000x128 .f32) (y : S1000x128.Idx) :
    ∃ pc ∈ ([⟨whole4_S1000x128, p0⟩] : List (View.Piece (Elt F) S1000x128 .f32)), y ∈ pc.1.set :=
  View.cover_of_tiled [⟨whole4_S1000x128, p0⟩] S1000x128.size (by rfl) y

set_option maxHeartbeats 4000000 in
/-- The body on whole staging buffers, the inputs' at known contents and the output's at anything, runs to a state
    with the inputs' as they were and the output's at `stored4` of them. -/
theorem body_runs4 (c : Dev nD) (E : Set ℕ) (i : grid4.Coords) (a0 : Memref sig .tc .vmem S1000x128 .f32) (h0 : a0.IsWhole) (a1 : Memref sig .tc .vmem S128x128 .f32) (h1 : a1.IsWhole) (a2 : Memref sig .tc .vmem S1x128 .f32) (h2 : a2.IsWhole) (a3 : Memref sig .tc .vmem S1000x128 .f32) (h3 : a3.IsWhole)
    (x0 : Vec F S1000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored4 x0 x1 x2)) -∗ K ⟨⟩))
      ⊢ wp frame (wpE (defs₀ (F := F)) Variants.none c none) E (cc4__matmul_bias_kernel i a0 h0 a1 h1 a2 h2 a3 h3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored4_covers _)

/-- The proof data of this pipeline on core c: the arrays as the region finds them; after the body at point t each
    input's buffer still at its block and the output's at `stored4` of the input blocks; the invariant is the untouched
    scoped rest and generator register; nothing owed; full shares. -/
def data4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => stored4 (blk4 V c 0 t) (blk4 V c 1 t) (blk4 V c 2 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after0 (c : Dev nD) (t : Fin cfg4.N) : (data4 V c).after 0 t = blk4 V c 0 t := by dsimp only [data4]
theorem data4_after1 (c : Dev nD) (t : Fin cfg4.N) : (data4 V c).after 1 t = blk4 V c 1 t := by dsimp only [data4]
theorem data4_after2 (c : Dev nD) (t : Fin cfg4.N) : (data4 V c).after 2 t = blk4 V c 2 t := by dsimp only [data4]
theorem data4_after3 (c : Dev nD) (t : Fin cfg4.N) : (data4 V c).after 3 t = stored4 (blk4 V c 0 t) (blk4 V c 1 t) (blk4 V c 2 t) := by dsimp only [data4]
theorem data4_found0 (c : Dev nD) (t : Fin cfg4.N) (d) : (data4 V c).before 0 t d = blk4 V c 0 t :=
  found4_0_of V (data4 V c) (data4_A V c 0) (data4_after0 V c) t d
theorem data4_found1 (c : Dev nD) (t : Fin cfg4.N) (d) : (data4 V c).before 1 t d = blk4 V c 1 t :=
  found4_1_of V (data4 V c) (data4_A V c 1) (data4_after1 V c) t d
theorem data4_found2 (c : Dev nD) (t : Fin cfg4.N) (d) : (data4 V c).before 2 t d = blk4 V c 2 t :=
  found4_2_of V (data4 V c) (data4_A V c 2) (data4_after2 V c) t d

/-- What the body is called with at point t, and what it returns. -/
def called4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d))
    ∗ (∃ d, owns (c : Thread nD τ) (st4_3 t) fullShare ((data4 V c).before 3 t d)))

def returned4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t)
    ∗ owns (c : Thread nD τ) (st4_3 t) fullShare ((data4 V c).after 3 t))

/-- The body at any point: the inputs' buffers hold their blocks, so `body_runs4` applies; the invariant and the
    core's dues pass through unread. -/
theorem point_runs4 (c : Dev nD) (t : Fin cfg4.N) :
    called4 V c t ⊢ wp frame (wpE (defs₀ (F := F)) Variants.none c none) Set.univ (bodyAt4 t) (fun _ => returned4 V c t) := by
  unfold called4 returned4 bodyAt4
  simp only [data4_found0, data4_found1, data4_found2]
  rw [show (data4 V c).Φ t.succ = (data4 V c).Φ t.castSucc from rfl,
    show (data4 V c).owesAt () t.succ = (data4 V c).owesAt () t.castSucc from rfl,
    data4_after0, data4_after1, data4_after2, data4_after3]
  iintro ⟨HΦ, Ho, ⟨%d0, H0⟩, ⟨%d1, H1⟩, ⟨%d2, H2⟩, ⟨%d3, H3⟩⟩
  iapply (body_runs4 c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation4 (c : Dev nD) : BodyObligation (data4 (F := F) V c) (defs₀ (F := F)) Variants.none () Set.univ := fun t => by
  rw [bigSep_W4, bigSep_W4]
  exact point_runs4 V c t

end Cert.Kernel.Frame

end
-- ==== Proof.BitsRegions.Region5.lean ====
/-
  Region 5 of the program's main function, one grid point at a time: one row block of max(a + bias row, 0).
  The grid has 100 points; point t reads rows 1000·t … 1000·t + 999 of the first operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.Kernel.Launch
import proofs.«150991_j71700184039837_1_alg».proof.Proof.Gen.Kernel.Skeleton
import proofs.«150991_j71700184039837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, whether the pipeline fetched it
    there or left it in place because its block index had not moved. -/
theorem found5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- Input window 1's current staging buffer holds the window's block at every point, whether the pipeline fetched it
    there or left it in place because its block index had not moved. -/
theorem found5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-! The body reads and writes each staging buffer whole. -/

abbrev whole5_S1000x128 : Rect S1000x128 := Rect.unit (s := S1000x128) ![0, 0] S1000x128.size inb_S1000x128_S1000x128_0_0
abbrev whole5_S1x128 : Rect S1x128 := Rect.unit (s := S1x128) ![0, 0] S1x128.size inb_S1x128_S1x128_0_0

/-- What the body leaves in the output's staging buffer, from the blocks it loaded: its one store, of the
    payload (the block plus the bias row broadcast down the rows, then the maximum with zero). -/
def stored5 (x0 : Vec F S1000x128 .f32) (x1 : Vec F S1x128 .f32) : Vec F S1000x128 .f32 :=
  View.canon [⟨whole5_S1000x128, k5_pay1 (View.ld x0 whole5_S1000x128) (View.ld x1 whole5_S1x128)⟩]

/-- The one store covers the whole buffer. -/
theorem stored5_covers (p0 : Vec F S1000x128 .f32) (y : S1000x128.Idx) :
    ∃ pc ∈ ([⟨whole5_S1000x128, p0⟩] : List (View.Piece (Elt F) S1000x128 .f32)), y ∈ pc.1.set :=
  View.cover_of_tiled [⟨whole5_S1000x128, p0⟩] S1000x128.size (by rfl) y

set_option maxHeartbeats 4000000 in
/-- The body on whole staging buffers, the inputs' at known contents and the output's at anything, runs to a state
    with the inputs' as they were and the output's at `stored5` of them. -/
theorem body_runs5 (c : Dev nD) (E : Set ℕ) (i : grid5.Coords) (a0 : Memref sig .tc .vmem S1000x128 .f32) (h0 : a0.IsWhole) (a1 : Memref sig .tc .vmem S1x128 .f32) (h1 : a1.IsWhole) (a2 : Memref sig .tc .vmem S1000x128 .f32) (h2 : a2.IsWhole)
    (x0 : Vec F S1000x128 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored5 x0 x1)) -∗ K ⟨⟩))
      ⊢ wp frame (wpE (defs₀ (F := F)) Variants.none c none) E (cc5__bias_relu_kernel i a0 h0 a1 h1 a2 h2) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored5_covers _)

/-- The proof data of this pipeline on core c: the arrays as the region finds them; after the body at point t each
    input's buffer still at its block and the output's at `stored5` of the input blocks; the invariant is the untouched
    scoped rest and generator register; nothing owed; full shares. -/
def data5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => stored5 (blk5 V c 0 t) (blk5 V c 1 t)
  Φ _ := Pipeline.ΦA spec5 c
  q _ := fullShare
  owed _ := 0

theorem data5_A (c : Dev nD) (w : Fin cfg5.W) : (data5 V c).A w = V c (Pipeline.arrRef spec5 w) := by
  dsimp only [data5]
theorem data5_after0 (c : Dev nD) (t : Fin cfg5.N) : (data5 V c).after 0 t = blk5 V c 0 t := by dsimp only [data5]
theorem data5_after1 (c : Dev nD) (t : Fin cfg5.N) : (data5 V c).after 1 t = blk5 V c 1 t := by dsimp only [data5]
theorem data5_after2 (c : Dev nD) (t : Fin cfg5.N) : (data5 V c).after 2 t = stored5 (blk5 V c 0 t) (blk5 V c 1 t) := by dsimp only [data5]
theorem data5_found0 (c : Dev nD) (t : Fin cfg5.N) (d) : (data5 V c).before 0 t d = blk5 V c 0 t :=
  found5_0_of V (data5 V c) (data5_A V c 0) (data5_after0 V c) t d
theorem data5_found1 (c : Dev nD) (t : Fin cfg5.N) (d) : (data5 V c).before 1 t d = blk5 V c 1 t :=
  found5_1_of V (data5 V c) (data5_A V c 1) (data5_after1 V c) t d

/-- What the body is called with at point t, and what it returns. -/
def called5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d)))

def returned5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t))

/-- The body at any point: the inputs' buffers hold their blocks, so `body_runs5` applies; the invariant and the
    core's dues pass through unread. -/
theorem point_runs5 (c : Dev nD) (t : Fin cfg5.N) :
    called5 V c t ⊢ wp frame (wpE (defs₀ (F := F)) Variants.none c none) Set.univ (bodyAt5 t) (fun _ => returned5 V c t) := by
  unfold called5 returned5 bodyAt5
  simp only [data5_found0, data5_found1]
  rw [show (data5 V c).Φ t.succ = (data5 V c).Φ t.castSucc from rfl,
    show (data5 V c).owesAt () t.succ = (data5 V c).owesAt () t.castSucc from rfl,
    data5_after0, data5_after1, data5_after2]
  iintro ⟨HΦ, Ho, ⟨%d0, H0⟩, ⟨%d1, H1⟩, ⟨%d2, H2⟩⟩
  iapply (body_runs5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem obligation5 (c : Dev nD) : BodyObligation (data5 (F := F) V c) (defs₀ (F := F)) Variants.none () Set.univ := fun t => by
  rw [bigSep_W5, bigSep_W5]
  exact point_runs5 V c t

end Cert.Kernel.Frame

end
-- ==== Proof.BitsRegions.Region6.lean ====
/-
  Region 6 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.Kernel.Launch
import proofs.«150991_j71700184039837_1_alg».proof.Proof.Gen.Kernel.Skeleton
import proofs.«150991_j71700184039837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds the window's block at every point, whether the pipeline fetched it
    there or left it in place because its block index had not moved. -/
theorem found6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- Input window 1's current staging buffer holds the window's block at every point, whether the pipeline fetched it
    there or left it in place because its block index had not moved. -/
theorem found6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- Input window 2's current staging buffer holds the window's block at every point, whether the pipeline fetched it
    there or left it in place because its block index had not moved. -/
theorem found6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-! The body reads and writes each staging buffer whole. -/

abbrev whole6_S1000x512 : Rect S1000x512 := Rect.unit (s := S1000x512) ![0, 0] S1000x512.size inb_S1000x512_S1000x512_0_0
abbrev whole6_S512x512 : Rect S512x512 := Rect.unit (s := S512x512) ![0, 0] S512x512.size inb_S512x512_S512x512_0_0
abbrev whole6_S1x512 : Rect S1x512 := Rect.unit (s := S1x512) ![0, 0] S1x512.size inb_S1x512_S1x512_0_0

/-- What the body leaves in the output's staging buffer, from the blocks it loaded: its one store, of the
    payload (the product of the first two blocks into a zero accumulator, plus the bias row broadcast down the rows). -/
def stored6 (x0 : Vec F S1000x512 .f32) (x1 : Vec F S512x512 .f32) (x2 : Vec F S1x512 .f32) : Vec F S1000x512 .f32 :=
  View.canon [⟨whole6_S1000x512, k6_pay1 (View.ld x0 whole6_S1000x512) (View.ld x1 whole6_S512x512) (View.ld x2 whole6_S1x512)⟩]

/-- The one store covers the whole buffer. -/
theorem stored6_covers (p0 : Vec F S1000x512 .f32) (y : S1000x512.Idx) :
    ∃ pc ∈ ([⟨whole6_S1000x512, p0⟩] : List (View.Piece (Elt F) S1000x512 .f32)), y ∈ pc.1.set :=
  View.cover_of_tiled [⟨whole6_S1000x512, p0⟩] S1000x512.size (by rfl) y

set_option maxHeartbeats 4000000 in
/-- The body on whole staging buffers, the inputs' at known contents and the output's at anything, runs to a state
    with the inputs' as they were and the output's at `stored6` of them. -/
theorem body_runs6 (c : Dev nD) (E : Set ℕ) (i : grid6.Coords) (a0 : Memref sig .tc .vmem S1000x512 .f32) (h0 : a0.IsWhole) (a1 : Memref sig .tc .vmem S512x512 .f32) (h1 : a1.IsWhole) (a2 : Memref sig .tc .vmem S1x512 .f32) (h2 : a2.IsWhole) (a3 : Memref sig .tc .vmem S1000x512 .f32) (h3 : a3.IsWhole)
    (x0 : Vec F S1000x512 .f32) (x1 : Vec F S512x512 .f32) (x2 : Vec F S1x512 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored6 x0 x1 x2)) -∗ K ⟨⟩))
      ⊢ wp frame (wpE (defs₀ (F := F)) Variants.none c none) E (cc6__matmul_bias_kernel i a0 h0 a1 h1 a2 h2 a3 h3) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored6_covers _)

/-- The proof data of this pipeline on core c: the arrays as the region finds them; after the body at point t each
    input's buffer still at its block and the output's at `stored6` of the input blocks; the invariant is the untouched
    scoped rest and generator register; nothing owed; full shares. -/
def data6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => stored6 (blk6 V c 0 t) (blk6 V c 1 t) (blk6 V c 2 t)
  Φ _ := Pipeline.ΦA spec6 c
  q _ := fullShare
  owed _ := 0

theorem data6_A (c : Dev nD) (w : Fin cfg6.W) : (data6 V c).A w = V c (Pipeline.arrRef spec6 w) := by
  dsimp only [data6]
theorem data6_after0 (c : Dev nD) (t : Fin cfg6.N) : (data6 V c).after 0 t = blk6 V c 0 t := by dsimp only [data6]
theorem data6_after1 (c : Dev nD) (t : Fin cfg6.N) : (data6 V c).after 1 t = blk6 V c 1 t := by dsimp only [data6]
theorem data6_after2 (c : Dev nD) (t : Fin cfg6.N) : (data6 V c).after 2 t = blk6 V c 2 t := by dsimp only [data6]
theorem data6_after3 (c : Dev nD) (t : Fin cfg6.N) : (data6 V c).after 3 t = stored6 (blk6 V c 0 t) (blk6 V c 1 t) (blk6 V c 2 t) := by dsimp only [data6]
theorem data6_found0 (c : Dev nD) (t : Fin cfg6.N) (d) : (data6 V c).before 0 t d = blk6 V c 0 t :=
  found6_0_of V (data6 V c) (data6_A V c 0) (data6_after0 V c) t d
theorem data6_found1 (c : Dev nD) (t : Fin cfg6.N) (d) : (data6 V c).before 1 t d = blk6 V c 1 t :=
  found6_1_of V (data6 V c) (data6_A V c 1) (data6_after1 V c) t d
theorem data6_found2 (c : Dev nD) (t : Fin cfg6.N) (d) : (data6 V c).before 2 t d = blk6 V c 2 t :=
  found6_2_of V (data6 V c) (data6_A V c 2) (data6_after2 V c) t d

/-- What the body is called with at point t, and what it returns. -/
def called6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d))
    ∗ (∃ d, owns (c : Thread nD τ) (st6_3 t) fullShare ((data6 V c).before 3 t d)))

def returned6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t)
    ∗ owns (c : Thread nD τ) (st6_3 t) fullShare ((data6 V c).after 3 t))

/-- The body at any point: the inputs' buffers hold their blocks, so `body_runs6` applies; the invariant and the
    core's dues pass through unread. -/
theorem point_runs6 (c : Dev nD) (t : Fin cfg6.N) :
    called6 V c t ⊢ wp frame (wpE (defs₀ (F := F)) Variants.none c none) Set.univ (bodyAt6 t) (fun _ => returned6 V c t) := by
  unfold called6 returned6 bodyAt6
  simp only [data6_found0, data6_found1, data6_found2]
  rw [show (data6 V c).Φ t.succ = (data6 V c).Φ t.castSucc from rfl,
    show (data6 V c).owesAt () t.succ = (data6 V c).owesAt () t.castSucc from rfl,
    data6_after0, data6_after1, data6_after2, data6_after3]
  iintro ⟨HΦ, Ho, ⟨%d0, H0⟩, ⟨%d1, H1⟩, ⟨%d2, H2⟩, ⟨%d3, H3⟩⟩
  iapply (body_runs6 c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation6 (c : Dev nD) : BodyObligation (data6 (F := F) V c) (defs₀ (F := F)) Variants.none () Set.univ := fun t => by
  rw [bigSep_W6, bigSep_W6]
  exact point_runs6 V c t

end Cert.Kernel.Frame

end
-- ==== Proof.BitsRun.lean ====
/-
  The whole run of the program's main function: seven kernel regions among stretches of host operations.
  Between two items, every unscoped buffer of the core is held whole at known contents; a host stretch maps the
  contents by its operations' functions, and a region replaces its result array by what its hundred write-backs
  leave and changes nothing else. What region k leaves depends on what the regions before it left, so the arrays the
  regions leave are fixed one region at a time (`left1` … `left7`), each from the contents its region is entered with.
  From one record per region (the layout, the body obligation, and the four entailments that take the region's arrays
  out of the held buffers and put them back) the library's several-region launch gives the run.
-/
import proofs.«150991_j71700184039837_1_alg».proof.Proof.BitsRegions.Region0
import proofs.«150991_j71700184039837_1_alg».proof.Proof.BitsRegions.Region1
import proofs.«150991_j71700184039837_1_alg».proof.Proof.BitsRegions.Region2
import proofs.«150991_j71700184039837_1_alg».proof.Proof.BitsRegions.Region3
import proofs.«150991_j71700184039837_1_alg».proof.Proof.BitsRegions.Region4
import proofs.«150991_j71700184039837_1_alg».proof.Proof.BitsRegions.Region5
import proofs.«150991_j71700184039837_1_alg».proof.Proof.BitsRegions.Region6
import proofs.«150991_j71700184039837_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays the regions leave, one region at a time -/

/-- Nothing recorded yet: the launch memory stands in at every place. -/
def left0 : Outs (F := F) := fun _ r c => m ((c : Thread nD τ).loc r)

/-- One more place recorded: after item J − 1 the array r holds `val`. -/
def record (prev : Outs (F := F)) (J : ℕ) (r : Ref sig .tc) (val : (c : Dev nD) → Buf (Elt F) ((c : Thread nD τ).loc r)) : Outs (F := F) :=
  fun J' r' c => if J' = J then Function.update (fun r'' => prev J' r'' c) r (val c) r' else prev J' r' c

theorem record_hit (prev : Outs (F := F)) (J : ℕ) (r : Ref sig .tc) (val) (c : Dev nD) : record prev J r val J r c = val c := by
  unfold record; rw [if_pos rfl, Function.update_self]

theorem record_miss (prev : Outs (F := F)) (J : ℕ) (r : Ref sig .tc) (val) (J' : ℕ) (h : J' ≠ J) (r' : Ref sig .tc) (c : Dev nD) :
    record prev J r val J' r' c = prev J' r' c := by
  unfold record; rw [if_neg h]

/-- The contents region 0 is entered with, given what the regions before it left. -/
abbrev entry0 : (c : Dev nD) → (b : Ref sig .tc) → Buf (Elt F) ((c : Thread nD τ).loc b) := fun c b => V1 m c b
/-- … and region 0's result array recorded: what its write-backs leave. -/
def left1 : Outs (F := F) := record (left0 m) 2 main_v6 (fun c => (data0 (entry0 m) c).arrAt 3 cfg0.N)

/-- The contents region 1 is entered with, given what the regions before it left. -/
abbrev entry1 : (c : Dev nD) → (b : Ref sig .tc) → Buf (Elt F) ((c : Thread nD τ).loc b) := fun c b => V5 m (left1 m) c b
/-- … and region 1's result array recorded: what its write-backs leave. -/
def left2 : Outs (F := F) := record (left1 m) 6 main_v48 (fun c => (data1 (entry1 m) c).arrAt 2 cfg1.N)

/-- The contents region 2 is entered with, given what the regions before it left. -/
abbrev entry2 : (c : Dev nD) → (b : Ref sig .tc) → Buf (Elt F) ((c : Thread nD τ).loc b) := fun c b => V7 m (left2 m) c b
/-- … and region 2's result array recorded: what its write-backs leave. -/
def left3 : Outs (F := F) := record (left2 m) 8 main_v51 (fun c => (data2 (entry2 m) c).arrAt 3 cfg2.N)

/-- The contents region 3 is entered with, given what the regions before it left. -/
abbrev entry3 : (c : Dev nD) → (b : Ref sig .tc) → Buf (Elt F) ((c : Thread nD τ).loc b) := fun c b => V11 m (left3 m) c b
/-- … and region 3's result array recorded: what its write-backs leave. -/
def left4 : Outs (F := F) := record (left3 m) 12 main_v93 (fun c => (data3 (entry3 m) c).arrAt 2 cfg3.N)

/-- The contents region 4 is entered with, given what the regions before it left. -/
abbrev entry4 : (c : Dev nD) → (b : Ref sig .tc) → Buf (Elt F) ((c : Thread nD τ).loc b) := fun c b => V13 m (left4 m) c b
/-- … and region 4's result array recorded: what its write-backs leave. -/
def left5 : Outs (F := F) := record (left4 m) 14 main_v96 (fun c => (data4 (entry4 m) c).arrAt 3 cfg4.N)

/-- The contents region 5 is entered with, given what the regions before it left. -/
abbrev entry5 : (c : Dev nD) → (b : Ref sig .tc) → Buf (Elt F) ((c : Thread nD τ).loc b) := fun c b => V17 m (left5 m) c b
/-- … and region 5's result array recorded: what its write-backs leave. -/
def left6 : Outs (F := F) := record (left5 m) 18 main_v138 (fun c => (data5 (entry5 m) c).arrAt 2 cfg5.N)

/-- The contents region 6 is entered with, given what the regions before it left. -/
abbrev entry6 : (c : Dev nD) → (b : Ref sig .tc) → Buf (Elt F) ((c : Thread nD τ).loc b) := fun c b => V19 m (left6 m) c b
/-- … and region 6's result array recorded: what its write-backs leave. -/
def left7 : Outs (F := F) := record (left6 m) 20 main_v142 (fun c => (data6 (entry6 m) c).arrAt 3 cfg6.N)

/-! What a later stage records does not change what an earlier place reads. -/

theorem left7_upto1 (J : ℕ) (hJ : J ≤ 2) (r : Ref sig .tc) (c : Dev nD) : left7 m J r c = left1 m J r c := by
  unfold left7 left6 left5 left4 left3 left2
  rw [record_miss _ _ _ _ _ (by omega), record_miss _ _ _ _ _ (by omega), record_miss _ _ _ _ _ (by omega), record_miss _ _ _ _ _ (by omega), record_miss _ _ _ _ _ (by omega), record_miss _ _ _ _ _ (by omega)]
theorem left7_before1 (J : ℕ) (hJ : J < 2) (r : Ref sig .tc) (c : Dev nD) : left7 m J r c = left0 m J r c := by
  rw [left7_upto1 m J (by omega)]; unfold left1; rw [record_miss _ _ _ _ _ (by omega)]

theorem left7_upto2 (J : ℕ) (hJ : J ≤ 6) (r : Ref sig .tc) (c : Dev nD) : left7 m J r c = left2 m J r c := by
  unfold left7 left6 left5 left4 left3
  rw [record_miss _ _ _ _ _ (by omega), record_miss _ _ _ _ _ (by omega), record_miss _ _ _ _ _ (by omega), record_miss _ _ _ _ _ (by omega), record_miss _ _ _ _ _ (by omega)]
theorem left7_before2 (J : ℕ) (hJ : J < 6) (r : Ref sig .tc) (c : Dev nD) : left7 m J r c = left1 m J r c := by
  rw [left7_upto2 m J (by omega)]; unfold left2; rw [record_miss _ _ _ _ _ (by omega)]

theorem left7_upto3 (J : ℕ) (hJ : J ≤ 8) (r : Ref sig .tc) (c : Dev nD) : left7 m J r c = left3 m J r c := by
  unfold left7 left6 left5 left4
  rw [record_miss _ _ _ _ _ (by omega), record_miss _ _ _ _ _ (by omega), record_miss _ _ _ _ _ (by omega), record_miss _ _ _ _ _ (by omega)]
theorem left7_before3 (J : ℕ) (hJ : J < 8) (r : Ref sig .tc) (c : Dev nD) : left7 m J r c = left2 m J r c := by
  rw [left7_upto3 m J (by omega)]; unfold left3; rw [record_miss _ _ _ _ _ (by omega)]

theorem left7_upto4 (J : ℕ) (hJ : J ≤ 12) (r : Ref sig .tc) (c : Dev nD) : left7 m J r c = left4 m J r c := by
  unfold left7 left6 left5
  rw [record_miss _ _ _ _ _ (by omega), record_miss _ _ _ _ _ (by omega), record_miss _ _ _ _ _ (by omega)]
theorem left7_before4 (J : ℕ) (hJ : J < 12) (r : Ref sig .tc) (c : Dev nD) : left7 m J r c = left3 m J r c := by
  rw [left7_upto4 m J (by omega)]; unfold left4; rw [record_miss _ _ _ _ _ (by omega)]

theorem left7_upto5 (J : ℕ) (hJ : J ≤ 14) (r : Ref sig .tc) (c : Dev nD) : left7 m J r c = left5 m J r c := by
  unfold left7 left6
  rw [record_miss _ _ _ _ _ (by omega), record_miss _ _ _ _ _ (by omega)]
theorem left7_before5 (J : ℕ) (hJ : J < 14) (r : Ref sig .tc) (c : Dev nD) : left7 m J r c = left4 m J r c := by
  rw [left7_upto5 m J (by omega)]; unfold left5; rw [record_miss _ _ _ _ _ (by omega)]

theorem left7_upto6 (J : ℕ) (hJ : J ≤ 18) (r : Ref sig .tc) (c : Dev nD) : left7 m J r c = left6 m J r c := by
  unfold left7
  rw [record_miss _ _ _ _ _ (by omega)]
theorem left7_before6 (J : ℕ) (hJ : J < 18) (r : Ref sig .tc) (c : Dev nD) : left7 m J r c = left5 m J r c := by
  rw [left7_upto6 m J (by omega)]; unfold left6; rw [record_miss _ _ _ _ _ (by omega)]

theorem left7_upto7 (J : ℕ) (hJ : J ≤ 20) (r : Ref sig .tc) (c : Dev nD) : left7 m J r c = left7 m J r c := by
  rfl
theorem left7_before7 (J : ℕ) (hJ : J < 20) (r : Ref sig .tc) (c : Dev nD) : left7 m J r c = left6 m J r c := by
  rw [left7_upto7 m J (by omega)]; unfold left7; rw [record_miss _ _ _ _ _ (by omega)]

/-! Each region is entered with the same contents whether read against the final record or the record so far. -/

theorem entry1_final (c : Dev nD) : V5 m (left7 m) c = V5 m (left1 m) c := by
  dsimp only [V5, V4, V3, V2, V1]
  simp only [left7_before2 m 2 (by decide)]

theorem entry2_final (c : Dev nD) : V7 m (left7 m) c = V7 m (left2 m) c := by
  dsimp only [V7, V6, V5, V4, V3, V2, V1]
  simp only [left7_before3 m 2 (by decide), left7_before3 m 6 (by decide)]

theorem entry3_final (c : Dev nD) : V11 m (left7 m) c = V11 m (left3 m) c := by
  dsimp only [V11, V10, V9, V8, V7, V6, V5, V4, V3, V2, V1]
  simp only [left7_before4 m 2 (by decide), left7_before4 m 6 (by decide), left7_before4 m 8 (by decide)]

theorem entry4_final (c : Dev nD) : V13 m (left7 m) c = V13 m (left4 m) c := by
  dsimp only [V13, V12, V11, V10, V9, V8, V7, V6, V5, V4, V3, V2, V1]
  simp only [left7_before5 m 2 (by decide), left7_before5 m 6 (by decide), left7_before5 m 8 (by decide), left7_before5 m 12 (by decide)]

theorem entry5_final (c : Dev nD) : V17 m (left7 m) c = V17 m (left5 m) c := by
  dsimp only [V17, V16, V15, V14, V13, V12, V11, V10, V9, V8, V7, V6, V5, V4, V3, V2, V1]
  simp only [left7_before6 m 2 (by decide), left7_before6 m 6 (by decide), left7_before6 m 8 (by decide), left7_before6 m 12 (by decide), left7_before6 m 14 (by decide)]

theorem entry6_final (c : Dev nD) : V19 m (left7 m) c = V19 m (left6 m) c := by
  dsimp only [V19, V18, V17, V16, V15, V14, V13, V12, V11, V10, V9, V8, V7, V6, V5, V4, V3, V2, V1]
  simp only [left7_before7 m 2 (by decide), left7_before7 m 6 (by decide), left7_before7 m 8 (by decide), left7_before7 m 12 (by decide), left7_before7 m 14 (by decide), left7_before7 m 18 (by decide)]

/-! ## The thread state between items, and the regions' records -/

/-- The prefetched tables' admissible contents: no region has a table (the generated module's `adm`). -/
abbrev 𝒱₀ : Variants := Variants.none
abbrev Lev : GSem nD τ sig → Finset Unit := fun _ => ∅
abbrev lev : GSem nD τ sig → Unit → ℕ := fun _ _ => 0

/-- What rides beside the held buffers through every item: the generator register at some state, and the core owing
    nothing. -/
abbrev Rest (c : Dev nD) : sProp 𝕄 := iprop((∃ r, prngReg c r) ∗ ∃ W, owes (c : Thread nD τ) (0 : CellTallies nD τ sig Unit) W)

/-- Every region's proof data, each at the contents its region is entered with. -/
def allData : (p : Fin 7) → (c : Dev nD) → Dat τ (Elt F) Unit ℕ (UR sig nD τ) ℕ (cfgs p) c
  | ⟨0, _⟩ => fun c => data0 (entry0 m) c
  | ⟨1, _⟩ => fun c => data1 (entry1 m) c
  | ⟨2, _⟩ => fun c => data2 (entry2 m) c
  | ⟨3, _⟩ => fun c => data3 (entry3 m) c
  | ⟨4, _⟩ => fun c => data4 (entry4 m) c
  | ⟨5, _⟩ => fun c => data5 (entry5 m) c
  | ⟨6, _⟩ => fun c => data6 (entry6 m) c

/-- At region 0's exit its result array holds what the write-backs leave, its other arrays and every other buffer
    what they held at entry. -/
theorem exit0_out (c : Dev nD) : V2 m (left7 m) c main_v6 = (allData m 0 c).arrAt 3 cfg0.N := by
  show Function.update _ _ _ _ = _
  rw [Function.update_self, left7_upto1 m 2 (le_refl _)]
  unfold left1; rw [record_hit]; rfl
theorem exit0_other (c : Dev nD) (b : Ref sig .tc) (hb : b ≠ main_v6) : V2 m (left7 m) c b = V1 m c b := by
  show Function.update _ _ _ _ = _
  rw [Function.update_of_ne (StableHlo.devRef_ne_of_ne hb)]
theorem exit0_arrays (c : Dev nD) (w : Fin cfg0.W) : (allData m 0 c).arrAt w cfg0.N = V2 m (left7 m) c (Pipeline.arrRef spec0 w) := by
  match w with
  | ⟨0, _⟩ => exact (((allData m 0 c).arrAt_in 0 rfl _).trans (data0_A (entry0 m) c 0)).trans (exit0_other m c main_arg0 (by decide)).symm
  | ⟨1, _⟩ => exact (((allData m 0 c).arrAt_in 1 rfl _).trans (data0_A (entry0 m) c 1)).trans (exit0_other m c main_arg1 (by decide)).symm
  | ⟨2, _⟩ => exact (((allData m 0 c).arrAt_in 2 rfl _).trans (data0_A (entry0 m) c 2)).trans (exit0_other m c main_v5 (by decide)).symm
  | ⟨3, _⟩ => exact (exit0_out m c).symm
theorem exit0_rest (c : Dev nD) : ∀ b, b ∉ Finset.univ.image (Pipeline.arrRef spec0) → V2 m (left7 m) c b = V1 m c b :=
  fun b hb => exit0_other m c b fun e => hb (Finset.mem_image.mpr ⟨3, Finset.mem_univ _, by rw [e]⟩)

set_option backward.isDefEq.respectTransparency.types false in
/-- REGION 0 over the thread state: entered with every unscoped buffer held at the entry contents, left with them held
    at the exit contents. Its arrays are split out of the held buffers and put back; the generator register goes into the
    pipeline's invariant and comes out; nothing is owed; the kernel has no semaphore of its own. -/
def region0 : Pipeline.RegionSeg (pcfgs (F := F)) adm (allData m) () defs₀ 𝒱₀ Lev lev 0 where
  win := launch0.win.to₀
  block_pos := launch0.block_pos
  stage_whole := launch0.stage_whole
  K := PEmpty
  osem k := k.elim
  ho := Pipeline.OwnSemFacts.none _
  hbody c := (obligation0 (entry0 m) c).loose
  hwaits := Pipeline.hwaits_of_owed_zero _ _ _ _ Lev lev 0 fun _ _ => rfl
  pre c := iprop(StableHlo.held (c : Thread nD τ) (Pipeline.ucRefs τ sig) (V1 m c) ∗ Rest c)
  post c := iprop(StableHlo.held (c : Thread nD τ) (Pipeline.ucRefs τ sig) (V2 m (left7 m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (allData m) launch0.win launch0.arr_whole c
      ((allData m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 0 c).Φ 0 = Pipeline.ΦA spec0 c from rfl]; unfold Pipeline.ΦA
    iintro ⟨Hp, -, Hr⟩
    isplitl [Hr]; · iexact Hr
    iexact Hp
  hout c := by
    rw [Pipeline.ownSems0_none, show (allData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allData m) ((allData m 0 c).share_full fun _ => rfl)
      (entry0 m c) (fun b => V2 m (left7 m) c b) ((allData m 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region0_entered (c : Dev nD) : iprop(StableHlo.held (c : Thread nD τ) (Pipeline.ucRefs τ sig) (V1 m c) ∗ Rest c) ⊢ (region0 m).pre c := by
  exact .rfl

/-- At region 1's exit its result array holds what the write-backs leave, its other arrays and every other buffer
    what they held at entry. -/
theorem exit1_out (c : Dev nD) : V6 m (left7 m) c main_v48 = (allData m 1 c).arrAt 2 cfg1.N := by
  show Function.update _ _ _ _ = _
  rw [Function.update_self, left7_upto2 m 6 (le_refl _)]
  unfold left2; rw [record_hit]; rfl
theorem exit1_other (c : Dev nD) (b : Ref sig .tc) (hb : b ≠ main_v48) : V6 m (left7 m) c b = V5 m (left1 m) c b := by
  show Function.update _ _ _ _ = _
  rw [Function.update_of_ne (StableHlo.devRef_ne_of_ne hb)]
  exact congrFun (entry1_final m c) _
theorem exit1_arrays (c : Dev nD) (w : Fin cfg1.W) : (allData m 1 c).arrAt w cfg1.N = V6 m (left7 m) c (Pipeline.arrRef spec1 w) := by
  match w with
  | ⟨0, _⟩ => exact (((allData m 1 c).arrAt_in 0 rfl _).trans (data1_A (entry1 m) c 0)).trans (exit1_other m c main_v46 (by decide)).symm
  | ⟨1, _⟩ => exact (((allData m 1 c).arrAt_in 1 rfl _).trans (data1_A (entry1 m) c 1)).trans (exit1_other m c main_v47 (by decide)).symm
  | ⟨2, _⟩ => exact (exit1_out m c).symm
theorem exit1_rest (c : Dev nD) : ∀ b, b ∉ Finset.univ.image (Pipeline.arrRef spec1) → V6 m (left7 m) c b = V5 m (left1 m) c b :=
  fun b hb => exit1_other m c b fun e => hb (Finset.mem_image.mpr ⟨2, Finset.mem_univ _, by rw [e]⟩)

set_option backward.isDefEq.respectTransparency.types false in
/-- REGION 1 over the thread state: entered with every unscoped buffer held at the entry contents, left with them held
    at the exit contents. Its arrays are split out of the held buffers and put back; the generator register goes into the
    pipeline's invariant and comes out; nothing is owed; the kernel has no semaphore of its own. -/
def region1 : Pipeline.RegionSeg (pcfgs (F := F)) adm (allData m) () defs₀ 𝒱₀ Lev lev 1 where
  win := launch1.win.to₀
  block_pos := launch1.block_pos
  stage_whole := launch1.stage_whole
  K := PEmpty
  osem k := k.elim
  ho := Pipeline.OwnSemFacts.none _
  hbody c := (obligation1 (entry1 m) c).loose
  hwaits := Pipeline.hwaits_of_owed_zero _ _ _ _ Lev lev 1 fun _ _ => rfl
  pre c := iprop(StableHlo.held (c : Thread nD τ) (Pipeline.ucRefs τ sig) (V5 m (left1 m) c) ∗ Rest c)
  post c := iprop(StableHlo.held (c : Thread nD τ) (Pipeline.ucRefs τ sig) (V6 m (left7 m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (allData m) launch1.win launch1.arr_whole c
      ((allData m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 1 c).Φ 0 = Pipeline.ΦA spec1 c from rfl]; unfold Pipeline.ΦA
    iintro ⟨Hp, -, Hr⟩
    isplitl [Hr]; · iexact Hr
    iexact Hp
  hout c := by
    rw [Pipeline.ownSems0_none, show (allData m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allData m) ((allData m 1 c).share_full fun _ => rfl)
      (entry1 m c) (fun b => V6 m (left7 m) c b) ((allData m 1 c).arrAt · cfg1.N) (exit1_arrays m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region1_entered (c : Dev nD) : iprop(StableHlo.held (c : Thread nD τ) (Pipeline.ucRefs τ sig) (V5 m (left7 m) c) ∗ Rest c) ⊢ (region1 m).pre c := by
  rw [entry1_final m c]; exact .rfl

/-- At region 2's exit its result array holds what the write-backs leave, its other arrays and every other buffer
    what they held at entry. -/
theorem exit2_out (c : Dev nD) : V8 m (left7 m) c main_v51 = (allData m 2 c).arrAt 3 cfg2.N := by
  show Function.update _ _ _ _ = _
  rw [Function.update_self, left7_upto3 m 8 (le_refl _)]
  unfold left3; rw [record_hit]; rfl
theorem exit2_other (c : Dev nD) (b : Ref sig .tc) (hb : b ≠ main_v51) : V8 m (left7 m) c b = V7 m (left2 m) c b := by
  show Function.update _ _ _ _ = _
  rw [Function.update_of_ne (StableHlo.devRef_ne_of_ne hb)]
  exact congrFun (entry2_final m c) _
theorem exit2_arrays (c : Dev nD) (w : Fin cfg2.W) : (allData m 2 c).arrAt w cfg2.N = V8 m (left7 m) c (Pipeline.arrRef spec2 w) := by
  match w with
  | ⟨0, _⟩ => exact (((allData m 2 c).arrAt_in 0 rfl _).trans (data2_A (entry2 m) c 0)).trans (exit2_other m c main_v48 (by decide)).symm
  | ⟨1, _⟩ => exact (((allData m 2 c).arrAt_in 1 rfl _).trans (data2_A (entry2 m) c 1)).trans (exit2_other m c main_arg3 (by decide)).symm
  | ⟨2, _⟩ => exact (((allData m 2 c).arrAt_in 2 rfl _).trans (data2_A (entry2 m) c 2)).trans (exit2_other m c main_v50 (by decide)).symm
  | ⟨3, _⟩ => exact (exit2_out m c).symm
theorem exit2_rest (c : Dev nD) : ∀ b, b ∉ Finset.univ.image (Pipeline.arrRef spec2) → V8 m (left7 m) c b = V7 m (left2 m) c b :=
  fun b hb => exit2_other m c b fun e => hb (Finset.mem_image.mpr ⟨3, Finset.mem_univ _, by rw [e]⟩)

set_option backward.isDefEq.respectTransparency.types false in
/-- REGION 2 over the thread state: entered with every unscoped buffer held at the entry contents, left with them held
    at the exit contents. Its arrays are split out of the held buffers and put back; the generator register goes into the
    pipeline's invariant and comes out; nothing is owed; the kernel has no semaphore of its own. -/
def region2 : Pipeline.RegionSeg (pcfgs (F := F)) adm (allData m) () defs₀ 𝒱₀ Lev lev 2 where
  win := launch2.win.to₀
  block_pos := launch2.block_pos
  stage_whole := launch2.stage_whole
  K := PEmpty
  osem k := k.elim
  ho := Pipeline.OwnSemFacts.none _
  hbody c := (obligation2 (entry2 m) c).loose
  hwaits := Pipeline.hwaits_of_owed_zero _ _ _ _ Lev lev 2 fun _ _ => rfl
  pre c := iprop(StableHlo.held (c : Thread nD τ) (Pipeline.ucRefs τ sig) (V7 m (left2 m) c) ∗ Rest c)
  post c := iprop(StableHlo.held (c : Thread nD τ) (Pipeline.ucRefs τ sig) (V8 m (left7 m) c) ∗ Rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (allData m) launch2.win launch2.arr_whole c
      ((allData m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 2 c).Φ 0 = Pipeline.ΦA spec2 c from rfl]; unfold Pipeline.ΦA
    iintro ⟨Hp, -, Hr⟩
    isplitl [Hr]; · iexact Hr
    iexact Hp
  hout c := by
    rw [Pipeline.ownSems0_none, show (allData m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allData m) ((allData m 2 c).share_full fun _ => rfl)
      (entry2 m c) (fun b => V8 m (left7 m) c b) ((allData m 2 c).arrAt · cfg2.N) (exit2_arrays m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region2_entered (c : Dev nD) : iprop(StableHlo.held (c : Thread nD τ) (Pipeline.ucRefs τ sig) (V7 m (left7 m) c) ∗ Rest c) ⊢ (region2 m).pre c := by
  rw [entry2_final m c]; exact .rfl

/-- At region 3's exit its result array holds what the write-backs leave, its other arrays and every other buffer
    what they held at entry. -/
theorem exit3_out (c : Dev nD) : V12 m (left7 m) c main_v93 = (allData m 3 c).arrAt 2 cfg3.N := by
  show Function.update _ _ _ _ = _
  rw [Function.update_self, left7_upto4 m 12 (le_refl _)]
  unfold left4; rw [record_hit]; rfl
theorem exit3_other (c : Dev nD) (b : Ref sig .tc) (hb : b ≠ main_v93) : V12 m (left7 m) c b = V11 m (left3 m) c b := by
  show Function.update _ _ _ _ = _
  rw [Function.update_of_ne (StableHlo.devRef_ne_of_ne hb)]
  exact congrFun (entry3_final m c) _
theorem exit3_arrays (c : Dev nD) (w : Fin cfg3.W) : (allData m 3 c).arrAt w cfg3.N = V12 m (left7 m) c (Pipeline.arrRef spec3 w) := by
  match w with
  | ⟨0, _⟩ => exact (((allData m 3 c).arrAt_in 0 rfl _).trans (data3_A (entry3 m) c 0)).trans (exit3_other m c main_v91 (by decide)).symm
  | ⟨1, _⟩ => exact (((allData m 3 c).arrAt_in 1 rfl _).trans (data3_A (entry3 m) c 1)).trans (exit3_other m c main_v92 (by decide)).symm
  | ⟨2, _⟩ => exact (exit3_out m c).symm
theorem exit3_rest (c : Dev nD) : ∀ b, b ∉ Finset.univ.image (Pipeline.arrRef spec3) → V12 m (left7 m) c b = V11 m (left3 m) c b :=
  fun b hb => exit3_other m c b fun e => hb (Finset.mem_image.mpr ⟨2, Finset.mem_univ _, by rw [e]⟩)

set_option backward.isDefEq.respectTransparency.types false in
/-- REGION 3 over the thread state: entered with every unscoped buffer held at the entry contents, left with them held
    at the exit contents. Its arrays are split out of the held buffers and put back; the generator register goes into the
    pipeline's invariant and comes out; nothing is owed; the kernel has no semaphore of its own. -/
def region3 : Pipeline.RegionSeg (pcfgs (F := F)) adm (allData m) () defs₀ 𝒱₀ Lev lev 3 where
  win := launch3.win.to₀
  block_pos := launch3.block_pos
  stage_whole := launch3.stage_whole
  K := PEmpty
  osem k := k.elim
  ho := Pipeline.OwnSemFacts.none _
  hbody c := (obligation3 (entry3 m) c).loose
  hwaits := Pipeline.hwaits_of_owed_zero _ _ _ _ Lev lev 3 fun _ _ => rfl
  pre c := iprop(StableHlo.held (c : Thread nD τ) (Pipeline.ucRefs τ sig) (V11 m (left3 m) c) ∗ Rest c)
  post c := iprop(StableHlo.held (c : Thread nD τ) (Pipeline.ucRefs τ sig) (V12 m (left7 m) c) ∗ Rest c)
  X c := iprop(∃ r, prngReg c r)
  Y c := iprop(∃ r, prngReg c r)
  Z c := Pipeline.unscopedRest (Ix := Unit) (Name := ℕ) (U := UR sig nD τ) (Lvl := ℕ) spec3 c (entry3 m c)
  hentry c := by
    rw [Pipeline.ownSems0_none]
    have hsplit := Pipeline.arrays_of_unscopedBufs (p := 3) (pcfgs (F := F)) adm (allData m) launch3.win launch3.arr_whole c
      ((allData m 3 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 3 c).Φ 0 = Pipeline.ΦA spec3 c from rfl]; unfold Pipeline.ΦA
    iintro ⟨Hp, -, Hr⟩
    isplitl [Hr]; · iexact Hr
    iexact Hp
  hout c := by
    rw [Pipeline.ownSems0_none, show (allData m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (allData m) ((allData m 3 c).share_full fun _ => rfl)
      (entry3 m c) (fun b => V12 m (left7 m) c b) ((allData m 3 c).arrAt · cfg3.N) (exit3_arrays m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region3_entered (c : Dev nD) : iprop(StableHlo.held (c : Thread nD τ) (Pipeline.ucRefs τ sig) (V11 m (left7 m) c) ∗ Rest c) ⊢ (region3 m).pre c := by
  rw [entry3_final m c]; exact .rfl

/-- At region 4's exit its result array holds what the write-backs leave, its other arrays and every other buffer
    what they held at entry. -/
theorem exit4_out (c : Dev nD) : V14 m (left7 m) c main_v96 = (allData m 4 c).arrAt 3 cfg4.N := by
  show Function.update _ _ _ _ = _
  rw [Function.update_self, left7_upto5 m 14 (le_refl _)]
  unfold left5; rw [record_hit]; rfl
theorem exit4_other (c : Dev nD) (b : Ref sig .tc) (hb : b ≠ main_v96) : V14 m (left7 m) c b = V13 m (left4 m) c b := by
  show Function.update _ _ _ _ = _
  rw [Function.update_of_ne (StableHlo.devRef_ne_of_ne hb)]
  exact congrFun (entry4_final m c) _
theorem exit4_arrays (c : Dev nD) (w : Fin cfg4.W) : (allData m 4 c).arrAt w cfg4.N = V14 m (left7 m) c (Pipeline.arrRef spec4 w) := by
  match w with
  | ⟨0, _⟩ => exact (((allData m 4 c).arrAt_in 0 rfl _).trans (data4_A (entry4 m) c 0)).trans (exit4_other m c main_v93 (by decide)).symm
  | ⟨1, _⟩ => exact (((allData m 4 c).arrAt_in 1 rfl _).trans (data4_A (entry4 m) c 1)).trans (exit4_other m c main_arg5 (by decide)).symm
  | ⟨2, _⟩ => exact (((allData m 4 c).arrAt_in 2 rfl _).trans (data4_A (entry4 m) c 2)).trans (exit4_other m c main_v95 (by decide)).symm
  | ⟨3, _⟩ => exact (exit4_out m c).symm
theorem exit4_rest (c : Dev nD) : ∀ b, b ∉ Finset.univ.image (Pipeline.arrRef spec4) → V14 m (left7 m) c b = V13 m (left4 m) c b :=
  fun b hb => exit4_other m c b fun e => hb (Finset.mem_image.mpr ⟨3, Finset.mem_univ _, by rw [e]⟩)

set_option backward.isDefEq.respectTransparency.types false in
/-- REGION 4 over the thread state: entered with every unscoped buffer held at the entry contents, left with them held
    at the exit contents. Its arrays are split out of the held buffers and put back; the generator register goes into the
    pipeline's invariant and comes out; nothing is owed; the kernel has no semaphore of its own. -/
def region4 : Pipeline.RegionSeg (pcfgs (F := F)) adm (allData m) () defs₀ 𝒱₀ Lev lev 4 where
  win := launch4.win.to₀
  block_pos := launch4.block_pos
  stage_whole := launch4.stage_whole
  K := PEmpty
  osem k := k.elim
  ho := Pipeline.OwnSemFacts.none _
  hbody c := (obligation4 (entry4 m) c).loose
  hwaits := Pipeline.hwaits_of_owed_zero _ _ _ _ Lev lev 4 fun _ _ => rfl
  pre c := iprop(StableHlo.held (c : Thread nD τ) (Pipeline.ucRefs τ sig) (V13 m (left4 m) c) ∗ Rest c)
  post c := iprop(StableHlo.held (c : Thread nD τ) (Pipeline.ucRefs τ sig) (V14 m (left7 m) c) ∗ Rest c)
  X c := iprop(∃ r, prngReg c r)
  Y c := iprop(∃ r, prngReg c r)
  Z c := Pipeline.unscopedRest (Ix := Unit) (Name := ℕ) (U := UR sig nD τ) (Lvl := ℕ) spec4 c (entry4 m c)
  hentry c := by
    rw [Pipeline.ownSems0_none]
    have hsplit := Pipeline.arrays_of_unscopedBufs (p := 4) (pcfgs (F := F)) adm (allData m) launch4.win launch4.arr_whole c
      ((allData m 4 c).share_full fun _ => rfl) (entry4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 4 c).Φ 0 = Pipeline.ΦA spec4 c from rfl]; unfold Pipeline.ΦA
    iintro ⟨Hp, -, Hr⟩
    isplitl [Hr]; · iexact Hr
    iexact Hp
  hout c := by
    rw [Pipeline.ownSems0_none, show (allData m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (allData m) ((allData m 4 c).share_full fun _ => rfl)
      (entry4 m c) (fun b => V14 m (left7 m) c b) ((allData m 4 c).arrAt · cfg4.N) (exit4_arrays m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region4_entered (c : Dev nD) : iprop(StableHlo.held (c : Thread nD τ) (Pipeline.ucRefs τ sig) (V13 m (left7 m) c) ∗ Rest c) ⊢ (region4 m).pre c := by
  rw [entry4_final m c]; exact .rfl

/-- At region 5's exit its result array holds what the write-backs leave, its other arrays and every other buffer
    what they held at entry. -/
theorem exit5_out (c : Dev nD) : V18 m (left7 m) c main_v138 = (allData m 5 c).arrAt 2 cfg5.N := by
  show Function.update _ _ _ _ = _
  rw [Function.update_self, left7_upto6 m 18 (le_refl _)]
  unfold left6; rw [record_hit]; rfl
theorem exit5_other (c : Dev nD) (b : Ref sig .tc) (hb : b ≠ main_v138) : V18 m (left7 m) c b = V17 m (left5 m) c b := by
  show Function.update _ _ _ _ = _
  rw [Function.update_of_ne (StableHlo.devRef_ne_of_ne hb)]
  exact congrFun (entry5_final m c) _
theorem exit5_arrays (c : Dev nD) (w : Fin cfg5.W) : (allData m 5 c).arrAt w cfg5.N = V18 m (left7 m) c (Pipeline.arrRef spec5 w) := by
  match w with
  | ⟨0, _⟩ => exact (((allData m 5 c).arrAt_in 0 rfl _).trans (data5_A (entry5 m) c 0)).trans (exit5_other m c main_v136 (by decide)).symm
  | ⟨1, _⟩ => exact (((allData m 5 c).arrAt_in 1 rfl _).trans (data5_A (entry5 m) c 1)).trans (exit5_other m c main_v137 (by decide)).symm
  | ⟨2, _⟩ => exact (exit5_out m c).symm
theorem exit5_rest (c : Dev nD) : ∀ b, b ∉ Finset.univ.image (Pipeline.arrRef spec5) → V18 m (left7 m) c b = V17 m (left5 m) c b :=
  fun b hb => exit5_other m c b fun e => hb (Finset.mem_image.mpr ⟨2, Finset.mem_univ _, by rw [e]⟩)

set_option backward.isDefEq.respectTransparency.types false in
/-- REGION 5 over the thread state: entered with every unscoped buffer held at the entry contents, left with them held
    at the exit contents. Its arrays are split out of the held buffers and put back; the generator register goes into the
    pipeline's invariant and comes out; nothing is owed; the kernel has no semaphore of its own. -/
def region5 : Pipeline.RegionSeg (pcfgs (F := F)) adm (allData m) () defs₀ 𝒱₀ Lev lev 5 where
  win := launch5.win.to₀
  block_pos := launch5.block_pos
  stage_whole := launch5.stage_whole
  K := PEmpty
  osem k := k.elim
  ho := Pipeline.OwnSemFacts.none _
  hbody c := (obligation5 (entry5 m) c).loose
  hwaits := Pipeline.hwaits_of_owed_zero _ _ _ _ Lev lev 5 fun _ _ => rfl
  pre c := iprop(StableHlo.held (c : Thread nD τ) (Pipeline.ucRefs τ sig) (V17 m (left5 m) c) ∗ Rest c)
  post c := iprop(StableHlo.held (c : Thread nD τ) (Pipeline.ucRefs τ sig) (V18 m (left7 m) c) ∗ Rest c)
  X c := iprop(∃ r, prngReg c r)
  Y c := iprop(∃ r, prngReg c r)
  Z c := Pipeline.unscopedRest (Ix := Unit) (Name := ℕ) (U := UR sig nD τ) (Lvl := ℕ) spec5 c (entry5 m c)
  hentry c := by
    rw [Pipeline.ownSems0_none]
    have hsplit := Pipeline.arrays_of_unscopedBufs (p := 5) (pcfgs (F := F)) adm (allData m) launch5.win launch5.arr_whole c
      ((allData m 5 c).share_full fun _ => rfl) (entry5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 5 c).Φ 0 = Pipeline.ΦA spec5 c from rfl]; unfold Pipeline.ΦA
    iintro ⟨Hp, -, Hr⟩
    isplitl [Hr]; · iexact Hr
    iexact Hp
  hout c := by
    rw [Pipeline.ownSems0_none, show (allData m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (allData m) ((allData m 5 c).share_full fun _ => rfl)
      (entry5 m c) (fun b => V18 m (left7 m) c b) ((allData m 5 c).arrAt · cfg5.N) (exit5_arrays m c) (exit5_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region5_entered (c : Dev nD) : iprop(StableHlo.held (c : Thread nD τ) (Pipeline.ucRefs τ sig) (V17 m (left7 m) c) ∗ Rest c) ⊢ (region5 m).pre c := by
  rw [entry5_final m c]; exact .rfl

/-- At region 6's exit its result array holds what the write-backs leave, its other arrays and every other buffer
    what they held at entry. -/
theorem exit6_out (c : Dev nD) : V20 m (left7 m) c main_v142 = (allData m 6 c).arrAt 3 cfg6.N := by
  show Function.update _ _ _ _ = _
  rw [Function.update_self, left7_upto7 m 20 (le_refl _)]
  unfold left7; rw [record_hit]; rfl
theorem exit6_other (c : Dev nD) (b : Ref sig .tc) (hb : b ≠ main_v142) : V20 m (left7 m) c b = V19 m (left6 m) c b := by
  show Function.update _ _ _ _ = _
  rw [Function.update_of_ne (StableHlo.devRef_ne_of_ne hb)]
  exact congrFun (entry6_final m c) _
theorem exit6_arrays (c : Dev nD) (w : Fin cfg6.W) : (allData m 6 c).arrAt w cfg6.N = V20 m (left7 m) c (Pipeline.arrRef spec6 w) := by
  match w with
  | ⟨0, _⟩ => exact (((allData m 6 c).arrAt_in 0 rfl _).trans (data6_A (entry6 m) c 0)).trans (exit6_other m c main_v139 (by decide)).symm
  | ⟨1, _⟩ => exact (((allData m 6 c).arrAt_in 1 rfl _).trans (data6_A (entry6 m) c 1)).trans (exit6_other m c main_v140 (by decide)).symm
  | ⟨2, _⟩ => exact (((allData m 6 c).arrAt_in 2 rfl _).trans (data6_A (entry6 m) c 2)).trans (exit6_other m c main_v141 (by decide)).symm
  | ⟨3, _⟩ => exact (exit6_out m c).symm
theorem exit6_rest (c : Dev nD) : ∀ b, b ∉ Finset.univ.image (Pipeline.arrRef spec6) → V20 m (left7 m) c b = V19 m (left6 m) c b :=
  fun b hb => exit6_other m c b fun e => hb (Finset.mem_image.mpr ⟨3, Finset.mem_univ _, by rw [e]⟩)

set_option backward.isDefEq.respectTransparency.types false in
/-- REGION 6 over the thread state: entered with every unscoped buffer held at the entry contents, left with them held
    at the exit contents. Its arrays are split out of the held buffers and put back; the generator register goes into the
    pipeline's invariant and comes out; nothing is owed; the kernel has no semaphore of its own. -/
def region6 : Pipeline.RegionSeg (pcfgs (F := F)) adm (allData m) () defs₀ 𝒱₀ Lev lev 6 where
  win := launch6.win.to₀
  block_pos := launch6.block_pos
  stage_whole := launch6.stage_whole
  K := PEmpty
  osem k := k.elim
  ho := Pipeline.OwnSemFacts.none _
  hbody c := (obligation6 (entry6 m) c).loose
  hwaits := Pipeline.hwaits_of_owed_zero _ _ _ _ Lev lev 6 fun _ _ => rfl
  pre c := iprop(StableHlo.held (c : Thread nD τ) (Pipeline.ucRefs τ sig) (V19 m (left6 m) c) ∗ Rest c)
  post c := iprop(StableHlo.held (c : Thread nD τ) (Pipeline.ucRefs τ sig) (V20 m (left7 m) c) ∗ Rest c)
  X c := iprop(∃ r, prngReg c r)
  Y c := iprop(∃ r, prngReg c r)
  Z c := Pipeline.unscopedRest (Ix := Unit) (Name := ℕ) (U := UR sig nD τ) (Lvl := ℕ) spec6 c (entry6 m c)
  hentry c := by
    rw [Pipeline.ownSems0_none]
    have hsplit := Pipeline.arrays_of_unscopedBufs (p := 6) (pcfgs (F := F)) adm (allData m) launch6.win launch6.arr_whole c
      ((allData m 6 c).share_full fun _ => rfl) (entry6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 6 c).Φ 0 = Pipeline.ΦA spec6 c from rfl]; unfold Pipeline.ΦA
    iintro ⟨Hp, -, Hr⟩
    isplitl [Hr]; · iexact Hr
    iexact Hp
  hout c := by
    rw [Pipeline.ownSems0_none, show (allData m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (allData m) ((allData m 6 c).share_full fun _ => rfl)
      (entry6 m c) (fun b => V20 m (left7 m) c b) ((allData m 6 c).arrAt · cfg6.N) (exit6_arrays m c) (exit6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region6_entered (c : Dev nD) : iprop(StableHlo.held (c : Thread nD τ) (Pipeline.ucRefs τ sig) (V19 m (left7 m) c) ∗ Rest c) ⊢ (region6 m).pre c := by
  rw [entry6_final m c]; exact .rfl

end Cert.Kernel.Frame

end
-- ==== Proof.BitsValueRun.lean ====
/-
  The run of the program's main function with its result named: every weakly fair execution terminates, nothing faults,
  the result array ends at what the last region leaves (the last valuation read at the result buffer) and the ten
  arguments end as launched. The main function is the chain of its twenty items (thirteen host stretches, seven
  regions); the items' thread states chain; the launch makes the first one on every core; the last one, read against
  the final memory, gives each buffer's final contents.
-/
import proofs.«150991_j71700184039837_1_alg».proof.Proof.BitsRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The result array at the end of the run: the last valuation at the result buffer. -/
abbrev result (c : Dev nD) : Buf (Elt F) ((c.tc : Thread nD τ).loc main_v142) := V20 m (left7 m) c main_v142

/-- What the last region leaves is the last thread state beside the core owing nothing. -/
theorem last_link (c : Dev nD) : (region6 m).post c
    ⊢ (iprop(iprop(StableHlo.held (c : Thread nD τ) (Pipeline.ucRefs τ sig) (V20 m (left7 m) c) ∗ ∃ r, prngReg c r)
        ∗ ∃ W, owes (c.tc : Thread nD τ) (0 : CellTallies nD τ sig Unit) W) : sProp 𝕄) := by
  show iprop(StableHlo.held (c : Thread nD τ) (Pipeline.ucRefs τ sig) (V20 m (left7 m) c) ∗ Rest c) ⊢ _
  iintro ⟨Hh, Hp, HO⟩
  isplitl [Hh Hp]
  · isplitl [Hh] <;> iassumption
  iexact HO

set_option backward.isDefEq.respectTransparency.types false in
/-- Every weakly fair execution of the main function terminates, faulting nowhere, with the result array at `result`
    and the arguments as launched. -/
theorem runs (ρ : Dev nD → PrngReg) :
    θ_run defs (onTc (τ := τ) (main (F := F))) ⟨m, fun _ => 0, ρ⟩ (fun r => ∀ c : Dev nD,
      r.2.mem ((c.tc : Thread nD τ).loc main_v142) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (allData m) () cellOf_inj emb₁ defs₀ 𝒱₀ Lev lev m ρ main
    (segs m (left7 m) 𝒱₀ Lev lev (fun _ c => Rest c) () (allData m) (region0 m) (region1 m) (region2 m) (region3 m) (region4 m) (region5 m) (region6 m))
    (fun c Q => by
      rewrite [main_chain c, Seg.run_eq_chain,
        show ((segs m (left7 m) 𝒱₀ Lev lev (fun _ c => Rest c) () (allData m) (region0 m) (region1 m) (region2 m) (region3 m) (region4 m) (region5 m) (region6 m)) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (V20 m (left7 m) c) ∗ ∃ r, prngReg c r))
    (hch := fun c => ⟨.rfl, region0_entered m c, .rfl, .rfl, .rfl, region1_entered m c, .rfl, region2_entered m c, .rfl, .rfl, .rfl,
      region3_entered m c, .rfl, region4_entered m c, .rfl, .rfl, .rfl, region5_entered m c, .rfl, region6_entered m c,
      last_link m c⟩)
    (hinit := ?_) (hfin := fun c s' => ?_) (hQ := fun _ h => h)
  · -- the launch: the unscoped buffers are held at the launch contents; the generator register and the empty dues ride along
    refine Pipeline.initEach Lev lev fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: each buffer read off the last valuation
    unfold StableHlo.held
    iintro ⟨⟨Hh, -⟩, HSI⟩
    ihave Hr := (pointsTo_read_all (Pipeline.ucRefs τ sig) (fun b => ((c : Thread nD τ).1, b)) (V20 m (left7 m) c) s') $$ [Hh HSI]
    · isplitl [Hh] <;> iassumption
    icases Hr with ⟨%h, HSI⟩
    imodintro
    isplitr
    · ipureintro
      exact ⟨h (Proc.devRef .tc main_v142) (Finset.mem_filter.mpr ⟨StableHlo.devRef_mem_tcRefs main_v142, by decide⟩),
        (h (Proc.devRef .tc main_arg0) (Finset.mem_filter.mpr ⟨StableHlo.devRef_mem_tcRefs main_arg0, by decide⟩)).trans (V20_main_arg0 m (left7 m) c),
        (h (Proc.devRef .tc main_arg1) (Finset.mem_filter.mpr ⟨StableHlo.devRef_mem_tcRefs main_arg1, by decide⟩)).trans (V20_main_arg1 m (left7 m) c),
        (h (Proc.devRef .tc main_arg2) (Finset.mem_filter.mpr ⟨StableHlo.devRef_mem_tcRefs main_arg2, by decide⟩)).trans (V20_main_arg2 m (left7 m) c),
        (h (Proc.devRef .tc main_arg3) (Finset.mem_filter.mpr ⟨StableHlo.devRef_mem_tcRefs main_arg3, by decide⟩)).trans (V20_main_arg3 m (left7 m) c),
        (h (Proc.devRef .tc main_arg4) (Finset.mem_filter.mpr ⟨StableHlo.devRef_mem_tcRefs main_arg4, by decide⟩)).trans (V20_main_arg4 m (left7 m) c),
        (h (Proc.devRef .tc main_arg5) (Finset.mem_filter.mpr ⟨StableHlo.devRef_mem_tcRefs main_arg5, by decide⟩)).trans (V20_main_arg5 m (left7 m) c),
        (h (Proc.devRef .tc main_arg6) (Finset.mem_filter.mpr ⟨StableHlo.devRef_mem_tcRefs main_arg6, by decide⟩)).trans (V20_main_arg6 m (left7 m) c),
        (h (Proc.devRef .tc main_arg7) (Finset.mem_filter.mpr ⟨StableHlo.devRef_mem_tcRefs main_arg7, by decide⟩)).trans (V20_main_arg7 m (left7 m) c),
        (h (Proc.devRef .tc main_arg8) (Finset.mem_filter.mpr ⟨StableHlo.devRef_mem_tcRefs main_arg8, by decide⟩)).trans (V20_main_arg8 m (left7 m) c),
        (h (Proc.devRef .tc main_arg9) (Finset.mem_filter.mpr ⟨StableHlo.devRef_mem_tcRefs main_arg9, by decide⟩)).trans (V20_main_arg9 m (left7 m) c)⟩
    · iexact HSI

/-- The frame: every weakly fair execution terminates, faulting nowhere, with the arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (runs m ρ)

end Cert.Kernel.Frame

end
-- ==== Proof.IdealRegions.Region0.lean ====
/-
  Region 0 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.KernelIdeal.Launch
import proofs.«150991_j71700184039837_1_alg».proof.Proof.Gen.KernelIdeal.Skeleton
import proofs.«150991_j71700184039837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline fetched it
    there or left it in place because its block index had not moved. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds the window's block at every point, whether the pipeline fetched it
    there or left it in place because its block index had not moved. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds the window's block at every point, whether the pipeline fetched it
    there or left it in place because its block index had not moved. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! The body reads and writes each staging buffer whole. -/

abbrev whole0_S1000x512 : Rect S1000x512 := Rect.unit (s := S1000x512) ![0, 0] S1000x512.size inb_S1000x512_S1000x512_0_0
abbrev whole0_S512x256 : Rect S512x256 := Rect.unit (s := S512x256) ![0, 0] S512x256.size inb_S512x256_S512x256_0_0
abbrev whole0_S1x256 : Rect S1x256 := Rect.unit (s := S1x256) ![0, 0] S1x256.size inb_S1x256_S1x256_0_0
abbrev whole0_S1000x256 : Rect S1000x256 := Rect.unit (s := S1000x256) ![0, 0] S1000x256.size inb_S1000x256_S1000x256_0_0

/-- What the body leaves in the output's staging buffer, from the blocks it loaded: its one store, of the
    payload (the product of the first two blocks into a zero accumulator, plus the bias row broadcast down the rows). -/
def stored0 (x0 : Vec F S1000x512 .f32) (x1 : Vec F S512x256 .f32) (x2 : Vec F S1x256 .f32) : Vec F S1000x256 .f32 :=
  View.canon [⟨whole0_S1000x256, k0_pay1 (View.ld x0 whole0_S1000x512) (View.ld x1 whole0_S512x256) (View.ld x2 whole0_S1x256)⟩]

/-- The one store covers the whole buffer. -/
theorem stored0_covers (p0 : Vec F S1000x256 .f32) (y : S1000x256.Idx) :
    ∃ pc ∈ ([⟨whole0_S1000x256, p0⟩] : List (View.Piece (Elt F) S1000x256 .f32)), y ∈ pc.1.set :=
  View.cover_of_tiled [⟨whole0_S1000x256, p0⟩] S1000x256.size (by rfl) y

set_option maxHeartbeats 4000000 in
/-- The body on whole staging buffers, the inputs' at known contents and the output's at anything, runs to a state
    with the inputs' as they were and the output's at `stored0` of them. -/
theorem body_runs0 (c : Dev nD) (E : Set ℕ) (i : grid0.Coords) (a0 : Memref sig .tc .vmem S1000x512 .f32) (h0 : a0.IsWhole) (a1 : Memref sig .tc .vmem S512x256 .f32) (h1 : a1.IsWhole) (a2 : Memref sig .tc .vmem S1x256 .f32) (h2 : a2.IsWhole) (a3 : Memref sig .tc .vmem S1000x256 .f32) (h3 : a3.IsWhole)
    (x0 : Vec F S1000x512 .f32) (x1 : Vec F S512x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored0 x0 x1 x2)) -∗ K ⟨⟩))
      ⊢ wp frame (wpE (defs₀ (F := F)) Variants.none c none) E (cc0__matmul_bias_kernel i a0 h0 a1 h1 a2 h2 a3 h3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored0_covers _)

/-- The proof data of this pipeline on core c: the arrays as the region finds them; after the body at point t each
    input's buffer still at its block and the output's at `stored0` of the input blocks; the invariant is the untouched
    scoped rest and generator register; nothing owed; full shares. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => stored0 (blk0 V c 0 t) (blk0 V c 1 t) (blk0 V c 2 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after0 (c : Dev nD) (t : Fin cfg0.N) : (data0 V c).after 0 t = blk0 V c 0 t := by dsimp only [data0]
theorem data0_after1 (c : Dev nD) (t : Fin cfg0.N) : (data0 V c).after 1 t = blk0 V c 1 t := by dsimp only [data0]
theorem data0_after2 (c : Dev nD) (t : Fin cfg0.N) : (data0 V c).after 2 t = blk0 V c 2 t := by dsimp only [data0]
theorem data0_after3 (c : Dev nD) (t : Fin cfg0.N) : (data0 V c).after 3 t = stored0 (blk0 V c 0 t) (blk0 V c 1 t) (blk0 V c 2 t) := by dsimp only [data0]
theorem data0_found0 (c : Dev nD) (t : Fin cfg0.N) (d) : (data0 V c).before 0 t d = blk0 V c 0 t :=
  found0_0_of V (data0 V c) (data0_A V c 0) (data0_after0 V c) t d
theorem data0_found1 (c : Dev nD) (t : Fin cfg0.N) (d) : (data0 V c).before 1 t d = blk0 V c 1 t :=
  found0_1_of V (data0 V c) (data0_A V c 1) (data0_after1 V c) t d
theorem data0_found2 (c : Dev nD) (t : Fin cfg0.N) (d) : (data0 V c).before 2 t d = blk0 V c 2 t :=
  found0_2_of V (data0 V c) (data0_A V c 2) (data0_after2 V c) t d

/-- What the body is called with at point t, and what it returns. -/
def called0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any point: the inputs' buffers hold their blocks, so `body_runs0` applies; the invariant and the
    core's dues pass through unread. -/
theorem point_runs0 (c : Dev nD) (t : Fin cfg0.N) :
    called0 V c t ⊢ wp frame (wpE (defs₀ (F := F)) Variants.none c none) Set.univ (bodyAt0 t) (fun _ => returned0 V c t) := by
  unfold called0 returned0 bodyAt0
  simp only [data0_found0, data0_found1, data0_found2]
  rw [show (data0 V c).Φ t.succ = (data0 V c).Φ t.castSucc from rfl,
    show (data0 V c).owesAt () t.succ = (data0 V c).owesAt () t.castSucc from rfl,
    data0_after0, data0_after1, data0_after2, data0_after3]
  iintro ⟨HΦ, Ho, ⟨%d0, H0⟩, ⟨%d1, H1⟩, ⟨%d2, H2⟩, ⟨%d3, H3⟩⟩
  iapply (body_runs0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation0 (c : Dev nD) : BodyObligation (data0 (F := F) V c) (defs₀ (F := F)) Variants.none () Set.univ := fun t => by
  rw [bigSep_W0, bigSep_W0]
  exact point_runs0 V c t

end Cert.KernelIdeal.Frame

end
-- ==== Proof.IdealRegions.Region1.lean ====
/-
  Region 1 of the program's main function, one grid point at a time: one row block of max(a + bias row, 0).
  The grid has 100 points; point t reads rows 1000·t … 1000·t + 999 of the first operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.KernelIdeal.Launch
import proofs.«150991_j71700184039837_1_alg».proof.Proof.Gen.KernelIdeal.Skeleton
import proofs.«150991_j71700184039837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the pipeline fetched it
    there or left it in place because its block index had not moved. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds the window's block at every point, whether the pipeline fetched it
    there or left it in place because its block index had not moved. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! The body reads and writes each staging buffer whole. -/

abbrev whole1_S1000x256 : Rect S1000x256 := Rect.unit (s := S1000x256) ![0, 0] S1000x256.size inb_S1000x256_S1000x256_0_0
abbrev whole1_S1x256 : Rect S1x256 := Rect.unit (s := S1x256) ![0, 0] S1x256.size inb_S1x256_S1x256_0_0

/-- What the body leaves in the output's staging buffer, from the blocks it loaded: its one store, of the
    payload (the block plus the bias row broadcast down the rows, then the maximum with zero). -/
def stored1 (x0 : Vec F S1000x256 .f32) (x1 : Vec F S1x256 .f32) : Vec F S1000x256 .f32 :=
  View.canon [⟨whole1_S1000x256, k1_pay1 (View.ld x0 whole1_S1000x256) (View.ld x1 whole1_S1x256)⟩]

/-- The one store covers the whole buffer. -/
theorem stored1_covers (p0 : Vec F S1000x256 .f32) (y : S1000x256.Idx) :
    ∃ pc ∈ ([⟨whole1_S1000x256, p0⟩] : List (View.Piece (Elt F) S1000x256 .f32)), y ∈ pc.1.set :=
  View.cover_of_tiled [⟨whole1_S1000x256, p0⟩] S1000x256.size (by rfl) y

set_option maxHeartbeats 4000000 in
/-- The body on whole staging buffers, the inputs' at known contents and the output's at anything, runs to a state
    with the inputs' as they were and the output's at `stored1` of them. -/
theorem body_runs1 (c : Dev nD) (E : Set ℕ) (i : grid1.Coords) (a0 : Memref sig .tc .vmem S1000x256 .f32) (h0 : a0.IsWhole) (a1 : Memref sig .tc .vmem S1x256 .f32) (h1 : a1.IsWhole) (a2 : Memref sig .tc .vmem S1000x256 .f32) (h2 : a2.IsWhole)
    (x0 : Vec F S1000x256 .f32) (x1 : Vec F S1x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored1 x0 x1)) -∗ K ⟨⟩))
      ⊢ wp frame (wpE (defs₀ (F := F)) Variants.none c none) E (cc1__bias_relu_kernel i a0 h0 a1 h1 a2 h2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The proof data of this pipeline on core c: the arrays as the region finds them; after the body at point t each
    input's buffer still at its block and the output's at `stored1` of the input blocks; the invariant is the untouched
    scoped rest and generator register; nothing owed; full shares. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => stored1 (blk1 V c 0 t) (blk1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after0 (c : Dev nD) (t : Fin cfg1.N) : (data1 V c).after 0 t = blk1 V c 0 t := by dsimp only [data1]
theorem data1_after1 (c : Dev nD) (t : Fin cfg1.N) : (data1 V c).after 1 t = blk1 V c 1 t := by dsimp only [data1]
theorem data1_after2 (c : Dev nD) (t : Fin cfg1.N) : (data1 V c).after 2 t = stored1 (blk1 V c 0 t) (blk1 V c 1 t) := by dsimp only [data1]
theorem data1_found0 (c : Dev nD) (t : Fin cfg1.N) (d) : (data1 V c).before 0 t d = blk1 V c 0 t :=
  found1_0_of V (data1 V c) (data1_A V c 0) (data1_after0 V c) t d
theorem data1_found1 (c : Dev nD) (t : Fin cfg1.N) (d) : (data1 V c).before 1 t d = blk1 V c 1 t :=
  found1_1_of V (data1 V c) (data1_A V c 1) (data1_after1 V c) t d

/-- What the body is called with at point t, and what it returns. -/
def called1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the inputs' buffers hold their blocks, so `body_runs1` applies; the invariant and the
    core's dues pass through unread. -/
theorem point_runs1 (c : Dev nD) (t : Fin cfg1.N) :
    called1 V c t ⊢ wp frame (wpE (defs₀ (F := F)) Variants.none c none) Set.univ (bodyAt1 t) (fun _ => returned1 V c t) := by
  unfold called1 returned1 bodyAt1
  simp only [data1_found0, data1_found1]
  rw [show (data1 V c).Φ t.succ = (data1 V c).Φ t.castSucc from rfl,
    show (data1 V c).owesAt () t.succ = (data1 V c).owesAt () t.castSucc from rfl,
    data1_after0, data1_after1, data1_after2]
  iintro ⟨HΦ, Ho, ⟨%d0, H0⟩, ⟨%d1, H1⟩, ⟨%d2, H2⟩⟩
  iapply (body_runs1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem obligation1 (c : Dev nD) : BodyObligation (data1 (F := F) V c) (defs₀ (F := F)) Variants.none () Set.univ := fun t => by
  rw [bigSep_W1, bigSep_W1]
  exact point_runs1 V c t

end Cert.KernelIdeal.Frame

end
-- ==== Proof.IdealRegions.Region2.lean ====
/-
  Region 2 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.KernelIdeal.Launch
import proofs.«150991_j71700184039837_1_alg».proof.Proof.Gen.KernelIdeal.Skeleton
import proofs.«150991_j71700184039837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the pipeline fetched it
    there or left it in place because its block index had not moved. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds the window's block at every point, whether the pipeline fetched it
    there or left it in place because its block index had not moved. -/
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's current staging buffer holds the window's block at every point, whether the pipeline fetched it
    there or left it in place because its block index had not moved. -/
theorem found2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! The body reads and writes each staging buffer whole. -/

abbrev whole2_S1000x256 : Rect S1000x256 := Rect.unit (s := S1000x256) ![0, 0] S1000x256.size inb_S1000x256_S1000x256_0_0
abbrev whole2_S256x128 : Rect S256x128 := Rect.unit (s := S256x128) ![0, 0] S256x128.size inb_S256x128_S256x128_0_0
abbrev whole2_S1x128 : Rect S1x128 := Rect.unit (s := S1x128) ![0, 0] S1x128.size inb_S1x128_S1x128_0_0
abbrev whole2_S1000x128 : Rect S1000x128 := Rect.unit (s := S1000x128) ![0, 0] S1000x128.size inb_S1000x128_S1000x128_0_0

/-- What the body leaves in the output's staging buffer, from the blocks it loaded: its one store, of the
    payload (the product of the first two blocks into a zero accumulator, plus the bias row broadcast down the rows). -/
def stored2 (x0 : Vec F S1000x256 .f32) (x1 : Vec F S256x128 .f32) (x2 : Vec F S1x128 .f32) : Vec F S1000x128 .f32 :=
  View.canon [⟨whole2_S1000x128, k2_pay1 (View.ld x0 whole2_S1000x256) (View.ld x1 whole2_S256x128) (View.ld x2 whole2_S1x128)⟩]

/-- The one store covers the whole buffer. -/
theorem stored2_covers (p0 : Vec F S1000x128 .f32) (y : S1000x128.Idx) :
    ∃ pc ∈ ([⟨whole2_S1000x128, p0⟩] : List (View.Piece (Elt F) S1000x128 .f32)), y ∈ pc.1.set :=
  View.cover_of_tiled [⟨whole2_S1000x128, p0⟩] S1000x128.size (by rfl) y

set_option maxHeartbeats 4000000 in
/-- The body on whole staging buffers, the inputs' at known contents and the output's at anything, runs to a state
    with the inputs' as they were and the output's at `stored2` of them. -/
theorem body_runs2 (c : Dev nD) (E : Set ℕ) (i : grid2.Coords) (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored2 x0 x1 x2)) -∗ K ⟨⟩))
      ⊢ wp frame (wpE (defs₀ (F := F)) Variants.none c none) E (cc2__matmul_bias_kernel i a0 h0 a1 h1 a2 h2 a3 h3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored2_covers _)

/-- The proof data of this pipeline on core c: the arrays as the region finds them; after the body at point t each
    input's buffer still at its block and the output's at `stored2` of the input blocks; the invariant is the untouched
    scoped rest and generator register; nothing owed; full shares. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => stored2 (blk2 V c 0 t) (blk2 V c 1 t) (blk2 V c 2 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after0 (c : Dev nD) (t : Fin cfg2.N) : (data2 V c).after 0 t = blk2 V c 0 t := by dsimp only [data2]
theorem data2_after1 (c : Dev nD) (t : Fin cfg2.N) : (data2 V c).after 1 t = blk2 V c 1 t := by dsimp only [data2]
theorem data2_after2 (c : Dev nD) (t : Fin cfg2.N) : (data2 V c).after 2 t = blk2 V c 2 t := by dsimp only [data2]
theorem data2_after3 (c : Dev nD) (t : Fin cfg2.N) : (data2 V c).after 3 t = stored2 (blk2 V c 0 t) (blk2 V c 1 t) (blk2 V c 2 t) := by dsimp only [data2]
theorem data2_found0 (c : Dev nD) (t : Fin cfg2.N) (d) : (data2 V c).before 0 t d = blk2 V c 0 t :=
  found2_0_of V (data2 V c) (data2_A V c 0) (data2_after0 V c) t d
theorem data2_found1 (c : Dev nD) (t : Fin cfg2.N) (d) : (data2 V c).before 1 t d = blk2 V c 1 t :=
  found2_1_of V (data2 V c) (data2_A V c 1) (data2_after1 V c) t d
theorem data2_found2 (c : Dev nD) (t : Fin cfg2.N) (d) : (data2 V c).before 2 t d = blk2 V c 2 t :=
  found2_2_of V (data2 V c) (data2_A V c 2) (data2_after2 V c) t d

/-- What the body is called with at point t, and what it returns. -/
def called2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

/-- The body at any point: the inputs' buffers hold their blocks, so `body_runs2` applies; the invariant and the
    core's dues pass through unread. -/
theorem point_runs2 (c : Dev nD) (t : Fin cfg2.N) :
    called2 V c t ⊢ wp frame (wpE (defs₀ (F := F)) Variants.none c none) Set.univ (bodyAt2 t) (fun _ => returned2 V c t) := by
  unfold called2 returned2 bodyAt2
  simp only [data2_found0, data2_found1, data2_found2]
  rw [show (data2 V c).Φ t.succ = (data2 V c).Φ t.castSucc from rfl,
    show (data2 V c).owesAt () t.succ = (data2 V c).owesAt () t.castSucc from rfl,
    data2_after0, data2_after1, data2_after2, data2_after3]
  iintro ⟨HΦ, Ho, ⟨%d0, H0⟩, ⟨%d1, H1⟩, ⟨%d2, H2⟩, ⟨%d3, H3⟩⟩
  iapply (body_runs2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation2 (c : Dev nD) : BodyObligation (data2 (F := F) V c) (defs₀ (F := F)) Variants.none () Set.univ := fun t => by
  rw [bigSep_W2, bigSep_W2]
  exact point_runs2 V c t

end Cert.KernelIdeal.Frame

end
-- ==== Proof.IdealRegions.Region3.lean ====
/-
  Region 3 of the program's main function, one grid point at a time: one row block of max(a + bias row, 0).
  The grid has 100 points; point t reads rows 1000·t … 1000·t + 999 of the first operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.KernelIdeal.Launch
import proofs.«150991_j71700184039837_1_alg».proof.Proof.Gen.KernelIdeal.Skeleton
import proofs.«150991_j71700184039837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, whether the pipeline fetched it
    there or left it in place because its block index had not moved. -/
theorem found3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's current staging buffer holds the window's block at every point, whether the pipeline fetched it
    there or left it in place because its block index had not moved. -/
theorem found3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! The body reads and writes each staging buffer whole. -/

abbrev whole3_S1000x128 : Rect S1000x128 := Rect.unit (s := S1000x128) ![0, 0] S1000x128.size inb_S1000x128_S1000x128_0_0
abbrev whole3_S1x128 : Rect S1x128 := Rect.unit (s := S1x128) ![0, 0] S1x128.size inb_S1x128_S1x128_0_0

/-- What the body leaves in the output's staging buffer, from the blocks it loaded: its one store, of the
    payload (the block plus the bias row broadcast down the rows, then the maximum with zero). -/
def stored3 (x0 : Vec F S1000x128 .f32) (x1 : Vec F S1x128 .f32) : Vec F S1000x128 .f32 :=
  View.canon [⟨whole3_S1000x128, k3_pay1 (View.ld x0 whole3_S1000x128) (View.ld x1 whole3_S1x128)⟩]

/-- The one store covers the whole buffer. -/
theorem stored3_covers (p0 : Vec F S1000x128 .f32) (y : S1000x128.Idx) :
    ∃ pc ∈ ([⟨whole3_S1000x128, p0⟩] : List (View.Piece (Elt F) S1000x128 .f32)), y ∈ pc.1.set :=
  View.cover_of_tiled [⟨whole3_S1000x128, p0⟩] S1000x128.size (by rfl) y

set_option maxHeartbeats 4000000 in
/-- The body on whole staging buffers, the inputs' at known contents and the output's at anything, runs to a state
    with the inputs' as they were and the output's at `stored3` of them. -/
theorem body_runs3 (c : Dev nD) (E : Set ℕ) (i : grid3.Coords) (a0 : Memref sig .tc .vmem S1000x128 .f32) (h0 : a0.IsWhole) (a1 : Memref sig .tc .vmem S1x128 .f32) (h1 : a1.IsWhole) (a2 : Memref sig .tc .vmem S1000x128 .f32) (h2 : a2.IsWhole)
    (x0 : Vec F S1000x128 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored3 x0 x1)) -∗ K ⟨⟩))
      ⊢ wp frame (wpE (defs₀ (F := F)) Variants.none c none) E (cc3__bias_relu_kernel i a0 h0 a1 h1 a2 h2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored3_covers _)

/-- The proof data of this pipeline on core c: the arrays as the region finds them; after the body at point t each
    input's buffer still at its block and the output's at `stored3` of the input blocks; the invariant is the untouched
    scoped rest and generator register; nothing owed; full shares. -/
def data3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => stored3 (blk3 V c 0 t) (blk3 V c 1 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after0 (c : Dev nD) (t : Fin cfg3.N) : (data3 V c).after 0 t = blk3 V c 0 t := by dsimp only [data3]
theorem data3_after1 (c : Dev nD) (t : Fin cfg3.N) : (data3 V c).after 1 t = blk3 V c 1 t := by dsimp only [data3]
theorem data3_after2 (c : Dev nD) (t : Fin cfg3.N) : (data3 V c).after 2 t = stored3 (blk3 V c 0 t) (blk3 V c 1 t) := by dsimp only [data3]
theorem data3_found0 (c : Dev nD) (t : Fin cfg3.N) (d) : (data3 V c).before 0 t d = blk3 V c 0 t :=
  found3_0_of V (data3 V c) (data3_A V c 0) (data3_after0 V c) t d
theorem data3_found1 (c : Dev nD) (t : Fin cfg3.N) (d) : (data3 V c).before 1 t d = blk3 V c 1 t :=
  found3_1_of V (data3 V c) (data3_A V c 1) (data3_after1 V c) t d

/-- What the body is called with at point t, and what it returns. -/
def called3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

/-- The body at any point: the inputs' buffers hold their blocks, so `body_runs3` applies; the invariant and the
    core's dues pass through unread. -/
theorem point_runs3 (c : Dev nD) (t : Fin cfg3.N) :
    called3 V c t ⊢ wp frame (wpE (defs₀ (F := F)) Variants.none c none) Set.univ (bodyAt3 t) (fun _ => returned3 V c t) := by
  unfold called3 returned3 bodyAt3
  simp only [data3_found0, data3_found1]
  rw [show (data3 V c).Φ t.succ = (data3 V c).Φ t.castSucc from rfl,
    show (data3 V c).owesAt () t.succ = (data3 V c).owesAt () t.castSucc from rfl,
    data3_after0, data3_after1, data3_after2]
  iintro ⟨HΦ, Ho, ⟨%d0, H0⟩, ⟨%d1, H1⟩, ⟨%d2, H2⟩⟩
  iapply (body_runs3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem obligation3 (c : Dev nD) : BodyObligation (data3 (F := F) V c) (defs₀ (F := F)) Variants.none () Set.univ := fun t => by
  rw [bigSep_W3, bigSep_W3]
  exact point_runs3 V c t

end Cert.KernelIdeal.Frame

end
-- ==== Proof.IdealRegions.Region4.lean ====
/-
  Region 4 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.KernelIdeal.Launch
import proofs.«150991_j71700184039837_1_alg».proof.Proof.Gen.KernelIdeal.Skeleton
import proofs.«150991_j71700184039837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, whether the pipeline fetched it
    there or left it in place because its block index had not moved. -/
theorem found4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1's current staging buffer holds the window's block at every point, whether the pipeline fetched it
    there or left it in place because its block index had not moved. -/
theorem found4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2's current staging buffer holds the window's block at every point, whether the pipeline fetched it
    there or left it in place because its block index had not moved. -/
theorem found4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-! The body reads and writes each staging buffer whole. -/

abbrev whole4_S1000x128 : Rect S1000x128 := Rect.unit (s := S1000x128) ![0, 0] S1000x128.size inb_S1000x128_S1000x128_0_0
abbrev whole4_S128x128 : Rect S128x128 := Rect.unit (s := S128x128) ![0, 0] S128x128.size inb_S128x128_S128x128_0_0
abbrev whole4_S1x128 : Rect S1x128 := Rect.unit (s := S1x128) ![0, 0] S1x128.size inb_S1x128_S1x128_0_0

/-- What the body leaves in the output's staging buffer, from the blocks it loaded: its one store, of the
    payload (the product of the first two blocks into a zero accumulator, plus the bias row broadcast down the rows). -/
def stored4 (x0 : Vec F S1000x128 .f32) (x1 : Vec F S128x128 .f32) (x2 : Vec F S1x128 .f32) : Vec F S1000x128 .f32 :=
  View.canon [⟨whole4_S1000x128, k4_pay1 (View.ld x0 whole4_S1000x128) (View.ld x1 whole4_S128x128) (View.ld x2 whole4_S1x128)⟩]

/-- The one store covers the whole buffer. -/
theorem stored4_covers (p0 : Vec F S1000x128 .f32) (y : S1000x128.Idx) :
    ∃ pc ∈ ([⟨whole4_S1000x128, p0⟩] : List (View.Piece (Elt F) S1000x128 .f32)), y ∈ pc.1.set :=
  View.cover_of_tiled [⟨whole4_S1000x128, p0⟩] S1000x128.size (by rfl) y

set_option maxHeartbeats 4000000 in
/-- The body on whole staging buffers, the inputs' at known contents and the output's at anything, runs to a state
    with the inputs' as they were and the output's at `stored4` of them. -/
theorem body_runs4 (c : Dev nD) (E : Set ℕ) (i : grid4.Coords) (a0 : Memref sig .tc .vmem S1000x128 .f32) (h0 : a0.IsWhole) (a1 : Memref sig .tc .vmem S128x128 .f32) (h1 : a1.IsWhole) (a2 : Memref sig .tc .vmem S1x128 .f32) (h2 : a2.IsWhole) (a3 : Memref sig .tc .vmem S1000x128 .f32) (h3 : a3.IsWhole)
    (x0 : Vec F S1000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored4 x0 x1 x2)) -∗ K ⟨⟩))
      ⊢ wp frame (wpE (defs₀ (F := F)) Variants.none c none) E (cc4__matmul_bias_kernel i a0 h0 a1 h1 a2 h2 a3 h3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored4_covers _)

/-- The proof data of this pipeline on core c: the arrays as the region finds them; after the body at point t each
    input's buffer still at its block and the output's at `stored4` of the input blocks; the invariant is the untouched
    scoped rest and generator register; nothing owed; full shares. -/
def data4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => stored4 (blk4 V c 0 t) (blk4 V c 1 t) (blk4 V c 2 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after0 (c : Dev nD) (t : Fin cfg4.N) : (data4 V c).after 0 t = blk4 V c 0 t := by dsimp only [data4]
theorem data4_after1 (c : Dev nD) (t : Fin cfg4.N) : (data4 V c).after 1 t = blk4 V c 1 t := by dsimp only [data4]
theorem data4_after2 (c : Dev nD) (t : Fin cfg4.N) : (data4 V c).after 2 t = blk4 V c 2 t := by dsimp only [data4]
theorem data4_after3 (c : Dev nD) (t : Fin cfg4.N) : (data4 V c).after 3 t = stored4 (blk4 V c 0 t) (blk4 V c 1 t) (blk4 V c 2 t) := by dsimp only [data4]
theorem data4_found0 (c : Dev nD) (t : Fin cfg4.N) (d) : (data4 V c).before 0 t d = blk4 V c 0 t :=
  found4_0_of V (data4 V c) (data4_A V c 0) (data4_after0 V c) t d
theorem data4_found1 (c : Dev nD) (t : Fin cfg4.N) (d) : (data4 V c).before 1 t d = blk4 V c 1 t :=
  found4_1_of V (data4 V c) (data4_A V c 1) (data4_after1 V c) t d
theorem data4_found2 (c : Dev nD) (t : Fin cfg4.N) (d) : (data4 V c).before 2 t d = blk4 V c 2 t :=
  found4_2_of V (data4 V c) (data4_A V c 2) (data4_after2 V c) t d

/-- What the body is called with at point t, and what it returns. -/
def called4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d))
    ∗ (∃ d, owns (c : Thread nD τ) (st4_3 t) fullShare ((data4 V c).before 3 t d)))

def returned4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t)
    ∗ owns (c : Thread nD τ) (st4_3 t) fullShare ((data4 V c).after 3 t))

/-- The body at any point: the inputs' buffers hold their blocks, so `body_runs4` applies; the invariant and the
    core's dues pass through unread. -/
theorem point_runs4 (c : Dev nD) (t : Fin cfg4.N) :
    called4 V c t ⊢ wp frame (wpE (defs₀ (F := F)) Variants.none c none) Set.univ (bodyAt4 t) (fun _ => returned4 V c t) := by
  unfold called4 returned4 bodyAt4
  simp only [data4_found0, data4_found1, data4_found2]
  rw [show (data4 V c).Φ t.succ = (data4 V c).Φ t.castSucc from rfl,
    show (data4 V c).owesAt () t.succ = (data4 V c).owesAt () t.castSucc from rfl,
    data4_after0, data4_after1, data4_after2, data4_after3]
  iintro ⟨HΦ, Ho, ⟨%d0, H0⟩, ⟨%d1, H1⟩, ⟨%d2, H2⟩, ⟨%d3, H3⟩⟩
  iapply (body_runs4 c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation4 (c : Dev nD) : BodyObligation (data4 (F := F) V c) (defs₀ (F := F)) Variants.none () Set.univ := fun t => by
  rw [bigSep_W4, bigSep_W4]
  exact point_runs4 V c t

end Cert.KernelIdeal.Frame

end
-- ==== Proof.IdealRegions.Region5.lean ====
/-
  Region 5 of the program's main function, one grid point at a time: one row block of max(a + bias row, 0).
  The grid has 100 points; point t reads rows 1000·t … 1000·t + 999 of the first operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.KernelIdeal.Launch
import proofs.«150991_j71700184039837_1_alg».proof.Proof.Gen.KernelIdeal.Skeleton
import proofs.«150991_j71700184039837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, whether the pipeline fetched it
    there or left it in place because its block index had not moved. -/
theorem found5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- Input window 1's current staging buffer holds the window's block at every point, whether the pipeline fetched it
    there or left it in place because its block index had not moved. -/
theorem found5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-! The body reads and writes each staging buffer whole. -/

abbrev whole5_S1000x128 : Rect S1000x128 := Rect.unit (s := S1000x128) ![0, 0] S1000x128.size inb_S1000x128_S1000x128_0_0
abbrev whole5_S1x128 : Rect S1x128 := Rect.unit (s := S1x128) ![0, 0] S1x128.size inb_S1x128_S1x128_0_0

/-- What the body leaves in the output's staging buffer, from the blocks it loaded: its one store, of the
    payload (the block plus the bias row broadcast down the rows, then the maximum with zero). -/
def stored5 (x0 : Vec F S1000x128 .f32) (x1 : Vec F S1x128 .f32) : Vec F S1000x128 .f32 :=
  View.canon [⟨whole5_S1000x128, k5_pay1 (View.ld x0 whole5_S1000x128) (View.ld x1 whole5_S1x128)⟩]

/-- The one store covers the whole buffer. -/
theorem stored5_covers (p0 : Vec F S1000x128 .f32) (y : S1000x128.Idx) :
    ∃ pc ∈ ([⟨whole5_S1000x128, p0⟩] : List (View.Piece (Elt F) S1000x128 .f32)), y ∈ pc.1.set :=
  View.cover_of_tiled [⟨whole5_S1000x128, p0⟩] S1000x128.size (by rfl) y

set_option maxHeartbeats 4000000 in
/-- The body on whole staging buffers, the inputs' at known contents and the output's at anything, runs to a state
    with the inputs' as they were and the output's at `stored5` of them. -/
theorem body_runs5 (c : Dev nD) (E : Set ℕ) (i : grid5.Coords) (a0 : Memref sig .tc .vmem S1000x128 .f32) (h0 : a0.IsWhole) (a1 : Memref sig .tc .vmem S1x128 .f32) (h1 : a1.IsWhole) (a2 : Memref sig .tc .vmem S1000x128 .f32) (h2 : a2.IsWhole)
    (x0 : Vec F S1000x128 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored5 x0 x1)) -∗ K ⟨⟩))
      ⊢ wp frame (wpE (defs₀ (F := F)) Variants.none c none) E (cc5__bias_relu_kernel i a0 h0 a1 h1 a2 h2) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored5_covers _)

/-- The proof data of this pipeline on core c: the arrays as the region finds them; after the body at point t each
    input's buffer still at its block and the output's at `stored5` of the input blocks; the invariant is the untouched
    scoped rest and generator register; nothing owed; full shares. -/
def data5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => stored5 (blk5 V c 0 t) (blk5 V c 1 t)
  Φ _ := Pipeline.ΦA spec5 c
  q _ := fullShare
  owed _ := 0

theorem data5_A (c : Dev nD) (w : Fin cfg5.W) : (data5 V c).A w = V c (Pipeline.arrRef spec5 w) := by
  dsimp only [data5]
theorem data5_after0 (c : Dev nD) (t : Fin cfg5.N) : (data5 V c).after 0 t = blk5 V c 0 t := by dsimp only [data5]
theorem data5_after1 (c : Dev nD) (t : Fin cfg5.N) : (data5 V c).after 1 t = blk5 V c 1 t := by dsimp only [data5]
theorem data5_after2 (c : Dev nD) (t : Fin cfg5.N) : (data5 V c).after 2 t = stored5 (blk5 V c 0 t) (blk5 V c 1 t) := by dsimp only [data5]
theorem data5_found0 (c : Dev nD) (t : Fin cfg5.N) (d) : (data5 V c).before 0 t d = blk5 V c 0 t :=
  found5_0_of V (data5 V c) (data5_A V c 0) (data5_after0 V c) t d
theorem data5_found1 (c : Dev nD) (t : Fin cfg5.N) (d) : (data5 V c).before 1 t d = blk5 V c 1 t :=
  found5_1_of V (data5 V c) (data5_A V c 1) (data5_after1 V c) t d

/-- What the body is called with at point t, and what it returns. -/
def called5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d)))

def returned5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t))

/-- The body at any point: the inputs' buffers hold their blocks, so `body_runs5` applies; the invariant and the
    core's dues pass through unread. -/
theorem point_runs5 (c : Dev nD) (t : Fin cfg5.N) :
    called5 V c t ⊢ wp frame (wpE (defs₀ (F := F)) Variants.none c none) Set.univ (bodyAt5 t) (fun _ => returned5 V c t) := by
  unfold called5 returned5 bodyAt5
  simp only [data5_found0, data5_found1]
  rw [show (data5 V c).Φ t.succ = (data5 V c).Φ t.castSucc from rfl,
    show (data5 V c).owesAt () t.succ = (data5 V c).owesAt () t.castSucc from rfl,
    data5_after0, data5_after1, data5_after2]
  iintro ⟨HΦ, Ho, ⟨%d0, H0⟩, ⟨%d1, H1⟩, ⟨%d2, H2⟩⟩
  iapply (body_runs5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem obligation5 (c : Dev nD) : BodyObligation (data5 (F := F) V c) (defs₀ (F := F)) Variants.none () Set.univ := fun t => by
  rw [bigSep_W5, bigSep_W5]
  exact point_runs5 V c t

end Cert.KernelIdeal.Frame

end
-- ==== Proof.IdealRegions.Region6.lean ====
/-
  Region 6 of the program's main function, one grid point at a time: one row block of a matrix product plus a bias row.
  The grid has 100 points; point t reads rows 1000·t … 1000·t + 999 of the first operand, the whole second operand and the whole bias row,
  and writes the same rows of the result. This module states what the body leaves in the output's staging buffer
  (the store's value over the blocks it loaded), runs the body symbolically, and packages the per-point facts the
  launch theorem asks for: the proof data and the body obligation. Everything is stated at any float instance and at
  a parameter V, the contents of the core's buffers when the region is entered.
-/
import proofs.«150991_j71700184039837_1_alg».proof.Proof.Gen.KernelIdeal.Launch
import proofs.«150991_j71700184039837_1_alg».proof.Proof.Gen.KernelIdeal.Skeleton
import proofs.«150991_j71700184039837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds the window's block at every point, whether the pipeline fetched it
    there or left it in place because its block index had not moved. -/
theorem found6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- Input window 1's current staging buffer holds the window's block at every point, whether the pipeline fetched it
    there or left it in place because its block index had not moved. -/
theorem found6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- Input window 2's current staging buffer holds the window's block at every point, whether the pipeline fetched it
    there or left it in place because its block index had not moved. -/
theorem found6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-! The body reads and writes each staging buffer whole. -/

abbrev whole6_S1000x512 : Rect S1000x512 := Rect.unit (s := S1000x512) ![0, 0] S1000x512.size inb_S1000x512_S1000x512_0_0
abbrev whole6_S512x512 : Rect S512x512 := Rect.unit (s := S512x512) ![0, 0] S512x512.size inb_S512x512_S512x512_0_0
abbrev whole6_S1x512 : Rect S1x512 := Rect.unit (s := S1x512) ![0, 0] S1x512.size inb_S1x512_S1x512_0_0

/-- What the body leaves in the output's staging buffer, from the blocks it loaded: its one store, of the
    payload (the product of the first two blocks into a zero accumulator, plus the bias row broadcast down the rows). -/
def stored6 (x0 : Vec F S1000x512 .f32) (x1 : Vec F S512x512 .f32) (x2 : Vec F S1x512 .f32) : Vec F S1000x512 .f32 :=
  View.canon [⟨whole6_S1000x512, k6_pay1 (View.ld x0 whole6_S1000x512) (View.ld x1 whole6_S512x512) (View.ld x2 whole6_S1x512)⟩]

/-- The one store covers the whole buffer. -/
theorem stored6_covers (p0 : Vec F S1000x512 .f32) (y : S1000x512.Idx) :
    ∃ pc ∈ ([⟨whole6_S1000x512, p0⟩] : List (View.Piece (Elt F) S1000x512 .f32)), y ∈ pc.1.set :=
  View.cover_of_tiled [⟨whole6_S1000x512, p0⟩] S1000x512.size (by rfl) y

set_option maxHeartbeats 4000000 in
/-- The body on whole staging buffers, the inputs' at known contents and the output's at anything, runs to a state
    with the inputs' as they were and the output's at `stored6` of them. -/
theorem body_runs6 (c : Dev nD) (E : Set ℕ) (i : grid6.Coords) (a0 : Memref sig .tc .vmem S1000x512 .f32) (h0 : a0.IsWhole) (a1 : Memref sig .tc .vmem S512x512 .f32) (h1 : a1.IsWhole) (a2 : Memref sig .tc .vmem S1x512 .f32) (h2 : a2.IsWhole) (a3 : Memref sig .tc .vmem S1000x512 .f32) (h3 : a3.IsWhole)
    (x0 : Vec F S1000x512 .f32) (x1 : Vec F S512x512 .f32) (x2 : Vec F S1x512 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored6 x0 x1 x2)) -∗ K ⟨⟩))
      ⊢ wp frame (wpE (defs₀ (F := F)) Variants.none c none) E (cc6__matmul_bias_kernel i a0 h0 a1 h1 a2 h2 a3 h3) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored6_covers _)

/-- The proof data of this pipeline on core c: the arrays as the region finds them; after the body at point t each
    input's buffer still at its block and the output's at `stored6` of the input blocks; the invariant is the untouched
    scoped rest and generator register; nothing owed; full shares. -/
def data6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => stored6 (blk6 V c 0 t) (blk6 V c 1 t) (blk6 V c 2 t)
  Φ _ := Pipeline.ΦA spec6 c
  q _ := fullShare
  owed _ := 0

theorem data6_A (c : Dev nD) (w : Fin cfg6.W) : (data6 V c).A w = V c (Pipeline.arrRef spec6 w) := by
  dsimp only [data6]
theorem data6_after0 (c : Dev nD) (t : Fin cfg6.N) : (data6 V c).after 0 t = blk6 V c 0 t := by dsimp only [data6]
theorem data6_after1 (c : Dev nD) (t : Fin cfg6.N) : (data6 V c).after 1 t = blk6 V c 1 t := by dsimp only [data6]
theorem data6_after2 (c : Dev nD) (t : Fin cfg6.N) : (data6 V c).after 2 t = blk6 V c 2 t := by dsimp only [data6]
theorem data6_after3 (c : Dev nD) (t : Fin cfg6.N) : (data6 V c).after 3 t = stored6 (blk6 V c 0 t) (blk6 V c 1 t) (blk6 V c 2 t) := by dsimp only [data6]
theorem data6_found0 (c : Dev nD) (t : Fin cfg6.N) (d) : (data6 V c).before 0 t d = blk6 V c 0 t :=
  found6_0_of V (data6 V c) (data6_A V c 0) (data6_after0 V c) t d
theorem data6_found1 (c : Dev nD) (t : Fin cfg6.N) (d) : (data6 V c).before 1 t d = blk6 V c 1 t :=
  found6_1_of V (data6 V c) (data6_A V c 1) (data6_after1 V c) t d
theorem data6_found2 (c : Dev nD) (t : Fin cfg6.N) (d) : (data6 V c).before 2 t d = blk6 V c 2 t :=
  found6_2_of V (data6 V c) (data6_A V c 2) (data6_after2 V c) t d

/-- What the body is called with at point t, and what it returns. -/
def called6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d))
    ∗ (∃ d, owns (c : Thread nD τ) (st6_3 t) fullShare ((data6 V c).before 3 t d)))

def returned6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t)
    ∗ owns (c : Thread nD τ) (st6_3 t) fullShare ((data6 V c).after 3 t))

/-- The body at any point: the inputs' buffers hold their blocks, so `body_runs6` applies; the invariant and the
    core's dues pass through unread. -/
theorem point_runs6 (c : Dev nD) (t : Fin cfg6.N) :
    called6 V c t ⊢ wp frame (wpE (defs₀ (F := F)) Variants.none c none) Set.univ (bodyAt6 t) (fun _ => returned6 V c t) := by
  unfold called6 returned6 bodyAt6
  simp only [data6_found0, data6_found1, data6_found2]
  rw [show (data6 V c).Φ t.succ = (data6 V c).Φ t.castSucc from rfl,
    show (data6 V c).owesAt () t.succ = (data6 V c).owesAt () t.castSucc from rfl,
    data6_after0, data6_after1, data6_after2, data6_after3]
  iintro ⟨HΦ, Ho, ⟨%d0, H0⟩, ⟨%d1, H1⟩, ⟨%d2, H2⟩, ⟨%d3, H3⟩⟩
  iapply (body_runs6 c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem obligation6 (c : Dev nD) : BodyObligation (data6 (F := F) V c) (defs₀ (F := F)) Variants.none () Set.univ := fun t => by
  rw [bigSep_W6, bigSep_W6]
  exact point_runs6 V c t

end Cert.KernelIdeal.Frame

end
-- ==== Proof.IdealRun.lean ====
/-
  The whole run of the program's main function: seven kernel regions among stretches of host operations.
  Between two items, every unscoped buffer of the core is held whole at known contents; a host stretch maps the
  contents by its operations' functions, and a region replaces its result array by what its hundred write-backs
  leave and changes nothing else. What region k leaves depends on what the regions before it left, so the arrays the
  regions leave are fixed one region at a time (`left1` … `left7`), each from the contents its region is entered with.
  From one record per region (the layout, the body obligation, and the four entailments that take the region's arrays
  out of the held buffers and put them back) the library's several-region launch gives the run.
-/
import proofs.«150991_j71700184039837_1_alg».proof.Proof.IdealRegions.Region0
import proofs.«150991_j71700184039837_1_alg».proof.Proof.IdealRegions.Region1
import proofs.«150991_j71700184039837_1_alg».proof.Proof.IdealRegions.Region2
import proofs.«150991_j71700184039837_1_alg».proof.Proof.IdealRegions.Region3
import proofs.«150991_j71700184039837_1_alg».proof.Proof.IdealRegions.Region4
import proofs.«150991_j71700184039837_1_alg».proof.Proof.IdealRegions.Region5
import proofs.«150991_j71700184039837_1_alg».proof.Proof.IdealRegions.Region6
import proofs.«150991_j71700184039837_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays the regions leave, one region at a time -/

/-- Nothing recorded yet: the launch memory stands in at every place. -/
def left0 : Outs (F := F) := fun _ r c => m ((c : Thread nD τ).loc r)

/-- One more place recorded: after item J − 1 the array r holds `val`. -/
def record (prev : Outs (F := F)) (J : ℕ) (r : Ref sig .tc) (val : (c : Dev nD) → Buf (Elt F) ((c : Thread nD τ).loc r)) : Outs (F := F) :=
  fun J' r' c => if J' = J then Function.update (fun r'' => prev J' r'' c) r (val c) r' else prev J' r' c

theorem record_hit (prev : Outs (F := F)) (J : ℕ) (r : Ref sig .tc) (val) (c : Dev nD) : record prev J r val J r c = val c := by
  unfold record; rw [if_pos rfl, Function.update_self]

theorem record_miss (prev : Outs (F := F)) (J : ℕ) (r : Ref sig .tc) (val) (J' : ℕ) (h : J' ≠ J) (r' : Ref sig .tc) (c : Dev nD) :
    record prev J r val J' r' c = prev J' r' c := by
  unfold record; rw [if_neg h]

/-- The contents region 0 is entered with, given what the regions before it left. -/
abbrev entry0 : (c : Dev nD) → (b : Ref sig .tc) → Buf (Elt F) ((c : Thread nD τ).loc b) := fun c b => V1 m c b
/-- … and region 0's result array recorded: what its write-backs leave. -/
def left1 : Outs (F := F) := record (left0 m) 2 main_v6 (fun c => (data0 (entry0 m) c).arrAt 3 cfg0.N)

/-- The contents region 1 is entered with, given what the regions before it left. -/
abbrev entry1 : (c : Dev nD) → (b : Ref sig .tc) → Buf (Elt F) ((c : Thread nD τ).loc b) := fun c b => V5 m (left1 m) c b
/-- … and region 1's result array recorded: what its write-backs leave. -/
def left2 : Outs (F := F) := record (left1 m) 6 main_v48 (fun c => (data1 (entry1 m) c).arrAt 2 cfg1.N)

/-- The contents region 2 is entered with, given what the regions before it left. -/
abbrev entry2 : (c : Dev nD) → (b : Ref sig .tc) → Buf (Elt F) ((c : Thread nD τ).loc b) := fun c b => V7 m (left2 m) c b
/-- … and region 2's result array recorded: what its write-backs leave. -/
def left3 : Outs (F := F) := record (left2 m) 8 main_v51 (fun c => (data2 (entry2 m) c).arrAt 3 cfg2.N)

/-- The contents region 3 is entered with, given what the regions before it left. -/
abbrev entry3 : (c : Dev nD) → (b : Ref sig .tc) → Buf (Elt F) ((c : Thread nD τ).loc b) := fun c b => V11 m (left3 m) c b
/-- … and region 3's result array recorded: what its write-backs leave. -/
def left4 : Outs (F := F) := record (left3 m) 12 main_v93 (fun c => (data3 (entry3 m) c).arrAt 2 cfg3.N)

/-- The contents region 4 is entered with, given what the regions before it left. -/
abbrev entry4 : (c : Dev nD) → (b : Ref sig .tc) → Buf (Elt F) ((c : Thread nD τ).loc b) := fun c b => V13 m (left4 m) c b
/-- … and region 4's result array recorded: what its write-backs leave. -/
def left5 : Outs (F := F) := record (left4 m) 14 main_v96 (fun c => (data4 (entry4 m) c).arrAt 3 cfg4.N)

/-- The contents region 5 is entered with, given what the regions before it left. -/
abbrev entry5 : (c : Dev nD) → (b : Ref sig .tc) → Buf (Elt F) ((c : Thread nD τ).loc b) := fun c b => V17 m (left5 m) c b
/-- … and region 5's result array recorded: what its write-backs leave. -/
def left6 : Outs (F := F) := record (left5 m) 18 main_v138 (fun c => (data5 (entry5 m) c).arrAt 2 cfg5.N)

/-- The contents region 6 is entered with, given what the regions before it left. -/
abbrev entry6 : (c : Dev nD) → (b : Ref sig .tc) → Buf (Elt F) ((c : Thread nD τ).loc b) := fun c b => V19 m (left6 m) c b
/-- … and region 6's result array recorded: what its write-backs leave. -/
def left7 : Outs (F := F) := record (left6 m) 20 main_v142 (fun c => (data6 (entry6 m) c).arrAt 3 cfg6.N)

/-! What a later stage records does not change what an earlier place reads. -/

theorem left7_upto1 (J : ℕ) (hJ : J ≤ 2) (r : Ref sig .tc) (c : Dev nD) : left7 m J r c = left1 m J r c := by
  unfold left7 left6 left5 left4 left3 left2
  rw [record_miss _ _ _ _ _ (by omega), record_miss _ _ _ _ _ (by omega), record_miss _ _ _ _ _ (by omega), record_miss _ _ _ _ _ (by omega), record_miss _ _ _ _ _ (by omega), record_miss _ _ _ _ _ (by omega)]
theorem left7_before1 (J : ℕ) (hJ : J < 2) (r : Ref sig .tc) (c : Dev nD) : left7 m J r c = left0 m J r c := by
  rw [left7_upto1 m J (by omega)]; unfold left1; rw [record_miss _ _ _ _ _ (by omega)]

theorem left7_upto2 (J : ℕ) (hJ : J ≤ 6) (r : Ref sig .tc) (c : Dev nD) : left7 m J r c = left2 m J r c := by
  unfold left7 left6 left5 left4 left3
  rw [record_miss _ _ _ _ _ (by omega), record_miss _ _ _ _ _ (by omega), record_miss _ _ _ _ _ (by omega), record_miss _ _ _ _ _ (by omega), record_miss _ _ _ _ _ (by omega)]
theorem left7_before2 (J : ℕ) (hJ : J < 6) (r : Ref sig .tc) (c : Dev nD) : left7 m J r c = left1 m J r c := by
  rw [left7_upto2 m J (by omega)]; unfold left2; rw [record_miss _ _ _ _ _ (by omega)]

theorem left7_upto3 (J : ℕ) (hJ : J ≤ 8) (r : Ref sig .tc) (c : Dev nD) : left7 m J r c = left3 m J r c := by
  unfold left7 left6 left5 left4
  rw [record_miss _ _ _ _ _ (by omega), record_miss _ _ _ _ _ (by omega), record_miss _ _ _ _ _ (by omega), record_miss _ _ _ _ _ (by omega)]
theorem left7_before3 (J : ℕ) (hJ : J < 8) (r : Ref sig .tc) (c : Dev nD) : left7 m J r c = left2 m J r c := by
  rw [left7_upto3 m J (by omega)]; unfold left3; rw [record_miss _ _ _ _ _ (by omega)]

theorem left7_upto4 (J : ℕ) (hJ : J ≤ 12) (r : Ref sig .tc) (c : Dev nD) : left7 m J r c = left4 m J r c := by
  unfold left7 left6 left5
  rw [record_miss _ _ _ _ _ (by omega), record_miss _ _ _ _ _ (by omega), record_miss _ _ _ _ _ (by omega)]
theorem left7_before4 (J : ℕ) (hJ : J < 12) (r : Ref sig .tc) (c : Dev nD) : left7 m J r c = left3 m J r c := by
  rw [left7_upto4 m J (by omega)]; unfold left4; rw [record_miss _ _ _ _ _ (by omega)]

theorem left7_upto5 (J : ℕ) (hJ : J ≤ 14) (r : Ref sig .tc) (c : Dev nD) : left7 m J r c = left5 m J r c := by
  unfold left7 left6
  rw [record_miss _ _ _ _ _ (by omega), record_miss _ _ _ _ _ (by omega)]
theorem left7_before5 (J : ℕ) (hJ : J < 14) (r : Ref sig .tc) (c : Dev nD) : left7 m J r c = left4 m J r c := by
  rw [left7_upto5 m J (by omega)]; unfold left5; rw [record_miss _ _ _ _ _ (by omega)]

theorem left7_upto6 (J : ℕ) (hJ : J ≤ 18) (r : Ref sig .tc) (c : Dev nD) : left7 m J r c = left6 m J r c := by
  unfold left7
  rw [record_miss _ _ _ _ _ (by omega)]
theorem left7_before6 (J : ℕ) (hJ : J < 18) (r : Ref sig .tc) (c : Dev nD) : left7 m J r c = left5 m J r c := by
  rw [left7_upto6 m J (by omega)]; unfold left6; rw [record_miss _ _ _ _ _ (by omega)]

theorem left7_upto7 (J : ℕ) (hJ : J ≤ 20) (r : Ref sig .tc) (c : Dev nD) : left7 m J r c = left7 m J r c := by
  rfl
theorem left7_before7 (J : ℕ) (hJ : J < 20) (r : Ref sig .tc) (c : Dev nD) : left7 m J r c = left6 m J r c := by
  rw [left7_upto7 m J (by omega)]; unfold left7; rw [record_miss _ _ _ _ _ (by omega)]

/-! Each region is entered with the same contents whether read against the final record or the record so far. -/

theorem entry1_final (c : Dev nD) : V5 m (left7 m) c = V5 m (left1 m) c := by
  dsimp only [V5, V4, V3, V2, V1]
  simp only [left7_before2 m 2 (by decide)]

theorem entry2_final (c : Dev nD) : V7 m (left7 m) c = V7 m (left2 m) c := by
  dsimp only [V7, V6, V5, V4, V3, V2, V1]
  simp only [left7_before3 m 2 (by decide), left7_before3 m 6 (by decide)]

theorem entry3_final (c : Dev nD) : V11 m (left7 m) c = V11 m (left3 m) c := by
  dsimp only [V11, V10, V9, V8, V7, V6, V5, V4, V3, V2, V1]
  simp only [left7_before4 m 2 (by decide), left7_before4 m 6 (by decide), left7_before4 m 8 (by decide)]

theorem entry4_final (c : Dev nD) : V13 m (left7 m) c = V13 m (left4 m) c := by
  dsimp only [V13, V12, V11, V10, V9, V8, V7, V6, V5, V4, V3, V2, V1]
  simp only [left7_before5 m 2 (by decide), left7_before5 m 6 (by decide), left7_before5 m 8 (by decide), left7_before5 m 12 (by decide)]

theorem entry5_final (c : Dev nD) : V17 m (left7 m) c = V17 m (left5 m) c := by
  dsimp only [V17, V16, V15, V14, V13, V12, V11, V10, V9, V8, V7, V6, V5, V4, V3, V2, V1]
  simp only [left7_before6 m 2 (by decide), left7_before6 m 6 (by decide), left7_before6 m 8 (by decide), left7_before6 m 12 (by decide), left7_before6 m 14 (by decide)]

theorem entry6_final (c : Dev nD) : V19 m (left7 m) c = V19 m (left6 m) c := by
  dsimp only [V19, V18, V17, V16, V15, V14, V13, V12, V11, V10, V9, V8, V7, V6, V5, V4, V3, V2, V1]
  simp only [left7_before7 m 2 (by decide), left7_before7 m 6 (by decide), left7_before7 m 8 (by decide), left7_before7 m 12 (by decide), left7_before7 m 14 (by decide), left7_before7 m 18 (by decide)]

/-! ## The thread state between items, and the regions' records -/

/-- The prefetched tables' admissible contents: no region has a table (the generated module's `adm`). -/
abbrev 𝒱₀ : Variants := Variants.none
abbrev Lev : GSem nD τ sig → Finset Unit := fun _ => ∅
abbrev lev : GSem nD τ sig → Unit → ℕ := fun _ _ => 0

/-- What rides beside the held buffers through every item: the generator register at some state, and the core owing
    nothing. -/
abbrev Rest (c : Dev nD) : sProp 𝕄 := iprop((∃ r, prngReg c r) ∗ ∃ W, owes (c : Thread nD τ) (0 : CellTallies nD τ sig Unit) W)

/-- Every region's proof data, each at the contents its region is entered with. -/
def allData : (p : Fin 7) → (c : Dev nD) → Dat τ (Elt F) Unit ℕ (UR sig nD τ) ℕ (cfgs p) c
  | ⟨0, _⟩ => fun c => data0 (entry0 m) c
  | ⟨1, _⟩ => fun c => data1 (entry1 m) c
  | ⟨2, _⟩ => fun c => data2 (entry2 m) c
  | ⟨3, _⟩ => fun c => data3 (entry3 m) c
  | ⟨4, _⟩ => fun c => data4 (entry4 m) c
  | ⟨5, _⟩ => fun c => data5 (entry5 m) c
  | ⟨6, _⟩ => fun c => data6 (entry6 m) c

/-- At region 0's exit its result array holds what the write-backs leave, its other arrays and every other buffer
    what they held at entry. -/
theorem exit0_out (c : Dev nD) : V2 m (left7 m) c main_v6 = (allData m 0 c).arrAt 3 cfg0.N := by
  show Function.update _ _ _ _ = _
  rw [Function.update_self, left7_upto1 m 2 (le_refl _)]
  unfold left1; rw [record_hit]; rfl
theorem exit0_other (c : Dev nD) (b : Ref sig .tc) (hb : b ≠ main_v6) : V2 m (left7 m) c b = V1 m c b := by
  show Function.update _ _ _ _ = _
  rw [Function.update_of_ne (StableHlo.devRef_ne_of_ne hb)]
theorem exit0_arrays (c : Dev nD) (w : Fin cfg0.W) : (allData m 0 c).arrAt w cfg0.N = V2 m (left7 m) c (Pipeline.arrRef spec0 w) := by
  match w with
  | ⟨0, _⟩ => exact (((allData m 0 c).arrAt_in 0 rfl _).trans (data0_A (entry0 m) c 0)).trans (exit0_other m c main_arg0 (by decide)).symm
  | ⟨1, _⟩ => exact (((allData m 0 c).arrAt_in 1 rfl _).trans (data0_A (entry0 m) c 1)).trans (exit0_other m c main_arg1 (by decide)).symm
  | ⟨2, _⟩ => exact (((allData m 0 c).arrAt_in 2 rfl _).trans (data0_A (entry0 m) c 2)).trans (exit0_other m c main_v5 (by decide)).symm
  | ⟨3, _⟩ => exact (exit0_out m c).symm
theorem exit0_rest (c : Dev nD) : ∀ b, b ∉ Finset.univ.image (Pipeline.arrRef spec0) → V2 m (left7 m) c b = V1 m c b :=
  fun b hb => exit0_other m c b fun e => hb (Finset.mem_image.mpr ⟨3, Finset.mem_univ _, by rw [e]⟩)

set_option backward.isDefEq.respectTransparency.types false in
/-- REGION 0 over the thread state: entered with every unscoped buffer held at the entry contents, left with them held
    at the exit contents. Its arrays are split out of the held buffers and put back; the generator register goes into the
    pipeline's invariant and comes out; nothing is owed; the kernel has no semaphore of its own. -/
def region0 : Pipeline.RegionSeg (pcfgs (F := F)) adm (allData m) () defs₀ 𝒱₀ Lev lev 0 where
  win := launch0.win.to₀
  block_pos := launch0.block_pos
  stage_whole := launch0.stage_whole
  K := PEmpty
  osem k := k.elim
  ho := Pipeline.OwnSemFacts.none _
  hbody c := (obligation0 (entry0 m) c).loose
  hwaits := Pipeline.hwaits_of_owed_zero _ _ _ _ Lev lev 0 fun _ _ => rfl
  pre c := iprop(StableHlo.held (c : Thread nD τ) (Pipeline.ucRefs τ sig) (V1 m c) ∗ Rest c)
  post c := iprop(StableHlo.held (c : Thread nD τ) (Pipeline.ucRefs τ sig) (V2 m (left7 m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (allData m) launch0.win launch0.arr_whole c
      ((allData m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 0 c).Φ 0 = Pipeline.ΦA spec0 c from rfl]; unfold Pipeline.ΦA
    iintro ⟨Hp, -, Hr⟩
    isplitl [Hr]; · iexact Hr
    iexact Hp
  hout c := by
    rw [Pipeline.ownSems0_none, show (allData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allData m) ((allData m 0 c).share_full fun _ => rfl)
      (entry0 m c) (fun b => V2 m (left7 m) c b) ((allData m 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region0_entered (c : Dev nD) : iprop(StableHlo.held (c : Thread nD τ) (Pipeline.ucRefs τ sig) (V1 m c) ∗ Rest c) ⊢ (region0 m).pre c := by
  exact .rfl

/-- At region 1's exit its result array holds what the write-backs leave, its other arrays and every other buffer
    what they held at entry. -/
theorem exit1_out (c : Dev nD) : V6 m (left7 m) c main_v48 = (allData m 1 c).arrAt 2 cfg1.N := by
  show Function.update _ _ _ _ = _
  rw [Function.update_self, left7_upto2 m 6 (le_refl _)]
  unfold left2; rw [record_hit]; rfl
theorem exit1_other (c : Dev nD) (b : Ref sig .tc) (hb : b ≠ main_v48) : V6 m (left7 m) c b = V5 m (left1 m) c b := by
  show Function.update _ _ _ _ = _
  rw [Function.update_of_ne (StableHlo.devRef_ne_of_ne hb)]
  exact congrFun (entry1_final m c) _
theorem exit1_arrays (c : Dev nD) (w : Fin cfg1.W) : (allData m 1 c).arrAt w cfg1.N = V6 m (left7 m) c (Pipeline.arrRef spec1 w) := by
  match w with
  | ⟨0, _⟩ => exact (((allData m 1 c).arrAt_in 0 rfl _).trans (data1_A (entry1 m) c 0)).trans (exit1_other m c main_v46 (by decide)).symm
  | ⟨1, _⟩ => exact (((allData m 1 c).arrAt_in 1 rfl _).trans (data1_A (entry1 m) c 1)).trans (exit1_other m c main_v47 (by decide)).symm
  | ⟨2, _⟩ => exact (exit1_out m c).symm
theorem exit1_rest (c : Dev nD) : ∀ b, b ∉ Finset.univ.image (Pipeline.arrRef spec1) → V6 m (left7 m) c b = V5 m (left1 m) c b :=
  fun b hb => exit1_other m c b fun e => hb (Finset.mem_image.mpr ⟨2, Finset.mem_univ _, by rw [e]⟩)

set_option backward.isDefEq.respectTransparency.types false in
/-- REGION 1 over the thread state: entered with every unscoped buffer held at the entry contents, left with them held
    at the exit contents. Its arrays are split out of the held buffers and put back; the generator register goes into the
    pipeline's invariant and comes out; nothing is owed; the kernel has no semaphore of its own. -/
def region1 : Pipeline.RegionSeg (pcfgs (F := F)) adm (allData m) () defs₀ 𝒱₀ Lev lev 1 where
  win := launch1.win.to₀
  block_pos := launch1.block_pos
  stage_whole := launch1.stage_whole
  K := PEmpty
  osem k := k.elim
  ho := Pipeline.OwnSemFacts.none _
  hbody c := (obligation1 (entry1 m) c).loose
  hwaits := Pipeline.hwaits_of_owed_zero _ _ _ _ Lev lev 1 fun _ _ => rfl
  pre c := iprop(StableHlo.held (c : Thread nD τ) (Pipeline.ucRefs τ sig) (V5 m (left1 m) c) ∗ Rest c)
  post c := iprop(StableHlo.held (c : Thread nD τ) (Pipeline.ucRefs τ sig) (V6 m (left7 m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (allData m) launch1.win launch1.arr_whole c
      ((allData m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 1 c).Φ 0 = Pipeline.ΦA spec1 c from rfl]; unfold Pipeline.ΦA
    iintro ⟨Hp, -, Hr⟩
    isplitl [Hr]; · iexact Hr
    iexact Hp
  hout c := by
    rw [Pipeline.ownSems0_none, show (allData m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allData m) ((allData m 1 c).share_full fun _ => rfl)
      (entry1 m c) (fun b => V6 m (left7 m) c b) ((allData m 1 c).arrAt · cfg1.N) (exit1_arrays m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region1_entered (c : Dev nD) : iprop(StableHlo.held (c : Thread nD τ) (Pipeline.ucRefs τ sig) (V5 m (left7 m) c) ∗ Rest c) ⊢ (region1 m).pre c := by
  rw [entry1_final m c]; exact .rfl

/-- At region 2's exit its result array holds what the write-backs leave, its other arrays and every other buffer
    what they held at entry. -/
theorem exit2_out (c : Dev nD) : V8 m (left7 m) c main_v51 = (allData m 2 c).arrAt 3 cfg2.N := by
  show Function.update _ _ _ _ = _
  rw [Function.update_self, left7_upto3 m 8 (le_refl _)]
  unfold left3; rw [record_hit]; rfl
theorem exit2_other (c : Dev nD) (b : Ref sig .tc) (hb : b ≠ main_v51) : V8 m (left7 m) c b = V7 m (left2 m) c b := by
  show Function.update _ _ _ _ = _
  rw [Function.update_of_ne (StableHlo.devRef_ne_of_ne hb)]
  exact congrFun (entry2_final m c) _
theorem exit2_arrays (c : Dev nD) (w : Fin cfg2.W) : (allData m 2 c).arrAt w cfg2.N = V8 m (left7 m) c (Pipeline.arrRef spec2 w) := by
  match w with
  | ⟨0, _⟩ => exact (((allData m 2 c).arrAt_in 0 rfl _).trans (data2_A (entry2 m) c 0)).trans (exit2_other m c main_v48 (by decide)).symm
  | ⟨1, _⟩ => exact (((allData m 2 c).arrAt_in 1 rfl _).trans (data2_A (entry2 m) c 1)).trans (exit2_other m c main_arg3 (by decide)).symm
  | ⟨2, _⟩ => exact (((allData m 2 c).arrAt_in 2 rfl _).trans (data2_A (entry2 m) c 2)).trans (exit2_other m c main_v50 (by decide)).symm
  | ⟨3, _⟩ => exact (exit2_out m c).symm
theorem exit2_rest (c : Dev nD) : ∀ b, b ∉ Finset.univ.image (Pipeline.arrRef spec2) → V8 m (left7 m) c b = V7 m (left2 m) c b :=
  fun b hb => exit2_other m c b fun e => hb (Finset.mem_image.mpr ⟨3, Finset.mem_univ _, by rw [e]⟩)

set_option backward.isDefEq.respectTransparency.types false in
/-- REGION 2 over the thread state: entered with every unscoped buffer held at the entry contents, left with them held
    at the exit contents. Its arrays are split out of the held buffers and put back; the generator register goes into the
    pipeline's invariant and comes out; nothing is owed; the kernel has no semaphore of its own. -/
def region2 : Pipeline.RegionSeg (pcfgs (F := F)) adm (allData m) () defs₀ 𝒱₀ Lev lev 2 where
  win := launch2.win.to₀
  block_pos := launch2.block_pos
  stage_whole := launch2.stage_whole
  K := PEmpty
  osem k := k.elim
  ho := Pipeline.OwnSemFacts.none _
  hbody c := (obligation2 (entry2 m) c).loose
  hwaits := Pipeline.hwaits_of_owed_zero _ _ _ _ Lev lev 2 fun _ _ => rfl
  pre c := iprop(StableHlo.held (c : Thread nD τ) (Pipeline.ucRefs τ sig) (V7 m (left2 m) c) ∗ Rest c)
  post c := iprop(StableHlo.held (c : Thread nD τ) (Pipeline.ucRefs τ sig) (V8 m (left7 m) c) ∗ Rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (allData m) launch2.win launch2.arr_whole c
      ((allData m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 2 c).Φ 0 = Pipeline.ΦA spec2 c from rfl]; unfold Pipeline.ΦA
    iintro ⟨Hp, -, Hr⟩
    isplitl [Hr]; · iexact Hr
    iexact Hp
  hout c := by
    rw [Pipeline.ownSems0_none, show (allData m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allData m) ((allData m 2 c).share_full fun _ => rfl)
      (entry2 m c) (fun b => V8 m (left7 m) c b) ((allData m 2 c).arrAt · cfg2.N) (exit2_arrays m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region2_entered (c : Dev nD) : iprop(StableHlo.held (c : Thread nD τ) (Pipeline.ucRefs τ sig) (V7 m (left7 m) c) ∗ Rest c) ⊢ (region2 m).pre c := by
  rw [entry2_final m c]; exact .rfl

/-- At region 3's exit its result array holds what the write-backs leave, its other arrays and every other buffer
    what they held at entry. -/
theorem exit3_out (c : Dev nD) : V12 m (left7 m) c main_v93 = (allData m 3 c).arrAt 2 cfg3.N := by
  show Function.update _ _ _ _ = _
  rw [Function.update_self, left7_upto4 m 12 (le_refl _)]
  unfold left4; rw [record_hit]; rfl
theorem exit3_other (c : Dev nD) (b : Ref sig .tc) (hb : b ≠ main_v93) : V12 m (left7 m) c b = V11 m (left3 m) c b := by
  show Function.update _ _ _ _ = _
  rw [Function.update_of_ne (StableHlo.devRef_ne_of_ne hb)]
  exact congrFun (entry3_final m c) _
theorem exit3_arrays (c : Dev nD) (w : Fin cfg3.W) : (allData m 3 c).arrAt w cfg3.N = V12 m (left7 m) c (Pipeline.arrRef spec3 w) := by
  match w with
  | ⟨0, _⟩ => exact (((allData m 3 c).arrAt_in 0 rfl _).trans (data3_A (entry3 m) c 0)).trans (exit3_other m c main_v91 (by decide)).symm
  | ⟨1, _⟩ => exact (((allData m 3 c).arrAt_in 1 rfl _).trans (data3_A (entry3 m) c 1)).trans (exit3_other m c main_v92 (by decide)).symm
  | ⟨2, _⟩ => exact (exit3_out m c).symm
theorem exit3_rest (c : Dev nD) : ∀ b, b ∉ Finset.univ.image (Pipeline.arrRef spec3) → V12 m (left7 m) c b = V11 m (left3 m) c b :=
  fun b hb => exit3_other m c b fun e => hb (Finset.mem_image.mpr ⟨2, Finset.mem_univ _, by rw [e]⟩)

set_option backward.isDefEq.respectTransparency.types false in
/-- REGION 3 over the thread state: entered with every unscoped buffer held at the entry contents, left with them held
    at the exit contents. Its arrays are split out of the held buffers and put back; the generator register goes into the
    pipeline's invariant and comes out; nothing is owed; the kernel has no semaphore of its own. -/
def region3 : Pipeline.RegionSeg (pcfgs (F := F)) adm (allData m) () defs₀ 𝒱₀ Lev lev 3 where
  win := launch3.win.to₀
  block_pos := launch3.block_pos
  stage_whole := launch3.stage_whole
  K := PEmpty
  osem k := k.elim
  ho := Pipeline.OwnSemFacts.none _
  hbody c := (obligation3 (entry3 m) c).loose
  hwaits := Pipeline.hwaits_of_owed_zero _ _ _ _ Lev lev 3 fun _ _ => rfl
  pre c := iprop(StableHlo.held (c : Thread nD τ) (Pipeline.ucRefs τ sig) (V11 m (left3 m) c) ∗ Rest c)
  post c := iprop(StableHlo.held (c : Thread nD τ) (Pipeline.ucRefs τ sig) (V12 m (left7 m) c) ∗ Rest c)
  X c := iprop(∃ r, prngReg c r)
  Y c := iprop(∃ r, prngReg c r)
  Z c := Pipeline.unscopedRest (Ix := Unit) (Name := ℕ) (U := UR sig nD τ) (Lvl := ℕ) spec3 c (entry3 m c)
  hentry c := by
    rw [Pipeline.ownSems0_none]
    have hsplit := Pipeline.arrays_of_unscopedBufs (p := 3) (pcfgs (F := F)) adm (allData m) launch3.win launch3.arr_whole c
      ((allData m 3 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 3 c).Φ 0 = Pipeline.ΦA spec3 c from rfl]; unfold Pipeline.ΦA
    iintro ⟨Hp, -, Hr⟩
    isplitl [Hr]; · iexact Hr
    iexact Hp
  hout c := by
    rw [Pipeline.ownSems0_none, show (allData m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (allData m) ((allData m 3 c).share_full fun _ => rfl)
      (entry3 m c) (fun b => V12 m (left7 m) c b) ((allData m 3 c).arrAt · cfg3.N) (exit3_arrays m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region3_entered (c : Dev nD) : iprop(StableHlo.held (c : Thread nD τ) (Pipeline.ucRefs τ sig) (V11 m (left7 m) c) ∗ Rest c) ⊢ (region3 m).pre c := by
  rw [entry3_final m c]; exact .rfl

/-- At region 4's exit its result array holds what the write-backs leave, its other arrays and every other buffer
    what they held at entry. -/
theorem exit4_out (c : Dev nD) : V14 m (left7 m) c main_v96 = (allData m 4 c).arrAt 3 cfg4.N := by
  show Function.update _ _ _ _ = _
  rw [Function.update_self, left7_upto5 m 14 (le_refl _)]
  unfold left5; rw [record_hit]; rfl
theorem exit4_other (c : Dev nD) (b : Ref sig .tc) (hb : b ≠ main_v96) : V14 m (left7 m) c b = V13 m (left4 m) c b := by
  show Function.update _ _ _ _ = _
  rw [Function.update_of_ne (StableHlo.devRef_ne_of_ne hb)]
  exact congrFun (entry4_final m c) _
theorem exit4_arrays (c : Dev nD) (w : Fin cfg4.W) : (allData m 4 c).arrAt w cfg4.N = V14 m (left7 m) c (Pipeline.arrRef spec4 w) := by
  match w with
  | ⟨0, _⟩ => exact (((allData m 4 c).arrAt_in 0 rfl _).trans (data4_A (entry4 m) c 0)).trans (exit4_other m c main_v93 (by decide)).symm
  | ⟨1, _⟩ => exact (((allData m 4 c).arrAt_in 1 rfl _).trans (data4_A (entry4 m) c 1)).trans (exit4_other m c main_arg5 (by decide)).symm
  | ⟨2, _⟩ => exact (((allData m 4 c).arrAt_in 2 rfl _).trans (data4_A (entry4 m) c 2)).trans (exit4_other m c main_v95 (by decide)).symm
  | ⟨3, _⟩ => exact (exit4_out m c).symm
theorem exit4_rest (c : Dev nD) : ∀ b, b ∉ Finset.univ.image (Pipeline.arrRef spec4) → V14 m (left7 m) c b = V13 m (left4 m) c b :=
  fun b hb => exit4_other m c b fun e => hb (Finset.mem_image.mpr ⟨3, Finset.mem_univ _, by rw [e]⟩)

set_option backward.isDefEq.respectTransparency.types false in
/-- REGION 4 over the thread state: entered with every unscoped buffer held at the entry contents, left with them held
    at the exit contents. Its arrays are split out of the held buffers and put back; the generator register goes into the
    pipeline's invariant and comes out; nothing is owed; the kernel has no semaphore of its own. -/
def region4 : Pipeline.RegionSeg (pcfgs (F := F)) adm (allData m) () defs₀ 𝒱₀ Lev lev 4 where
  win := launch4.win.to₀
  block_pos := launch4.block_pos
  stage_whole := launch4.stage_whole
  K := PEmpty
  osem k := k.elim
  ho := Pipeline.OwnSemFacts.none _
  hbody c := (obligation4 (entry4 m) c).loose
  hwaits := Pipeline.hwaits_of_owed_zero _ _ _ _ Lev lev 4 fun _ _ => rfl
  pre c := iprop(StableHlo.held (c : Thread nD τ) (Pipeline.ucRefs τ sig) (V13 m (left4 m) c) ∗ Rest c)
  post c := iprop(StableHlo.held (c : Thread nD τ) (Pipeline.ucRefs τ sig) (V14 m (left7 m) c) ∗ Rest c)
  X c := iprop(∃ r, prngReg c r)
  Y c := iprop(∃ r, prngReg c r)
  Z c := Pipeline.unscopedRest (Ix := Unit) (Name := ℕ) (U := UR sig nD τ) (Lvl := ℕ) spec4 c (entry4 m c)
  hentry c := by
    rw [Pipeline.ownSems0_none]
    have hsplit := Pipeline.arrays_of_unscopedBufs (p := 4) (pcfgs (F := F)) adm (allData m) launch4.win launch4.arr_whole c
      ((allData m 4 c).share_full fun _ => rfl) (entry4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 4 c).Φ 0 = Pipeline.ΦA spec4 c from rfl]; unfold Pipeline.ΦA
    iintro ⟨Hp, -, Hr⟩
    isplitl [Hr]; · iexact Hr
    iexact Hp
  hout c := by
    rw [Pipeline.ownSems0_none, show (allData m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (allData m) ((allData m 4 c).share_full fun _ => rfl)
      (entry4 m c) (fun b => V14 m (left7 m) c b) ((allData m 4 c).arrAt · cfg4.N) (exit4_arrays m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region4_entered (c : Dev nD) : iprop(StableHlo.held (c : Thread nD τ) (Pipeline.ucRefs τ sig) (V13 m (left7 m) c) ∗ Rest c) ⊢ (region4 m).pre c := by
  rw [entry4_final m c]; exact .rfl

/-- At region 5's exit its result array holds what the write-backs leave, its other arrays and every other buffer
    what they held at entry. -/
theorem exit5_out (c : Dev nD) : V18 m (left7 m) c main_v138 = (allData m 5 c).arrAt 2 cfg5.N := by
  show Function.update _ _ _ _ = _
  rw [Function.update_self, left7_upto6 m 18 (le_refl _)]
  unfold left6; rw [record_hit]; rfl
theorem exit5_other (c : Dev nD) (b : Ref sig .tc) (hb : b ≠ main_v138) : V18 m (left7 m) c b = V17 m (left5 m) c b := by
  show Function.update _ _ _ _ = _
  rw [Function.update_of_ne (StableHlo.devRef_ne_of_ne hb)]
  exact congrFun (entry5_final m c) _
theorem exit5_arrays (c : Dev nD) (w : Fin cfg5.W) : (allData m 5 c).arrAt w cfg5.N = V18 m (left7 m) c (Pipeline.arrRef spec5 w) := by
  match w with
  | ⟨0, _⟩ => exact (((allData m 5 c).arrAt_in 0 rfl _).trans (data5_A (entry5 m) c 0)).trans (exit5_other m c main_v136 (by decide)).symm
  | ⟨1, _⟩ => exact (((allData m 5 c).arrAt_in 1 rfl _).trans (data5_A (entry5 m) c 1)).trans (exit5_other m c main_v137 (by decide)).symm
  | ⟨2, _⟩ => exact (exit5_out m c).symm
theorem exit5_rest (c : Dev nD) : ∀ b, b ∉ Finset.univ.image (Pipeline.arrRef spec5) → V18 m (left7 m) c b = V17 m (left5 m) c b :=
  fun b hb => exit5_other m c b fun e => hb (Finset.mem_image.mpr ⟨2, Finset.mem_univ _, by rw [e]⟩)

set_option backward.isDefEq.respectTransparency.types false in
/-- REGION 5 over the thread state: entered with every unscoped buffer held at the entry contents, left with them held
    at the exit contents. Its arrays are split out of the held buffers and put back; the generator register goes into the
    pipeline's invariant and comes out; nothing is owed; the kernel has no semaphore of its own. -/
def region5 : Pipeline.RegionSeg (pcfgs (F := F)) adm (allData m) () defs₀ 𝒱₀ Lev lev 5 where
  win := launch5.win.to₀
  block_pos := launch5.block_pos
  stage_whole := launch5.stage_whole
  K := PEmpty
  osem k := k.elim
  ho := Pipeline.OwnSemFacts.none _
  hbody c := (obligation5 (entry5 m) c).loose
  hwaits := Pipeline.hwaits_of_owed_zero _ _ _ _ Lev lev 5 fun _ _ => rfl
  pre c := iprop(StableHlo.held (c : Thread nD τ) (Pipeline.ucRefs τ sig) (V17 m (left5 m) c) ∗ Rest c)
  post c := iprop(StableHlo.held (c : Thread nD τ) (Pipeline.ucRefs τ sig) (V18 m (left7 m) c) ∗ Rest c)
  X c := iprop(∃ r, prngReg c r)
  Y c := iprop(∃ r, prngReg c r)
  Z c := Pipeline.unscopedRest (Ix := Unit) (Name := ℕ) (U := UR sig nD τ) (Lvl := ℕ) spec5 c (entry5 m c)
  hentry c := by
    rw [Pipeline.ownSems0_none]
    have hsplit := Pipeline.arrays_of_unscopedBufs (p := 5) (pcfgs (F := F)) adm (allData m) launch5.win launch5.arr_whole c
      ((allData m 5 c).share_full fun _ => rfl) (entry5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 5 c).Φ 0 = Pipeline.ΦA spec5 c from rfl]; unfold Pipeline.ΦA
    iintro ⟨Hp, -, Hr⟩
    isplitl [Hr]; · iexact Hr
    iexact Hp
  hout c := by
    rw [Pipeline.ownSems0_none, show (allData m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (allData m) ((allData m 5 c).share_full fun _ => rfl)
      (entry5 m c) (fun b => V18 m (left7 m) c b) ((allData m 5 c).arrAt · cfg5.N) (exit5_arrays m c) (exit5_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region5_entered (c : Dev nD) : iprop(StableHlo.held (c : Thread nD τ) (Pipeline.ucRefs τ sig) (V17 m (left7 m) c) ∗ Rest c) ⊢ (region5 m).pre c := by
  rw [entry5_final m c]; exact .rfl

/-- At region 6's exit its result array holds what the write-backs leave, its other arrays and every other buffer
    what they held at entry. -/
theorem exit6_out (c : Dev nD) : V20 m (left7 m) c main_v142 = (allData m 6 c).arrAt 3 cfg6.N := by
  show Function.update _ _ _ _ = _
  rw [Function.update_self, left7_upto7 m 20 (le_refl _)]
  unfold left7; rw [record_hit]; rfl
theorem exit6_other (c : Dev nD) (b : Ref sig .tc) (hb : b ≠ main_v142) : V20 m (left7 m) c b = V19 m (left6 m) c b := by
  show Function.update _ _ _ _ = _
  rw [Function.update_of_ne (StableHlo.devRef_ne_of_ne hb)]
  exact congrFun (entry6_final m c) _
theorem exit6_arrays (c : Dev nD) (w : Fin cfg6.W) : (allData m 6 c).arrAt w cfg6.N = V20 m (left7 m) c (Pipeline.arrRef spec6 w) := by
  match w with
  | ⟨0, _⟩ => exact (((allData m 6 c).arrAt_in 0 rfl _).trans (data6_A (entry6 m) c 0)).trans (exit6_other m c main_v139 (by decide)).symm
  | ⟨1, _⟩ => exact (((allData m 6 c).arrAt_in 1 rfl _).trans (data6_A (entry6 m) c 1)).trans (exit6_other m c main_v140 (by decide)).symm
  | ⟨2, _⟩ => exact (((allData m 6 c).arrAt_in 2 rfl _).trans (data6_A (entry6 m) c 2)).trans (exit6_other m c main_v141 (by decide)).symm
  | ⟨3, _⟩ => exact (exit6_out m c).symm
theorem exit6_rest (c : Dev nD) : ∀ b, b ∉ Finset.univ.image (Pipeline.arrRef spec6) → V20 m (left7 m) c b = V19 m (left6 m) c b :=
  fun b hb => exit6_other m c b fun e => hb (Finset.mem_image.mpr ⟨3, Finset.mem_univ _, by rw [e]⟩)

set_option backward.isDefEq.respectTransparency.types false in
/-- REGION 6 over the thread state: entered with every unscoped buffer held at the entry contents, left with them held
    at the exit contents. Its arrays are split out of the held buffers and put back; the generator register goes into the
    pipeline's invariant and comes out; nothing is owed; the kernel has no semaphore of its own. -/
def region6 : Pipeline.RegionSeg (pcfgs (F := F)) adm (allData m) () defs₀ 𝒱₀ Lev lev 6 where
  win := launch6.win.to₀
  block_pos := launch6.block_pos
  stage_whole := launch6.stage_whole
  K := PEmpty
  osem k := k.elim
  ho := Pipeline.OwnSemFacts.none _
  hbody c := (obligation6 (entry6 m) c).loose
  hwaits := Pipeline.hwaits_of_owed_zero _ _ _ _ Lev lev 6 fun _ _ => rfl
  pre c := iprop(StableHlo.held (c : Thread nD τ) (Pipeline.ucRefs τ sig) (V19 m (left6 m) c) ∗ Rest c)
  post c := iprop(StableHlo.held (c : Thread nD τ) (Pipeline.ucRefs τ sig) (V20 m (left7 m) c) ∗ Rest c)
  X c := iprop(∃ r, prngReg c r)
  Y c := iprop(∃ r, prngReg c r)
  Z c := Pipeline.unscopedRest (Ix := Unit) (Name := ℕ) (U := UR sig nD τ) (Lvl := ℕ) spec6 c (entry6 m c)
  hentry c := by
    rw [Pipeline.ownSems0_none]
    have hsplit := Pipeline.arrays_of_unscopedBufs (p := 6) (pcfgs (F := F)) adm (allData m) launch6.win launch6.arr_whole c
      ((allData m 6 c).share_full fun _ => rfl) (entry6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 6 c).Φ 0 = Pipeline.ΦA spec6 c from rfl]; unfold Pipeline.ΦA
    iintro ⟨Hp, -, Hr⟩
    isplitl [Hr]; · iexact Hr
    iexact Hp
  hout c := by
    rw [Pipeline.ownSems0_none, show (allData m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (allData m) ((allData m 6 c).share_full fun _ => rfl)
      (entry6 m c) (fun b => V20 m (left7 m) c b) ((allData m 6 c).arrAt · cfg6.N) (exit6_arrays m c) (exit6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem region6_entered (c : Dev nD) : iprop(StableHlo.held (c : Thread nD τ) (Pipeline.ucRefs τ sig) (V19 m (left7 m) c) ∗ Rest c) ⊢ (region6 m).pre c := by
  rw [entry6_final m c]; exact .rfl

end Cert.KernelIdeal.Frame

end
-- ==== Proof.IdealValueRun.lean ====
/-
  The run of the program's main function with its result named: every weakly fair execution terminates, nothing faults,
  the result array ends at what the last region leaves (the last valuation read at the result buffer) and the ten
  arguments end as launched. The main function is the chain of its twenty items (thirteen host stretches, seven
  regions); the items' thread states chain; the launch makes the first one on every core; the last one, read against
  the final memory, gives each buffer's final contents.
-/
import proofs.«150991_j71700184039837_1_alg».proof.Proof.IdealRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The result array at the end of the run: the last valuation at the result buffer. -/
abbrev result (c : Dev nD) : Buf (Elt F) ((c.tc : Thread nD τ).loc main_v142) := V20 m (left7 m) c main_v142

/-- What the last region leaves is the last thread state beside the core owing nothing. -/
theorem last_link (c : Dev nD) : (region6 m).post c
    ⊢ (iprop(iprop(StableHlo.held (c : Thread nD τ) (Pipeline.ucRefs τ sig) (V20 m (left7 m) c) ∗ ∃ r, prngReg c r)
        ∗ ∃ W, owes (c.tc : Thread nD τ) (0 : CellTallies nD τ sig Unit) W) : sProp 𝕄) := by
  show iprop(StableHlo.held (c : Thread nD τ) (Pipeline.ucRefs τ sig) (V20 m (left7 m) c) ∗ Rest c) ⊢ _
  iintro ⟨Hh, Hp, HO⟩
  isplitl [Hh Hp]
  · isplitl [Hh] <;> iassumption
  iexact HO

set_option backward.isDefEq.respectTransparency.types false in
/-- Every weakly fair execution of the main function terminates, faulting nowhere, with the result array at `result`
    and the arguments as launched. -/
theorem runs (ρ : Dev nD → PrngReg) :
    θ_run defs (onTc (τ := τ) (main (F := F))) ⟨m, fun _ => 0, ρ⟩ (fun r => ∀ c : Dev nD,
      r.2.mem ((c.tc : Thread nD τ).loc main_v142) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (allData m) () cellOf_inj emb₁ defs₀ 𝒱₀ Lev lev m ρ main
    (segs m (left7 m) 𝒱₀ Lev lev (fun _ c => Rest c) () (allData m) (region0 m) (region1 m) (region2 m) (region3 m) (region4 m) (region5 m) (region6 m))
    (fun c Q => by
      rewrite [main_chain c, Seg.run_eq_chain,
        show ((segs m (left7 m) 𝒱₀ Lev lev (fun _ c => Rest c) () (allData m) (region0 m) (region1 m) (region2 m) (region3 m) (region4 m) (region5 m) (region6 m)) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (V20 m (left7 m) c) ∗ ∃ r, prngReg c r))
    (hch := fun c => ⟨.rfl, region0_entered m c, .rfl, .rfl, .rfl, region1_entered m c, .rfl, region2_entered m c, .rfl, .rfl, .rfl,
      region3_entered m c, .rfl, region4_entered m c, .rfl, .rfl, .rfl, region5_entered m c, .rfl, region6_entered m c,
      last_link m c⟩)
    (hinit := ?_) (hfin := fun c s' => ?_) (hQ := fun _ h => h)
  · -- the launch: the unscoped buffers are held at the launch contents; the generator register and the empty dues ride along
    refine Pipeline.initEach Lev lev fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: each buffer read off the last valuation
    unfold StableHlo.held
    iintro ⟨⟨Hh, -⟩, HSI⟩
    ihave Hr := (pointsTo_read_all (Pipeline.ucRefs τ sig) (fun b => ((c : Thread nD τ).1, b)) (V20 m (left7 m) c) s') $$ [Hh HSI]
    · isplitl [Hh] <;> iassumption
    icases Hr with ⟨%h, HSI⟩
    imodintro
    isplitr
    · ipureintro
      exact ⟨h (Proc.devRef .tc main_v142) (Finset.mem_filter.mpr ⟨StableHlo.devRef_mem_tcRefs main_v142, by decide⟩),
        (h (Proc.devRef .tc main_arg0) (Finset.mem_filter.mpr ⟨StableHlo.devRef_mem_tcRefs main_arg0, by decide⟩)).trans (V20_main_arg0 m (left7 m) c),
        (h (Proc.devRef .tc main_arg1) (Finset.mem_filter.mpr ⟨StableHlo.devRef_mem_tcRefs main_arg1, by decide⟩)).trans (V20_main_arg1 m (left7 m) c),
        (h (Proc.devRef .tc main_arg2) (Finset.mem_filter.mpr ⟨StableHlo.devRef_mem_tcRefs main_arg2, by decide⟩)).trans (V20_main_arg2 m (left7 m) c),
        (h (Proc.devRef .tc main_arg3) (Finset.mem_filter.mpr ⟨StableHlo.devRef_mem_tcRefs main_arg3, by decide⟩)).trans (V20_main_arg3 m (left7 m) c),
        (h (Proc.devRef .tc main_arg4) (Finset.mem_filter.mpr ⟨StableHlo.devRef_mem_tcRefs main_arg4, by decide⟩)).trans (V20_main_arg4 m (left7 m) c),
        (h (Proc.devRef .tc main_arg5) (Finset.mem_filter.mpr ⟨StableHlo.devRef_mem_tcRefs main_arg5, by decide⟩)).trans (V20_main_arg5 m (left7 m) c),
        (h (Proc.devRef .tc main_arg6) (Finset.mem_filter.mpr ⟨StableHlo.devRef_mem_tcRefs main_arg6, by decide⟩)).trans (V20_main_arg6 m (left7 m) c),
        (h (Proc.devRef .tc main_arg7) (Finset.mem_filter.mpr ⟨StableHlo.devRef_mem_tcRefs main_arg7, by decide⟩)).trans (V20_main_arg7 m (left7 m) c),
        (h (Proc.devRef .tc main_arg8) (Finset.mem_filter.mpr ⟨StableHlo.devRef_mem_tcRefs main_arg8, by decide⟩)).trans (V20_main_arg8 m (left7 m) c),
        (h (Proc.devRef .tc main_arg9) (Finset.mem_filter.mpr ⟨StableHlo.devRef_mem_tcRefs main_arg9, by decide⟩)).trans (V20_main_arg9 m (left7 m) c)⟩
    · iexact HSI

/-- The frame: every weakly fair execution terminates, faulting nowhere, with the arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (runs m ρ)

end Cert.KernelIdeal.Frame

end
-- ==== Proof.GraphStages.lean ====
/-
  The graph-convolution stages both programs run on the host, each as one function of whole arrays, spelt exactly
  as the programs print them.

  With N = 100000 nodes and E = 300000 edges, the edge list is a 2 × E array of node numbers. Every layer
    * appends the self loops 0 … N−1 to each row of the edge list (a column of E + N = 400000 entries);
    * counts, per node, the edges ending at it (a scatter-add of ones at the destination column);
    * takes the inverse square root of that count where it is positive and zero elsewhere;
    * weighs each edge by the product of that value at its two ends (two gathers; a negative node number is first
      wrapped by adding N);
    * gathers the transformed features at each edge's source, scales the row by the edge's weight, and adds it into
      the row of the edge's destination (a scatter-add into zeros).
  A layer then adds its bias to every row and takes the maximum with zero; the last stage multiplies the three
  layers' outputs, set side by side, by the transposed 512 × 512 matrix and adds the last bias.
-/
import proofs.«150991_j71700184039837_1_alg».proof.Proof.Gen.ReferenceIdeal

noncomputable section

namespace Cert.Stages

open Cert.ReferenceIdeal Cert.ReferenceIdeal.Facts₀ Cert.ReferenceIdeal.Facts Idealize.ShloMosaic

variable {F : FTy → Type} [FloatOps F]

abbrev Arr (s : Shape) (e : EltTy) := (⟨s, e⟩ : BufTy).Contents (Elt F)

/-- Row 0 of the edge list (the sources) followed by the self loops. -/
def sources (e : Arr (F := F) S2x300000 .i32) : Arr (F := F) S400000 .i32 :=
  concatenate S400000 0 [⟨S300000, (shapeCast _ (extractStridedSlice S1x300000 ![0, 0] e slices_S2x300000_S1x300000_0_0) shapeCasts_S1x300000_S300000)⟩, ⟨S100000, (iotaInDim S100000 32 0)⟩] concatenates_S300000_S100000_S400000_d0

/-- Row 1 of the edge list (the destinations) followed by the self loops. -/
def dests (e : Arr (F := F) S2x300000 .i32) : Arr (F := F) S400000 .i32 :=
  concatenate S400000 0 [⟨S300000, (shapeCast _ (extractStridedSlice S1x300000 ![1, 0] e slices_S2x300000_S1x300000_1_0) shapeCasts_S1x300000_S300000)⟩, ⟨S100000, (iotaInDim S100000 32 0)⟩] concatenates_S300000_S100000_S400000_d0

/-- A column of node numbers as a gather's start indices: a negative number wrapped by adding N. -/
def wrapped (v : Arr (F := F) S400000 .i32) : Arr (F := F) S400000x1 .i32 :=
  broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)

/-- Per node, the number of edges (self loop included) that end at it. -/
def degree (e : Arr (F := F) S2x300000 .i32) : Arr (F := F) S100000 .f32 :=
  Host.scatterAdd scatter_S100000_S400000x1_S400000_n_0_0_1 (broadcastInDim S100000 ![] bcast_S_S100000 (constant S_ .f32 0x00000000#32)) (broadcastInDim S400000x1 ![0] bcast_S400000_S400000x1_0 (dests e)) (broadcastInDim S400000 ![] bcast_S_S400000 (constant S_ .f32 0x3F800000#32))

/-- The inverse square root of the degree where it is positive, zero elsewhere. -/
def invRoot (e : Arr (F := F) S2x300000 .i32) : Arr (F := F) S100000 .f32 :=
  select (cmpf .ogt (degree e) (broadcastInDim S100000 ![] bcast_S_S100000 (constant S_ .f32 0x00000000#32))) (Host.rsqrt (degree e)) (broadcastInDim S100000 ![] bcast_S_S100000 (constant S_ .f32 0x00000000#32))

/-- Each edge's weight: the product of `invRoot` at its source and at its destination. -/
def edgeWeight (e : Arr (F := F) S2x300000 .i32) : Arr (F := F) S400000 .f32 :=
  mulf (Host.gather gather_S100000_S400000x1_S400000_n_0_n_n_0_1_1 (invRoot e) (wrapped (sources e))) (Host.gather gather_S100000_S400000x1_S400000_n_0_n_n_0_1_1 (invRoot e) (wrapped (dests e)))

/-- The weighted sum of 256-wide feature rows over each node's incoming edges. -/
def spread256 (h : Arr (F := F) S100000x256 .f32) (e : Arr (F := F) S2x300000 .i32) : Arr (F := F) S100000x256 .f32 :=
  Host.scatterAdd scatter_S100000x256_S400000x1_S400000x256_1_0_0_1 (broadcastInDim S100000x256 ![] bcast_S_S100000x256 (constant S_ .f32 0x00000000#32)) (broadcastInDim S400000x1 ![0] bcast_S400000_S400000x1_0 (dests e)) (mulf (Host.gather gather_S100000x256_S400000x1_S400000x256_1_0_n_n_0_1_1256 h (wrapped (sources e))) (broadcastInDim S400000x256 ![0, 1] bcast_S400000x1_S400000x256_0_1 (broadcastInDim S400000x1 ![0] bcast_S400000_S400000x1_0 (edgeWeight e))))

/-- The weighted sum of 128-wide feature rows over each node's incoming edges. -/
def spread128 (h : Arr (F := F) S100000x128 .f32) (e : Arr (F := F) S2x300000 .i32) : Arr (F := F) S100000x128 .f32 :=
  Host.scatterAdd scatter_S100000x128_S400000x1_S400000x128_1_0_0_1 (broadcastInDim S100000x128 ![] bcast_S_S100000x128 (constant S_ .f32 0x00000000#32)) (broadcastInDim S400000x1 ![0] bcast_S400000_S400000x1_0 (dests e)) (mulf (Host.gather gather_S100000x128_S400000x1_S400000x128_1_0_n_n_0_1_1128 h (wrapped (sources e))) (broadcastInDim S400000x128 ![0, 1] bcast_S400000x1_S400000x128_0_1 (broadcastInDim S400000x1 ![0] bcast_S400000_S400000x1_0 (edgeWeight e))))

/-- A bias added to every row, then the maximum with zero (256 columns). -/
def biasRelu256 (a : Arr (F := F) S100000x256 .f32) (b : Arr (F := F) S256 .f32) : Arr (F := F) S100000x256 .f32 :=
  maximumf (addf a (broadcastInDim S100000x256 ![0, 1] bcast_S1x256_S100000x256_0_1 (broadcastInDim S1x256 ![1] bcast_S256_S1x256_1 b))) (broadcastInDim S100000x256 ![] bcast_S_S100000x256 (constant S_ .f32 0x00000000#32))

/-- A bias added to every row, then the maximum with zero (128 columns). -/
def biasRelu128 (a : Arr (F := F) S100000x128 .f32) (b : Arr (F := F) S128 .f32) : Arr (F := F) S100000x128 .f32 :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The three layers' outputs side by side. -/
def sideBySide (x1 : Arr (F := F) S100000x256 .f32) (x2 x3 : Arr (F := F) S100000x128 .f32) : Arr (F := F) S100000x512 .f32 :=
  concatenate S100000x512 1 [⟨S100000x256, x1⟩, ⟨S100000x128, x2⟩, ⟨S100000x128, x3⟩] concatenates_S100000x256_S100000x128_S100000x128_S100000x512_d1

/-- The last stage: the product with the transposed 512 × 512 matrix, plus the bias on every row. -/
def lastLayer (xc : Arr (F := F) S100000x512 .f32) (w : Arr (F := F) S512x512 .f32) (b : Arr (F := F) S512 .f32) : Arr (F := F) S100000x512 .f32 :=
  addf (Host.dotGeneral dot_S100000x512_S512x512_S100000x512_1_0_0_1_n_n none xc (transpose S512x512 [1, 0] w transposes_S512x512_S512x512_1_0)) (broadcastInDim S100000x512 ![0, 1] bcast_S1x512_S100000x512_0_1 (broadcastInDim S1x512 ![1] bcast_S512_S1x512_1 b))

/-- The three layers and the last stage, composed: what the reference computes from its ten arguments. -/
def network (x : Arr (F := F) S100000x512 .f32) (w1 : Arr (F := F) S512x256 .f32) (b1 : Arr (F := F) S256 .f32)
    (w2 : Arr (F := F) S256x128 .f32) (b2 : Arr (F := F) S128 .f32) (w3 : Arr (F := F) S128x128 .f32) (b3 : Arr (F := F) S128 .f32)
    (w4 : Arr (F := F) S512x512 .f32) (b4 : Arr (F := F) S512 .f32) (e : Arr (F := F) S2x300000 .i32) : Arr (F := F) S100000x512 .f32 :=
  let x1 := biasRelu256 (spread256 (Host.dotGeneral dot_S100000x512_S512x256_S100000x256_1_0_0_1_n_n none x w1) e) b1
  let x2 := biasRelu128 (spread128 (Host.dotGeneral dot_S100000x256_S256x128_S100000x128_1_0_0_1_n_n none x1 w2) e) b2
  let x3 := biasRelu128 (spread128 (Host.dotGeneral dot_S100000x128_S128x128_S100000x128_1_0_0_1_n_n none x2 w3) e) b3
  lastLayer (sideBySide x1 x2 x3) w4 b4

end Cert.Stages

end
-- ==== Proof.LibNary3.lean ====
/-
  A host operation over a LITERAL family of three operands (a concatenation of three arrays): after it the result
  buffer holds the operation's function of the three operands' contents, each read AT ITS OWN REFERENCE, so that
  what each operand held can be read in turn. General in the references and the function.
-/
import Idealize.ShloMosaic.Lib.StableHlo.Run

noncomputable section

namespace Cert.LibNary3

open Idealize.ShloMosaic Idealize.ShloMosaic.StableHlo

variable {τ : Topo} {sig : RefSig} {Val : EltTy → Type}

/-- The result of a three-operand host operation at its result buffer: its function of the operands' contents, the
    family spelt operand by operand. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.LibAfterAt.lean ====
/-
  A straight line of host operations in single-assignment form, read one operation at a time. When every operation
  writes one buffer, no buffer is written twice, and every operand is written before it is read, the contents after
  the WHOLE line satisfy one equation per operation: the buffer it writes holds its function of what its operand
  buffers hold. The side conditions are stated over the list of written references, place by place, so that each is a
  decidable statement about references. General in the signature, the values and the operations.
-/
import Idealize.ShloMosaic.Lib.StableHlo.Run

noncomputable section

namespace Cert.LibAfterAt

open Idealize.ShloMosaic Idealize.ShloMosaic.StableHlo

variable {τ : Topo} {sig : RefSig} {Val : EltTy → Type}

/-- Two lines one after the other: the second read from the contents the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Place by place, the operation writes at most the buffer the reference at that place names. -/
abbrev Writes (ops : List (HloOp τ sig Val)) (ws : List (Ref sig .tc)) : Prop :=
  List.Forall₂ (fun op w => op.writes ⊆ {Proc.devRef (τ := τ) .tc w}) ops ws

/-- Every operation of the line writes inside the listed references. -/
theorem Writes.forall_sub : ∀ {ops : List (HloOp τ sig Val)} {ws : List (Ref sig .tc)}, Writes ops ws →
    ∀ op ∈ ops, op.writes ⊆ (ws.map (Proc.devRef (τ := τ) .tc)).toFinset
  | _, _, .nil, _, h => nomatch h
  | _, _, .cons (b := b) hab t, op, h => by
    rcases List.mem_cons.mp h with rfl | h
    · intro x hx
      have hx' := Finset.mem_singleton.mp (hab hx)
      subst hx'
      simp only [List.map_cons, List.toFinset_cons, Finset.mem_insert, true_or]
    · intro x hx
      have := Writes.forall_sub t op h hx
      simp only [List.map_cons, List.toFinset_cons, Finset.mem_insert]
      exact Or.inr this

/-- The two lists of a line and of what it writes, joined. -/
theorem Writes.append {l₁ l₂ : List (HloOp τ sig Val)} {w₁ w₂ : List (Ref sig .tc)} (h₁ : Writes l₁ w₁)
    (h₂ : Writes l₂ w₂) : Writes (l₁ ++ l₂) (w₁ ++ w₂) := List.rel_append h₁ h₂

/-- A reference that no operation from place `k` on writes holds, after the whole line, what it held after the first
    `k` operations. -/
theorem after_eq_take {ops : List (HloOp τ sig Val)} {ws : List (Ref sig .tc)} (h : Writes ops ws) (k : Nat)
    (V : Valuation τ sig Val) {r : Ref sig .tc} (hr : r ∉ ws.drop k) :
    after ops V (Proc.devRef .tc r) = after (ops.take k) V (Proc.devRef .tc r) := by
  conv_lhs => rw [← List.take_append_drop k ops]
  rw [after_append]
  exact after_of_writes_sub _ _ (List.forall_iff_forall_mem.mpr (Writes.forall_sub (List.forall₂_drop k h))) hr

/-- A reference that no operation after place `k` writes holds, after the whole line, what the operation at place `k`
    leaves there. -/
theorem after_at {ops : List (HloOp τ sig Val)} {ws : List (Ref sig .tc)} (h : Writes ops ws) (k : Nat)
    {op : HloOp τ sig Val} (hk : ops[k]? = some op) (V : Valuation τ sig Val) {r : Ref sig .tc}
    (hr : r ∉ ws.drop (k + 1)) :
    after ops V (Proc.devRef .tc r) = op.result (after (ops.take k) V) (Proc.devRef .tc r) := by
  rw [after_eq_take h (k + 1) V hr]
  have e : ops.take (k + 1) = ops.take k ++ [op] := by rw [List.take_succ, hk]; rfl
  rw [e, after_append]; rfl

/-- A reference the line never writes keeps what it held. -/
theorem after_of_not_mem {ops : List (HloOp τ sig Val)} {ws : List (Ref sig .tc)} (h : Writes ops ws)
    (V : Valuation τ sig Val) {r : Ref sig .tc} (hr : r ∉ ws) :
    after ops V (Proc.devRef .tc r) = V (Proc.devRef .tc r) :=
  after_of_writes_sub _ _ (List.forall_iff_forall_mem.mpr (Writes.forall_sub h)) hr

section Kinds

variable {ops : List (HloOp τ sig Val)} {ws : List (Ref sig .tc)}

/-- The operation at place `k` has no operand: its buffer holds its value. -/
theorem nullary_at (h : Writes ops ws) (k : Nat) (y : Ref sig .tc) (v : y.ty.Contents Val) (hy)
    (hk : ops[k]? = some (nullary y v hy)) (V : Valuation τ sig Val) (hy' : y ∉ ws.drop (k + 1)) :
    after ops V (Proc.devRef .tc y) = v := by
  rw [after_at h k hk V hy', nullary_result]

/-- The operation at place `k` has one operand, written before place `k` or never. -/
theorem unary_at (h : Writes ops ws) (k : Nat) (x y : Ref sig .tc) (f : x.ty.Contents Val → y.ty.Contents Val) (hx hy)
    (hk : ops[k]? = some (unary x y f hx hy)) (V : Valuation τ sig Val) (hy' : y ∉ ws.drop (k + 1))
    (hx' : x ∉ ws.drop k) :
    after ops V (Proc.devRef .tc y) = f (after ops V (Proc.devRef .tc x)) := by
  rw [after_at h k hk V hy', unary_result, ← after_eq_take h k V hx']

/-- The operation at place `k` has two operands. -/
theorem binary_at (h : Writes ops ws) (k : Nat) (a b y : Ref sig .tc) (f : a.ty.Contents Val → b.ty.Contents Val → y.ty.Contents Val) (ha hb hy)
    (hk : ops[k]? = some (binary a b y f ha hb hy)) (V : Valuation τ sig Val) (hy' : y ∉ ws.drop (k + 1))
    (ha' : a ∉ ws.drop k) (hb' : b ∉ ws.drop k) :
    after ops V (Proc.devRef .tc y) = f (after ops V (Proc.devRef .tc a)) (after ops V (Proc.devRef .tc b)) := by
  rw [after_at h k hk V hy', binary_result, ← after_eq_take h k V ha', ← after_eq_take h k V hb']

/-- The operation at place `k` has three operands. -/
theorem ternary_at (h : Writes ops ws) (k : Nat) (c a b y : Ref sig .tc)
    (f : c.ty.Contents Val → a.ty.Contents Val → b.ty.Contents Val → y.ty.Contents Val) (hc ha hb hy)
    (hk : ops[k]? = some (ternary c a b y f hc ha hb hy)) (V : Valuation τ sig Val) (hy' : y ∉ ws.drop (k + 1))
    (hc' : c ∉ ws.drop k) (ha' : a ∉ ws.drop k) (hb' : b ∉ ws.drop k) :
    after ops V (Proc.devRef .tc y)
      = f (after ops V (Proc.devRef .tc c)) (after ops V (Proc.devRef .tc a)) (after ops V (Proc.devRef .tc b)) := by
  rw [after_at h k hk V hy', ternary_result, ← after_eq_take h k V hc', ← after_eq_take h k V ha',
    ← after_eq_take h k V hb']

/-- The operation at place `k` is a change of shape. -/
theorem reshape_at (h : Writes ops ws) (k : Nat) (x y : Ref sig .tc) (he hn hx hy)
    (hk : ops[k]? = some (reshape (Val := Val) x y he hn hx hy)) (V : Valuation τ sig Val)
    (hy' : y ∉ ws.drop (k + 1)) (hx' : x ∉ ws.drop k) :
    after ops V (Proc.devRef .tc y)
      = fun i => he ▸ shapeCast y.ty.shape (after ops V (Proc.devRef .tc x)) hn i := by
  rw [after_at h k hk V hy', reshape_result, ← after_eq_take h k V hx']

/-- The operation at place `k` reads a literal family of three operands. -/
theorem nary3_at (h : Writes ops ws) (k : Nat) (x a b y : Ref sig .tc)
    (f : ((j : Fin 3) → ((![x, a, b] : Fin 3 → Ref sig .tc) j).ty.Contents Val) → y.ty.Contents Val) (hxs hy)
    (hk : ops[k]? = some (nary ![x, a, b] y f hxs hy)) (V : Valuation τ sig Val) (hy' : y ∉ ws.drop (k + 1))
    (hx' : x ∉ ws.drop k) (ha' : a ∉ ws.drop k) (hb' : b ∉ ws.drop k) :
    after ops V (Proc.devRef .tc y)
      = f (Fin.cons (after ops V (Proc.devRef .tc x)) (Fin.cons (after ops V (Proc.devRef .tc a))
          (Fin.cons (after ops V (Proc.devRef .tc b)) (fun i => i.elim0)))) := by
  rw [after_at h k hk V hy', nary_result]
  congr 1; funext j; fin_cases j
  · exact (after_eq_take h k V hx').symm
  · exact (after_eq_take h k V ha').symm
  · exact (after_eq_take h k V hb').symm

end Kinds

end Cert.LibAfterAt

end
-- ==== Proof.ReferenceStaged.lean ====
/-
  The reference's result is the network of the graph stages applied to its ten arguments.

  The reference's main function is 184 host operations in single-assignment form. They fall into five consecutive
  groups: four operations that cut the two rows out of the edge list; three groups of 58, one per layer (the matrix
  product, the source and destination columns, the degree and its inverse square root, the edge weights, the weighted
  gather and scatter-add, the bias and the maximum with zero); and six operations of the last stage (the three
  outputs side by side, the transposed matrix, the product, the bias). Each group is read on its own, from ANY contents
  that hold what the group reads, as one stage function of those; between the groups the buffers a later group reads
  are kept (no operation of the groups in between writes them). Folding the groups in order gives the network.
-/
import proofs.«150991_j71700184039837_1_alg».proof.Proof.GraphStages
import proofs.«150991_j71700184039837_1_alg».proof.Proof.ReferenceRunPatched
import proofs.«150991_j71700184039837_1_alg».proof.Proof.LibNary3
import proofs.«150991_j71700184039837_1_alg».proof.Proof.LibAfterAt

set_option maxRecDepth 65536

noncomputable section

namespace Cert.Stages

open Cert.ReferenceIdeal Cert.ReferenceIdeal.Gen Idealize.ShloMosaic Idealize.ShloMosaic.TcCoe Idealize.SL.Sem Idealize.ShloMosaic.StableHlo

variable {F : FTy → Type} [FloatOps F]

/-- The reference's operations from place `i` on, `n` of them. -/
abbrev piece (i n : Nat) : List (HloOp τ sig (Elt F)) := ((Cert.ReferenceIdeal.ValueP.ops (F := F)).drop i).take n

/-- Reads what is left of a fold after the one-pass reading: the operand of a concatenation sits inside a dependent
    pair, where the pass does not rewrite; these are read by plain rewriting. -/
macro "read_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The operations in five groups -/

/-- The reference's operations are the four that cut the edge list's two rows, then the three layers' operations (58
    each), then the six of the last stage. -/
theorem ops_split : (Cert.ReferenceIdeal.ValueP.ops (F := F))
    = piece 0 4 ++ (piece 4 58 ++ (piece 62 58 ++ (piece 120 58 ++ piece 178 6))) := rfl

/-- Row 0 of the edge list as a vector. -/
abbrev row0 (e : Arr (F := F) S2x300000 .i32) : Arr (F := F) S300000 .i32 :=
  shapeCast _ (extractStridedSlice S1x300000 ![0, 0] e slices_S2x300000_S1x300000_0_0) shapeCasts_S1x300000_S300000
/-- Row 1 of the edge list as a vector. -/
abbrev row1 (e : Arr (F := F) S2x300000 .i32) : Arr (F := F) S300000 .i32 :=
  shapeCast _ (extractStridedSlice S1x300000 ![1, 0] e slices_S2x300000_S1x300000_1_0) shapeCasts_S1x300000_S300000

/-! ## What each group computes -/

/-- The first four operations leave row 0 of the edge list in `main_v1`. -/
theorem rows_v1 (X : Valuation τ sig (Elt F)) (e : Arr (F := F) S2x300000 .i32) (he : X (Proc.devRef .tc main_arg9) = e) :
    after (piece 0 4) X (Proc.devRef .tc main_v1) = row0 e := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']
  rw [he]
  rfl

/-- The first four operations leave row 1 of the edge list in `main_v3`. -/
theorem rows_v3 (X : Valuation τ sig (Elt F)) (e : Arr (F := F) S2x300000 .i32) (he : X (Proc.devRef .tc main_arg9) = e) :
    after (piece 0 4) X (Proc.devRef .tc main_v3) = row1 e := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']
  rw [he]
  rfl

/-- The first layer's operations, from any contents holding the two rows of the edge list, the layer's input and its
    weight matrix and bias vector: the output buffer ends holding the bias-and-maximum of the weighted sum of the
    product's rows. -/
theorem layer1_out (X : Valuation τ sig (Elt F)) (e : Arr (F := F) S2x300000 .i32)
    (x : Arr (F := F) S100000x512 .f32) (w : Arr (F := F) S512x256 .f32) (b : Arr (F := F) S256 .f32)
    (h1 : X (Proc.devRef .tc main_v1) = row0 e) (h3 : X (Proc.devRef .tc main_v3) = row1 e)
    (hx : X (Proc.devRef .tc main_arg0) = x) (hw : X (Proc.devRef .tc main_arg1) = w) (hb : X (Proc.devRef .tc main_arg2) = b) :
    after (piece 4 58) X (Proc.devRef .tc main_v48)
      = biasRelu256 (spread256 (Host.dotGeneral dot_S100000x512_S512x256_S100000x256_1_0_0_1_n_n none x w) e) b := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']
  read_rest
  rw [h1, h3, hx, hw, hb]
  rfl

/-- The second layer's operations, from any contents holding the two rows of the edge list, the layer's input and its
    weight matrix and bias vector: the output buffer ends holding the bias-and-maximum of the weighted sum of the
    product's rows. -/
theorem layer2_out (X : Valuation τ sig (Elt F)) (e : Arr (F := F) S2x300000 .i32)
    (x : Arr (F := F) S100000x256 .f32) (w : Arr (F := F) S256x128 .f32) (b : Arr (F := F) S128 .f32)
    (h1 : X (Proc.devRef .tc main_v1) = row0 e) (h3 : X (Proc.devRef .tc main_v3) = row1 e)
    (hx : X (Proc.devRef .tc main_v48) = x) (hw : X (Proc.devRef .tc main_arg3) = w) (hb : X (Proc.devRef .tc main_arg4) = b) :
    after (piece 62 58) X (Proc.devRef .tc main_v93)
      = biasRelu128 (spread128 (Host.dotGeneral dot_S100000x256_S256x128_S100000x128_1_0_0_1_n_n none x w) e) b := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']
  read_rest
  rw [h1, h3, hx, hw, hb]
  rfl

/-- The third layer's operations, from any contents holding the two rows of the edge list, the layer's input and its
    weight matrix and bias vector: the output buffer ends holding the bias-and-maximum of the weighted sum of the
    product's rows. -/
theorem layer3_out (X : Valuation τ sig (Elt F)) (e : Arr (F := F) S2x300000 .i32)
    (x : Arr (F := F) S100000x128 .f32) (w : Arr (F := F) S128x128 .f32) (b : Arr (F := F) S128 .f32)
    (h1 : X (Proc.devRef .tc main_v1) = row0 e) (h3 : X (Proc.devRef .tc main_v3) = row1 e)
    (hx : X (Proc.devRef .tc main_v93) = x) (hw : X (Proc.devRef .tc main_arg5) = w) (hb : X (Proc.devRef .tc main_arg6) = b) :
    after (piece 120 58) X (Proc.devRef .tc main_v138)
      = biasRelu128 (spread128 (Host.dotGeneral dot_S100000x128_S128x128_S100000x128_1_0_0_1_n_n none x w) e) b := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']
  read_rest
  rw [h1, h3, hx, hw, hb]
  rfl

/-- A host operation over a literal family of three operands, at its result buffer: its function of the three operands'
    contents, each at its own reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  Cert.LibNary3.nary3_result f hxs hy V

/-- The last six operations, from any contents holding the three layers' outputs, the 512 × 512 matrix and the last
    bias vector: the result buffer ends holding the last stage of the three outputs side by side. -/
theorem last_out (X : Valuation τ sig (Elt F))
    (x1 : Arr (F := F) S100000x256 .f32) (x2 x3 : Arr (F := F) S100000x128 .f32) (w : Arr (F := F) S512x512 .f32) (b : Arr (F := F) S512 .f32)
    (h1 : X (Proc.devRef .tc main_v48) = x1) (h2 : X (Proc.devRef .tc main_v93) = x2) (h3 : X (Proc.devRef .tc main_v138) = x3)
    (hw : X (Proc.devRef .tc main_arg7) = w) (hb : X (Proc.devRef .tc main_arg8) = b) :
    after (piece 178 6) X (Proc.devRef .tc main_v144) = lastLayer (sideBySide x1 x2 x3) w b := by
  show after [_, _, _, _, _, _] X _ = _
  simp (disch := decide) only [after_cons, after_nil, nullary_result', unary_result', binary_result', nary3_result',
    nullary_result_ne', unary_result_ne', binary_result_ne', nary_result_ne']
  rw [h1, h2, h3, hw, hb]
  rfl

/-! ## What a group of operations does not write -/

/-- None of the four operations that cut the edge list's rows writes `main_arg0`. -/
theorem keep_P0_main_arg0 (X : Valuation τ sig (Elt F)) : after (piece 0 4) X (Proc.devRef .tc main_arg0) = X (Proc.devRef .tc main_arg0) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg1`. -/
theorem keep_P0_main_arg1 (X : Valuation τ sig (Elt F)) : after (piece 0 4) X (Proc.devRef .tc main_arg1) = X (Proc.devRef .tc main_arg1) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg2`. -/
theorem keep_P0_main_arg2 (X : Valuation τ sig (Elt F)) : after (piece 0 4) X (Proc.devRef .tc main_arg2) = X (Proc.devRef .tc main_arg2) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg3`. -/
theorem keep_P0_main_arg3 (X : Valuation τ sig (Elt F)) : after (piece 0 4) X (Proc.devRef .tc main_arg3) = X (Proc.devRef .tc main_arg3) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg4`. -/
theorem keep_P0_main_arg4 (X : Valuation τ sig (Elt F)) : after (piece 0 4) X (Proc.devRef .tc main_arg4) = X (Proc.devRef .tc main_arg4) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg5`. -/
theorem keep_P0_main_arg5 (X : Valuation τ sig (Elt F)) : after (piece 0 4) X (Proc.devRef .tc main_arg5) = X (Proc.devRef .tc main_arg5) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg6`. -/
theorem keep_P0_main_arg6 (X : Valuation τ sig (Elt F)) : after (piece 0 4) X (Proc.devRef .tc main_arg6) = X (Proc.devRef .tc main_arg6) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg7`. -/
theorem keep_P0_main_arg7 (X : Valuation τ sig (Elt F)) : after (piece 0 4) X (Proc.devRef .tc main_arg7) = X (Proc.devRef .tc main_arg7) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the four operations that cut the edge list's rows writes `main_arg8`. -/
theorem keep_P0_main_arg8 (X : Valuation τ sig (Elt F)) : after (piece 0 4) X (Proc.devRef .tc main_arg8) = X (Proc.devRef .tc main_arg8) := by
  show after [_, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_v1`. -/
theorem keep_L1_main_v1 (X : Valuation τ sig (Elt F)) : after (piece 4 58) X (Proc.devRef .tc main_v1) = X (Proc.devRef .tc main_v1) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_v3`. -/
theorem keep_L1_main_v3 (X : Valuation τ sig (Elt F)) : after (piece 4 58) X (Proc.devRef .tc main_v3) = X (Proc.devRef .tc main_v3) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_arg3`. -/
theorem keep_L1_main_arg3 (X : Valuation τ sig (Elt F)) : after (piece 4 58) X (Proc.devRef .tc main_arg3) = X (Proc.devRef .tc main_arg3) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_arg4`. -/
theorem keep_L1_main_arg4 (X : Valuation τ sig (Elt F)) : after (piece 4 58) X (Proc.devRef .tc main_arg4) = X (Proc.devRef .tc main_arg4) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_arg5`. -/
theorem keep_L1_main_arg5 (X : Valuation τ sig (Elt F)) : after (piece 4 58) X (Proc.devRef .tc main_arg5) = X (Proc.devRef .tc main_arg5) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_arg6`. -/
theorem keep_L1_main_arg6 (X : Valuation τ sig (Elt F)) : after (piece 4 58) X (Proc.devRef .tc main_arg6) = X (Proc.devRef .tc main_arg6) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_arg7`. -/
theorem keep_L1_main_arg7 (X : Valuation τ sig (Elt F)) : after (piece 4 58) X (Proc.devRef .tc main_arg7) = X (Proc.devRef .tc main_arg7) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the first layer's operations writes `main_arg8`. -/
theorem keep_L1_main_arg8 (X : Valuation τ sig (Elt F)) : after (piece 4 58) X (Proc.devRef .tc main_arg8) = X (Proc.devRef .tc main_arg8) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the second layer's operations writes `main_v1`. -/
theorem keep_L2_main_v1 (X : Valuation τ sig (Elt F)) : after (piece 62 58) X (Proc.devRef .tc main_v1) = X (Proc.devRef .tc main_v1) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the second layer's operations writes `main_v3`. -/
theorem keep_L2_main_v3 (X : Valuation τ sig (Elt F)) : after (piece 62 58) X (Proc.devRef .tc main_v3) = X (Proc.devRef .tc main_v3) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the second layer's operations writes `main_v48`. -/
theorem keep_L2_main_v48 (X : Valuation τ sig (Elt F)) : after (piece 62 58) X (Proc.devRef .tc main_v48) = X (Proc.devRef .tc main_v48) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the second layer's operations writes `main_arg5`. -/
theorem keep_L2_main_arg5 (X : Valuation τ sig (Elt F)) : after (piece 62 58) X (Proc.devRef .tc main_arg5) = X (Proc.devRef .tc main_arg5) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the second layer's operations writes `main_arg6`. -/
theorem keep_L2_main_arg6 (X : Valuation τ sig (Elt F)) : after (piece 62 58) X (Proc.devRef .tc main_arg6) = X (Proc.devRef .tc main_arg6) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the second layer's operations writes `main_arg7`. -/
theorem keep_L2_main_arg7 (X : Valuation τ sig (Elt F)) : after (piece 62 58) X (Proc.devRef .tc main_arg7) = X (Proc.devRef .tc main_arg7) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the second layer's operations writes `main_arg8`. -/
theorem keep_L2_main_arg8 (X : Valuation τ sig (Elt F)) : after (piece 62 58) X (Proc.devRef .tc main_arg8) = X (Proc.devRef .tc main_arg8) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the third layer's operations writes `main_v48`. -/
theorem keep_L3_main_v48 (X : Valuation τ sig (Elt F)) : after (piece 120 58) X (Proc.devRef .tc main_v48) = X (Proc.devRef .tc main_v48) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the third layer's operations writes `main_v93`. -/
theorem keep_L3_main_v93 (X : Valuation τ sig (Elt F)) : after (piece 120 58) X (Proc.devRef .tc main_v93) = X (Proc.devRef .tc main_v93) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the third layer's operations writes `main_arg7`. -/
theorem keep_L3_main_arg7 (X : Valuation τ sig (Elt F)) : after (piece 120 58) X (Proc.devRef .tc main_arg7) = X (Proc.devRef .tc main_arg7) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-- None of the third layer's operations writes `main_arg8`. -/
theorem keep_L3_main_arg8 (X : Valuation τ sig (Elt F)) : after (piece 120 58) X (Proc.devRef .tc main_arg8) = X (Proc.devRef .tc main_arg8) := by
  show after [_, _, _, _, _, _, _, _, _, _, _, _, _, _, _, _, _, _, _, _, _, _, _, _, _, _, _, _, _, _, _, _, _, _, _, _, _, _, _, _, _, _, _, _, _, _, _, _, _, _, _, _, _, _, _, _, _, _] X _ = _
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', nary_result_ne']

/-! ## The contents between the groups -/

variable (m : (ℓ : Loc nD τ sig) → Buf (Elt F) ℓ) (c : Dev nD)

/-- The contents after the first four operations. -/
def W1 : Valuation τ sig (Elt F) := after (piece 0 4) (launchContents m c)
/-- The contents after the first layer. -/
def W2 : Valuation τ sig (Elt F) := after (piece 4 58) (W1 m c)
/-- The contents after the second layer. -/
def W3 : Valuation τ sig (Elt F) := after (piece 62 58) (W2 m c)
/-- The contents after the third layer. -/
def W4 : Valuation τ sig (Elt F) := after (piece 120 58) (W3 m c)

/-- The fold over all the operations is the fold over the last six from the contents after the third layer. -/
theorem after_ops : after (Cert.ReferenceIdeal.ValueP.ops (F := F)) (launchContents m c) = after (piece 178 6) (W4 m c) := by
  rw [ops_split, Cert.LibAfterAt.after_append, Cert.LibAfterAt.after_append, Cert.LibAfterAt.after_append, Cert.LibAfterAt.after_append]
  rfl

/-- The edge list the reference is launched with. -/
abbrev edgeList : Arr (F := F) S2x300000 .i32 := (m ((c.tc : Thread nD τ).loc main_arg9))
theorem W1_main_arg0 : W1 m c (Proc.devRef .tc main_arg0) = (m ((c.tc : Thread nD τ).loc main_arg0)) := (keep_P0_main_arg0 _).trans (rfl)
theorem W1_main_arg1 : W1 m c (Proc.devRef .tc main_arg1) = (m ((c.tc : Thread nD τ).loc main_arg1)) := (keep_P0_main_arg1 _).trans (rfl)
theorem W1_main_arg2 : W1 m c (Proc.devRef .tc main_arg2) = (m ((c.tc : Thread nD τ).loc main_arg2)) := (keep_P0_main_arg2 _).trans (rfl)
theorem W1_main_arg3 : W1 m c (Proc.devRef .tc main_arg3) = (m ((c.tc : Thread nD τ).loc main_arg3)) := (keep_P0_main_arg3 _).trans (rfl)
theorem W1_main_arg4 : W1 m c (Proc.devRef .tc main_arg4) = (m ((c.tc : Thread nD τ).loc main_arg4)) := (keep_P0_main_arg4 _).trans (rfl)
theorem W1_main_arg5 : W1 m c (Proc.devRef .tc main_arg5) = (m ((c.tc : Thread nD τ).loc main_arg5)) := (keep_P0_main_arg5 _).trans (rfl)
theorem W1_main_arg6 : W1 m c (Proc.devRef .tc main_arg6) = (m ((c.tc : Thread nD τ).loc main_arg6)) := (keep_P0_main_arg6 _).trans (rfl)
theorem W1_main_arg7 : W1 m c (Proc.devRef .tc main_arg7) = (m ((c.tc : Thread nD τ).loc main_arg7)) := (keep_P0_main_arg7 _).trans (rfl)
theorem W1_main_arg8 : W1 m c (Proc.devRef .tc main_arg8) = (m ((c.tc : Thread nD τ).loc main_arg8)) := (keep_P0_main_arg8 _).trans (rfl)
theorem W1_main_v1 : W1 m c (Proc.devRef .tc main_v1) = row0 (edgeList m c) := rows_v1 _ _ rfl
theorem W1_main_v3 : W1 m c (Proc.devRef .tc main_v3) = row1 (edgeList m c) := rows_v3 _ _ rfl

/-- The first layer's output as a function of the arguments. -/
abbrev out1 : Arr (F := F) S100000x256 .f32 :=
  biasRelu256 (spread256 (Host.dotGeneral dot_S100000x512_S512x256_S100000x256_1_0_0_1_n_n none (m ((c.tc : Thread nD τ).loc main_arg0)) (m ((c.tc : Thread nD τ).loc main_arg1))) (edgeList m c)) (m ((c.tc : Thread nD τ).loc main_arg2))
theorem W2_main_v1 : W2 m c (Proc.devRef .tc main_v1) = row0 (edgeList m c) := (keep_L1_main_v1 _).trans (W1_main_v1 m c)
theorem W2_main_v3 : W2 m c (Proc.devRef .tc main_v3) = row1 (edgeList m c) := (keep_L1_main_v3 _).trans (W1_main_v3 m c)
theorem W2_main_arg3 : W2 m c (Proc.devRef .tc main_arg3) = (m ((c.tc : Thread nD τ).loc main_arg3)) := (keep_L1_main_arg3 _).trans (W1_main_arg3 m c)
theorem W2_main_arg4 : W2 m c (Proc.devRef .tc main_arg4) = (m ((c.tc : Thread nD τ).loc main_arg4)) := (keep_L1_main_arg4 _).trans (W1_main_arg4 m c)
theorem W2_main_arg5 : W2 m c (Proc.devRef .tc main_arg5) = (m ((c.tc : Thread nD τ).loc main_arg5)) := (keep_L1_main_arg5 _).trans (W1_main_arg5 m c)
theorem W2_main_arg6 : W2 m c (Proc.devRef .tc main_arg6) = (m ((c.tc : Thread nD τ).loc main_arg6)) := (keep_L1_main_arg6 _).trans (W1_main_arg6 m c)
theorem W2_main_arg7 : W2 m c (Proc.devRef .tc main_arg7) = (m ((c.tc : Thread nD τ).loc main_arg7)) := (keep_L1_main_arg7 _).trans (W1_main_arg7 m c)
theorem W2_main_arg8 : W2 m c (Proc.devRef .tc main_arg8) = (m ((c.tc : Thread nD τ).loc main_arg8)) := (keep_L1_main_arg8 _).trans (W1_main_arg8 m c)
theorem W2_main_v48 : W2 m c (Proc.devRef .tc main_v48) = out1 m c :=
  layer1_out _ _ _ _ _ (W1_main_v1 m c) (W1_main_v3 m c) (W1_main_arg0 m c) (W1_main_arg1 m c) (W1_main_arg2 m c)

/-- The second layer's output as a function of the arguments. -/
abbrev out2 : Arr (F := F) S100000x128 .f32 :=
  biasRelu128 (spread128 (Host.dotGeneral dot_S100000x256_S256x128_S100000x128_1_0_0_1_n_n none (out1 m c) (m ((c.tc : Thread nD τ).loc main_arg3))) (edgeList m c)) (m ((c.tc : Thread nD τ).loc main_arg4))
theorem W3_main_v1 : W3 m c (Proc.devRef .tc main_v1) = row0 (edgeList m c) := (keep_L2_main_v1 _).trans (W2_main_v1 m c)
theorem W3_main_v3 : W3 m c (Proc.devRef .tc main_v3) = row1 (edgeList m c) := (keep_L2_main_v3 _).trans (W2_main_v3 m c)
theorem W3_main_v48 : W3 m c (Proc.devRef .tc main_v48) = out1 m c := (keep_L2_main_v48 _).trans (W2_main_v48 m c)
theorem W3_main_arg5 : W3 m c (Proc.devRef .tc main_arg5) = (m ((c.tc : Thread nD τ).loc main_arg5)) := (keep_L2_main_arg5 _).trans (W2_main_arg5 m c)
theorem W3_main_arg6 : W3 m c (Proc.devRef .tc main_arg6) = (m ((c.tc : Thread nD τ).loc main_arg6)) := (keep_L2_main_arg6 _).trans (W2_main_arg6 m c)
theorem W3_main_arg7 : W3 m c (Proc.devRef .tc main_arg7) = (m ((c.tc : Thread nD τ).loc main_arg7)) := (keep_L2_main_arg7 _).trans (W2_main_arg7 m c)
theorem W3_main_arg8 : W3 m c (Proc.devRef .tc main_arg8) = (m ((c.tc : Thread nD τ).loc main_arg8)) := (keep_L2_main_arg8 _).trans (W2_main_arg8 m c)
theorem W3_main_v93 : W3 m c (Proc.devRef .tc main_v93) = out2 m c :=
  layer2_out _ _ _ _ _ (W2_main_v1 m c) (W2_main_v3 m c) (W2_main_v48 m c) (W2_main_arg3 m c) (W2_main_arg4 m c)

/-- The third layer's output as a function of the arguments. -/
abbrev out3 : Arr (F := F) S100000x128 .f32 :=
  biasRelu128 (spread128 (Host.dotGeneral dot_S100000x128_S128x128_S100000x128_1_0_0_1_n_n none (out2 m c) (m ((c.tc : Thread nD τ).loc main_arg5))) (edgeList m c)) (m ((c.tc : Thread nD τ).loc main_arg6))
theorem W4_main_v48 : W4 m c (Proc.devRef .tc main_v48) = out1 m c := (keep_L3_main_v48 _).trans (W3_main_v48 m c)
theorem W4_main_v93 : W4 m c (Proc.devRef .tc main_v93) = out2 m c := (keep_L3_main_v93 _).trans (W3_main_v93 m c)
theorem W4_main_arg7 : W4 m c (Proc.devRef .tc main_arg7) = (m ((c.tc : Thread nD τ).loc main_arg7)) := (keep_L3_main_arg7 _).trans (W3_main_arg7 m c)
theorem W4_main_arg8 : W4 m c (Proc.devRef .tc main_arg8) = (m ((c.tc : Thread nD τ).loc main_arg8)) := (keep_L3_main_arg8 _).trans (W3_main_arg8 m c)
theorem W4_main_v138 : W4 m c (Proc.devRef .tc main_v138) = out3 m c :=
  layer3_out _ _ _ _ _ (W3_main_v1 m c) (W3_main_v3 m c) (W3_main_v93 m c) (W3_main_arg5 m c) (W3_main_arg6 m c)

/-! ## The whole -/

/-- The reference's operations, folded over the launch contents and read at the result buffer, compute the network of
    the ten arguments. -/
theorem reference_is_network_staged :
    StableHlo.after (Cert.ReferenceIdeal.ValueP.ops (F := F)) (launchContents m c) (Proc.devRef .tc main_v144)
      = network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_ops]
  exact last_out _ _ _ _ _ _ (W4_main_v48 m c) (W4_main_v93 m c) (W4_main_v138 m c) (W4_main_arg7 m c) (W4_main_arg8 m c)

end Cert.Stages

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«150991_j71700184039837_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«150991_j71700184039837_1_alg».proof.Proof.LibPlainMatmul
import proofs.«150991_j71700184039837_1_alg».proof.Proof.LibPlainDot
import proofs.«150991_j71700184039837_1_alg».proof.Proof.LibHostRows
import proofs.«150991_j71700184039837_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.IdealValues.Left0.lean ====
/-
  What region 0 leaves in its result array, as one function of the arrays the region finds.

  The region runs a grid of 100 points over a [100000, 512] first operand, a [512, 256] second operand, a [1, 256] bias
  row and a [100000, 256] result. Point t holds rows 1000·t … 1000·t + 999 of the first operand and of the result (block
  index t on the row axis, 0 on the column axis) and the whole of the second operand and of the bias row (block index 0
  on both axes). The body multiplies its [1000, 512] block by the second operand into a zero accumulator — on the extended
  reals the narrowing to bf16 is the identity and the product is the plain sum over the 512 contracted entries — and adds
  the bias row to every row, so what point t writes back is block t of the layer
  (r, g) ↦ Σₖ A (r, k) · W (k, g) + b (0, g)  of the whole arrays: entry (ρ, g) of the block sits at row 1000·t + ρ of
  the array, and reads row 1000·t + ρ of the first operand, column g of the second and column g of the bias row. Row r
  of the result lies in block r / 1000, and 1000 · 100 = 100000, so the 100 blocks tile the array and the array ends
  holding the layer everywhere.
-/
import proofs.«150991_j71700184039837_1_alg».proof.Proof.IdealRegions.Region0
import proofs.«150991_j71700184039837_1_alg».proof.Proof.LibDenseLayers
import proofs.«150991_j71700184039837_1_alg».proof.Proof.LibBlockLayout
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of the whole-buffer rectangle, spelt as a vector, are all zero. -/
theorem zeros2_0 : (![0, 0] : Fin 2 → Nat) = fun _ => 0 := funext fun a => by fin_cases a <;> rfl

/-- The layer x · W + b of the whole arrays: entry (r, g) is Σₖ A (r, k) · W (k, g) + b (0, g). -/
abbrev rows0 (A : S100000x512.Idx → EReal) (W : S512x256.Idx → EReal) (b : S1x256.Idx → EReal) : S100000x256.Idx → EReal :=
  Cert.SageLayers.affLayer (R := 100000) (K := 512) (N := 256) A W b

/-- The layer read at an entry. -/
theorem rows0_at (A : S100000x512.Idx → EReal) (W : S512x256.Idx → EReal) (b : S1x256.Idx → EReal) (i : S100000x256.Idx) :
    rows0 A W b i = Cert.SageLayers.affineAt (R := 100000) (K := 512) (N := 256) A W b (i 0) (i 1) := rfl

/-- Two layer entries agree when the rows of the first operands, the columns of the second and the bias entries they
    read agree. -/
theorem affineAt_of_eq_0 {R R' K N : ℕ}
    (A' : (⟨2, ![R', K]⟩ : Shape).Idx → EReal) (W' : (⟨2, ![K, N]⟩ : Shape).Idx → EReal) (b' : (⟨2, ![1, N]⟩ : Shape).Idx → EReal)
    (A : (⟨2, ![R, K]⟩ : Shape).Idx → EReal) (W : (⟨2, ![K, N]⟩ : Shape).Idx → EReal) (b : (⟨2, ![1, N]⟩ : Shape).Idx → EReal)
    (r' : Fin R') (g' : Fin N) (r : Fin R) (g : Fin N)
    (hA : ∀ k : Fin K, A' (ix2 r' k) = A (ix2 r k)) (hW : ∀ k : Fin K, W' (ix2 k g') = W (ix2 k g))
    (hb : b' (ix2 (0 : Fin 1) g') = b (ix2 (0 : Fin 1) g)) :
    Cert.SageLayers.affineAt A' W' b' r' g' = Cert.SageLayers.affineAt A W b r g := by
  unfold Cert.SageLayers.affineAt
  rw [hb]
  exact congrArg (· + b (ix2 (0 : Fin 1) g)) (Finset.sum_congr rfl fun k _ => by rw [hA k, hW k])

/-- The body's arithmetic read at an entry of the block: row (y 0) of the first block against column (y 1) of the
    second, summed over the 512 contracted entries, plus the bias row's entry in that column. -/
theorem pay0_at (x0 : Vec Ideal S1000x512 .f32) (x1 : Vec Ideal S512x256 .f32) (x2 : Vec Ideal S1x256 .f32) (y : S1000x256.Idx) :
    k0_pay1 x0 x1 x2 y = Cert.SageLayers.affineAt (R := 1000) (K := 512) (N := 256) x0 x1 x2 (y 0) (y 1) := by
  obtain ⟨r, g, rfl⟩ : ∃ (r : Fin 1000) (g : Fin 256), y = ix2 r g := ⟨y 0, y 1, eq_ix2 y⟩
  exact Cert.SageLayers.kernel_affine_at (R := 1000) (K := 512) (N := 256) x0 x1 x2 bitsLt_bf16_f32 bitsLt_bf16_f32
    shapeCasts_S1x256_S1x256 broadcasts_S1x256_S1000x256 r g

/-- The index maps, decided over the 100 grid points: point t takes row block t of the first operand and of the
    result, and the one block of the second operand and of the bias row. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t (rows 1000·t … 1000·t + 999) of the layer of the arrays as the region
    finds them. -/
theorem flushed0_eq (c : Dev nD) (t : Fin cfg0.N) :
    (data0 (F := Ideal) V c).flushed 3 t
      = ((cfg0.win 3).blk t).view.read (Elt Ideal) (rows0 (V c main_arg0) (V c main_arg1) (V c main_v5)) := by
  show (cfg0.win 3).cut (grid0.coords t) ((data0 V c).after 3 t) = _
  rw [data0_after3]
  unfold stored0
  rw [View.canon_unit_zero zeros2_0]
  simp only [View.ld_unit_zero (S := S1000x512) zeros2_0, View.ld_unit_zero (S := S512x256) zeros2_0,
    View.ld_unit_zero (S := S1x256) zeros2_0]
  funext j
  refine (pay0_at (blk0 V c 0 t) (blk0 V c 1 t) (blk0 V c 2 t) j).trans ?_
  obtain ⟨e00, e01, e10, e11, e20, e21, e30, e31⟩ := idx_facts0 t
  have hA : ∀ k : Fin 512, (((cfg0.win 0).blk t).view.emb (ix2 (j 0) k) : S100000x512.Idx)
      = ix2 ((((cfg0.win 3).blk t).view.emb j : S100000x256.Idx) 0) k := fun k => by
    funext a; apply Fin.ext
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 512 + 1 * k.val = k.val; omega
  have hW : ∀ k : Fin 512, (((cfg0.win 1).blk t).view.emb (ix2 k (j 1)) : S512x256.Idx)
      = ix2 k ((((cfg0.win 3).blk t).view.emb j : S100000x256.Idx) 1) := fun k => by
    funext a; apply Fin.ext
    match a with
    | ⟨0, _⟩ => show win0_1.index t (0 : Fin 2) * 512 + 1 * k.val = k.val; omega
    | ⟨1, _⟩ => show win0_1.index t (1 : Fin 2) * 256 + 1 * (j 1).val = win0_3.index t (1 : Fin 2) * 256 + 1 * (j 1).val; omega
  have hb : (((cfg0.win 2).blk t).view.emb (ix2 (0 : Fin 1) (j 1)) : S1x256.Idx)
      = ix2 (0 : Fin 1) ((((cfg0.win 3).blk t).view.emb j : S100000x256.Idx) 1) := by
    funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega
  exact affineAt_of_eq_0 (R := 100000) (R' := 1000) (K := 512) (N := 256) _ _ _ (V c main_arg0) (V c main_arg1) (V c main_v5) (j 0) (j 1)
    ((((cfg0.win 3).blk t).view.emb j : S100000x256.Idx) 0) ((((cfg0.win 3).blk t).view.emb j : S100000x256.Idx) 1)
    (fun k => congrArg (V c main_arg0) (hA k)) (fun k => congrArg (V c main_arg1) (hW k)) (congrArg (V c main_v5) hb)

/-- An entry of the result array lies in point t's block iff each coordinate lies in the block's range on its axis. -/
theorem mem_blk0 (t : Fin cfg0.N) (i : S100000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v6).slice (win0_3.rect t)).set ↔ _
  rw [View.set_slice_whole, Rect.mem_set_unit]
  exact Iff.rfl

/-- The blocks tile the array: row r lies in block r / 1000, and every point writes its block back. -/
theorem covered0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ : ∃ t : Fin cfg0.N, t.val = (i 0).val / 1000 :=
    ⟨⟨(i 0).val / 1000, by have := N_0; show _ < grid0.N; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

/-- The result array after the region: the layer x · W + b of the operands and the bias row as the region finds them. -/
theorem rows0_eq (c : Dev nD) :
    (data0 (F := Ideal) V c).arrAt 3 cfg0.N = rows0 (V c main_arg0) (V c main_arg1) (V c main_v5) :=
  (data0 (F := Ideal) V c).arrAt_eq_of_cover 3 (rows0 (V c main_arg0) (V c main_arg1) (V c main_v5)) (fun t _ => flushed0_eq V c t) covered0

end Cert.KernelIdeal.Frame

end
-- ==== Proof.IdealValues.Left1.lean ====
/-
  What region 1 leaves in its result array, as one function of the arrays the region finds.

  The region runs a grid of 100 points over a [100000, 256] operand, a [1, 256] bias row and a [100000, 256] result.
  Point t holds rows 1000·t … 1000·t + 999 of the operand and of the result (block index t on the row axis, 0 on the
  column axis, a block being [1000, 256]) and the whole bias row (block index 0 on both axes). The body adds the bias
  row to every row of its block and takes the maximum with zero, so what point t writes back is block t of the
  rectified sum  (r, g) ↦ max (A (r, g) + b (0, g), 0)  of the whole arrays: an entry (ρ, g) of the block sits at row
  1000·t + ρ of the array, in both the operand and the result, and in column g of the bias row. Row r of the result
  lies in block r / 1000, and 1000 · 100 = 100000, so the 100 blocks tile the array and the array ends holding the
  rectified sum everywhere.
-/
import proofs.«150991_j71700184039837_1_alg».proof.Proof.IdealRegions.Region1
import proofs.«150991_j71700184039837_1_alg».proof.Proof.LibDenseLayers
import proofs.«150991_j71700184039837_1_alg».proof.Proof.LibBlockLayout
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of the whole-buffer rectangle, spelt as a vector, are all zero. -/
theorem zeros2_1 : (![0, 0] : Fin 2 → Nat) = fun _ => 0 := funext fun a => by fin_cases a <;> rfl

/-- The rectified sum of an array and a bias row: entry (r, g) is max (A (r, g) + b (0, g), 0). -/
def rows1 (A : S100000x256.Idx → EReal) (b : S1x256.Idx → EReal) : S100000x256.Idx → EReal :=
  fun i => max (A i + b (ix2 (0 : Fin 1) (i 1))) Cert.SageLayers.zeroF

/-- The rectified sum read at an entry. -/
theorem rows1_at (A : S100000x256.Idx → EReal) (b : S1x256.Idx → EReal) (i : S100000x256.Idx) :
    rows1 A b i = max (A i + b (ix2 (0 : Fin 1) (i 1))) Cert.SageLayers.zeroF := rfl

/-- Two values that are the operand's entry and the bias row's entry in the same column rectify to the rectified
    sum's entry. -/
theorem rows1_of_eq (A : S100000x256.Idx → EReal) (b : S1x256.Idx → EReal) (x y : EReal) (i : S100000x256.Idx)
    (hx : x = A i) (hy : y = b (ix2 (0 : Fin 1) (i 1))) : max (x + y) Cert.SageLayers.zeroF = rows1 A b i := by
  subst hx hy; rfl

/-- The body's arithmetic read at an entry of the block: the block's entry plus the bias row's entry in the same
    column, then the maximum with zero. -/
theorem pay1_at (x0 : Vec Ideal S1000x256 .f32) (x1 : Vec Ideal S1x256 .f32) (y : S1000x256.Idx) :
    k1_pay1 x0 x1 y = max (x0 y + x1 (ix2 (0 : Fin 1) (y 1))) Cert.SageLayers.zeroF := by
  obtain ⟨r, g, rfl⟩ : ∃ (r : Fin 1000) (g : Fin 256), y = ix2 r g := ⟨y 0, y 1, eq_ix2 y⟩
  show maximumf (F := Idealize.ShloMosaic.Ideal) (addf (shapeCast S1000x256 x0 shapeCasts_S1000x256_S1000x256)
      (broadcastTo S1000x256 (shapeCast S1x256 x1 shapeCasts_S1x256_S1x256) broadcasts_S1x256_S1000x256))
      (broadcast S1000x256 (Scalar.ofBits .f32 0x00000000#32)) (ix2 r g) = _
  rw [maximumf_apply, addf_apply, shapeCast_self, shapeCast_self, broadcast_apply, Cert.LibBlockLayout.rowBroadcast_at]
  rfl

/-- The index maps, decided over the 100 grid points: point t takes row block t of the operand and of the result,
    and the one block of the bias row. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t (rows 1000·t … 1000·t + 999) of the rectified sum of the arrays as the
    region finds them. -/
theorem flushed1_eq (c : Dev nD) (t : Fin cfg1.N) :
    (data1 (F := Ideal) V c).flushed 2 t
      = ((cfg1.win 2).blk t).view.read (Elt Ideal) (rows1 (V c main_v46) (V c main_v47)) := by
  show (cfg1.win 2).cut (grid1.coords t) ((data1 V c).after 2 t) = _
  rw [data1_after2]
  unfold stored1
  rw [View.canon_unit_zero zeros2_1]
  simp only [View.ld_unit_zero (S := S1000x256) zeros2_1, View.ld_unit_zero (S := S1x256) zeros2_1]
  funext j
  refine (pay1_at (blk1 V c 0 t) (blk1 V c 1 t) j).trans ?_
  obtain ⟨e00, e01, e10, e11, e20, e21⟩ := idx_facts1 t
  have h0 : (((cfg1.win 0).blk t).view.emb j : S100000x256.Idx) = ((cfg1.win 2).blk t).view.emb j := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 256 + 1 * (j 1).val = win1_2.index t (1 : Fin 2) * 256 + 1 * (j 1).val; omega
  have h1 : (((cfg1.win 1).blk t).view.emb (ix2 (0 : Fin 1) (j 1)) : S1x256.Idx)
      = ix2 (0 : Fin 1) ((((cfg1.win 2).blk t).view.emb j : S100000x256.Idx) 1) := by
    funext a; apply Fin.ext
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega
  exact rows1_of_eq (V c main_v46) (V c main_v47) _ _ (((cfg1.win 2).blk t).view.emb j)
    (congrArg (V c main_v46) h0) (congrArg (V c main_v47) h1)

/-- An entry of the result array lies in point t's block iff each coordinate lies in the block's range on its axis. -/
theorem mem_blk1 (t : Fin cfg1.N) (i : S100000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v48).slice (win1_2.rect t)).set ↔ _
  rw [View.set_slice_whole, Rect.mem_set_unit]
  exact Iff.rfl

/-- The blocks tile the array: row r lies in block r / 1000, and every point writes its block back. -/
theorem covered1 (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ : ∃ t : Fin cfg1.N, t.val = (i 0).val / 1000 :=
    ⟨⟨(i 0).val / 1000, by have := N_1; show _ < grid1.N; omega⟩, rfl⟩
  obtain ⟨-, -, -, -, e20, e21⟩ := idx_facts1 t
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 256 ≤ (i 1).val ∧ (i 1).val < win1_2.index t (1 : Fin 2) * 256 + 256; omega

/-- The result array after the region: the rectified sum of the operand and the bias row as the region finds them. -/
theorem rows1_eq (c : Dev nD) :
    (data1 (F := Ideal) V c).arrAt 2 cfg1.N = rows1 (V c main_v46) (V c main_v47) :=
  (data1 (F := Ideal) V c).arrAt_eq_of_cover 2 (rows1 (V c main_v46) (V c main_v47)) (fun t _ => flushed1_eq V c t) covered1

end Cert.KernelIdeal.Frame

end
-- ==== Proof.IdealValues.Left2.lean ====
/-
  What region 2 leaves in its result array, as one function of the arrays the region finds.

  The region runs a grid of 100 points over a [100000, 256] first operand, a [256, 128] second operand, a [1, 128] bias
  row and a [100000, 128] result. Point t holds rows 1000·t … 1000·t + 999 of the first operand and of the result (block
  index t on the row axis, 0 on the column axis) and the whole of the second operand and of the bias row (block index 0
  on both axes). The body multiplies its [1000, 256] block by the second operand into a zero accumulator — on the extended
  reals the narrowing to bf16 is the identity and the product is the plain sum over the 256 contracted entries — and adds
  the bias row to every row, so what point t writes back is block t of the layer
  (r, g) ↦ Σₖ A (r, k) · W (k, g) + b (0, g)  of the whole arrays: entry (ρ, g) of the block sits at row 1000·t + ρ of
  the array, and reads row 1000·t + ρ of the first operand, column g of the second and column g of the bias row. Row r
  of the result lies in block r / 1000, and 1000 · 100 = 100000, so the 100 blocks tile the array and the array ends
  holding the layer everywhere.
-/
import proofs.«150991_j71700184039837_1_alg».proof.Proof.IdealRegions.Region2
import proofs.«150991_j71700184039837_1_alg».proof.Proof.LibDenseLayers
import proofs.«150991_j71700184039837_1_alg».proof.Proof.LibBlockLayout
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of the whole-buffer rectangle, spelt as a vector, are all zero. -/
theorem zeros2_2 : (![0, 0] : Fin 2 → Nat) = fun _ => 0 := funext fun a => by fin_cases a <;> rfl

/-- The layer x · W + b of the whole arrays: entry (r, g) is Σₖ A (r, k) · W (k, g) + b (0, g). -/
abbrev rows2 (A : S100000x256.Idx → EReal) (W : S256x128.Idx → EReal) (b : S1x128.Idx → EReal) : S100000x128.Idx → EReal :=
  Cert.SageLayers.affLayer (R := 100000) (K := 256) (N := 128) A W b

/-- The layer read at an entry. -/
theorem rows2_at (A : S100000x256.Idx → EReal) (W : S256x128.Idx → EReal) (b : S1x128.Idx → EReal) (i : S100000x128.Idx) :
    rows2 A W b i = Cert.SageLayers.affineAt (R := 100000) (K := 256) (N := 128) A W b (i 0) (i 1) := rfl

/-- Two layer entries agree when the rows of the first operands, the columns of the second and the bias entries they
    read agree. -/
theorem affineAt_of_eq_2 {R R' K N : ℕ}
    (A' : (⟨2, ![R', K]⟩ : Shape).Idx → EReal) (W' : (⟨2, ![K, N]⟩ : Shape).Idx → EReal) (b' : (⟨2, ![1, N]⟩ : Shape).Idx → EReal)
    (A : (⟨2, ![R, K]⟩ : Shape).Idx → EReal) (W : (⟨2, ![K, N]⟩ : Shape).Idx → EReal) (b : (⟨2, ![1, N]⟩ : Shape).Idx → EReal)
    (r' : Fin R') (g' : Fin N) (r : Fin R) (g : Fin N)
    (hA : ∀ k : Fin K, A' (ix2 r' k) = A (ix2 r k)) (hW : ∀ k : Fin K, W' (ix2 k g') = W (ix2 k g))
    (hb : b' (ix2 (0 : Fin 1) g') = b (ix2 (0 : Fin 1) g)) :
    Cert.SageLayers.affineAt A' W' b' r' g' = Cert.SageLayers.affineAt A W b r g := by
  unfold Cert.SageLayers.affineAt
  rw [hb]
  exact congrArg (· + b (ix2 (0 : Fin 1) g)) (Finset.sum_congr rfl fun k _ => by rw [hA k, hW k])

/-- The body's arithmetic read at an entry of the block: row (y 0) of the first block against column (y 1) of the
    second, summed over the 256 contracted entries, plus the bias row's entry in that column. -/
theorem pay2_at (x0 : Vec Ideal S1000x256 .f32) (x1 : Vec Ideal S256x128 .f32) (x2 : Vec Ideal S1x128 .f32) (y : S1000x128.Idx) :
    k2_pay1 x0 x1 x2 y = Cert.SageLayers.affineAt (R := 1000) (K := 256) (N := 128) x0 x1 x2 (y 0) (y 1) := by
  obtain ⟨r, g, rfl⟩ : ∃ (r : Fin 1000) (g : Fin 128), y = ix2 r g := ⟨y 0, y 1, eq_ix2 y⟩
  show addf (F := Idealize.ShloMosaic.Ideal) (matmul dot_S1000x256_S256x128_S1000x128_1_0_0_1_n_n none
        (truncf .bf16 (shapeCast S1000x256 x0 shapeCasts_S1000x256_S1000x256) bitsLt_bf16_f32) (truncf .bf16 x1 bitsLt_bf16_f32)
        (constant S1000x128 .f32 0x00000000#32))
      (broadcastTo S1000x128 (shapeCast S1x128 x2 shapeCasts_S1x128_S1x128) broadcasts_S1x128_S1000x128) (ix2 r g) = _
  rw [shapeCast_self x0]
  exact Cert.SageLayers.kernel_affine_at (R := 1000) (K := 256) (N := 128) x0 x1 x2 bitsLt_bf16_f32 bitsLt_bf16_f32
    shapeCasts_S1x128_S1x128 broadcasts_S1x128_S1000x128 r g

/-- The index maps, decided over the 100 grid points: point t takes row block t of the first operand and of the
    result, and the one block of the second operand and of the bias row. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t (rows 1000·t … 1000·t + 999) of the layer of the arrays as the region
    finds them. -/
theorem flushed2_eq (c : Dev nD) (t : Fin cfg2.N) :
    (data2 (F := Ideal) V c).flushed 3 t
      = ((cfg2.win 3).blk t).view.read (Elt Ideal) (rows2 (V c main_v48) (V c main_arg3) (V c main_v50)) := by
  show (cfg2.win 3).cut (grid2.coords t) ((data2 V c).after 3 t) = _
  rw [data2_after3]
  unfold stored2
  rw [View.canon_unit_zero zeros2_2]
  simp only [View.ld_unit_zero (S := S1000x256) zeros2_2, View.ld_unit_zero (S := S256x128) zeros2_2,
    View.ld_unit_zero (S := S1x128) zeros2_2]
  funext j
  refine (pay2_at (blk2 V c 0 t) (blk2 V c 1 t) (blk2 V c 2 t) j).trans ?_
  obtain ⟨e00, e01, e10, e11, e20, e21, e30, e31⟩ := idx_facts2 t
  have hA : ∀ k : Fin 256, (((cfg2.win 0).blk t).view.emb (ix2 (j 0) k) : S100000x256.Idx)
      = ix2 ((((cfg2.win 3).blk t).view.emb j : S100000x128.Idx) 0) k := fun k => by
    funext a; apply Fin.ext
    match a with
    | ⟨0, _⟩ => show win2_0.index t (0 : Fin 2) * 1000 + 1 * (j 0).val = win2_3.index t (0 : Fin 2) * 1000 + 1 * (j 0).val; omega
    | ⟨1, _⟩ => show win2_0.index t (1 : Fin 2) * 256 + 1 * k.val = k.val; omega
  have hW : ∀ k : Fin 256, (((cfg2.win 1).blk t).view.emb (ix2 k (j 1)) : S256x128.Idx)
      = ix2 k ((((cfg2.win 3).blk t).view.emb j : S100000x128.Idx) 1) := fun k => by
    funext a; apply Fin.ext
    match a with
    | ⟨0, _⟩ => show win2_1.index t (0 : Fin 2) * 256 + 1 * k.val = k.val; omega
    | ⟨1, _⟩ => show win2_1.index t (1 : Fin 2) * 128 + 1 * (j 1).val = win2_3.index t (1 : Fin 2) * 128 + 1 * (j 1).val; omega
  have hb : (((cfg2.win 2).blk t).view.emb (ix2 (0 : Fin 1) (j 1)) : S1x128.Idx)
      = ix2 (0 : Fin 1) ((((cfg2.win 3).blk t).view.emb j : S100000x128.Idx) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  exact affineAt_of_eq_2 (R := 100000) (R' := 1000) (K := 256) (N := 128) _ _ _ (V c main_v48) (V c main_arg3) (V c main_v50) (j 0) (j 1)
    ((((cfg2.win 3).blk t).view.emb j : S100000x128.Idx) 0) ((((cfg2.win 3).blk t).view.emb j : S100000x128.Idx) 1)
    (fun k => congrArg (V c main_v48) (hA k)) (fun k => congrArg (V c main_arg3) (hW k)) (congrArg (V c main_v50) hb)

/-- An entry of the result array lies in point t's block iff each coordinate lies in the block's range on its axis. -/
theorem mem_blk2 (t : Fin cfg2.N) (i : S100000x128.Idx) :
    i ∈ ((cfg2.win 3).blk t).view.set ↔ ∀ a : Fin 2, win2_3.index t a * S1000x128.size a ≤ (i a).val ∧ (i a).val < win2_3.index t a * S1000x128.size a + S1000x128.size a := by
  show i ∈ ((View.whole main_v51).slice (win2_3.rect t)).set ↔ _
  rw [View.set_slice_whole, Rect.mem_set_unit]
  exact Iff.rfl

/-- The blocks tile the array: row r lies in block r / 1000, and every point writes its block back. -/
theorem covered2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 1000 :=
    ⟨⟨(i 0).val / 1000, by have := N_2; show _ < grid2.N; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 128 ≤ (i 1).val ∧ (i 1).val < win2_3.index t (1 : Fin 2) * 128 + 128; omega

/-- The result array after the region: the layer x · W + b of the operands and the bias row as the region finds them. -/
theorem rows2_eq (c : Dev nD) :
    (data2 (F := Ideal) V c).arrAt 3 cfg2.N = rows2 (V c main_v48) (V c main_arg3) (V c main_v50) :=
  (data2 (F := Ideal) V c).arrAt_eq_of_cover 3 (rows2 (V c main_v48) (V c main_arg3) (V c main_v50)) (fun t _ => flushed2_eq V c t) covered2

end Cert.KernelIdeal.Frame

end
-- ==== Proof.IdealValues.Left3.lean ====
/-
  What region 3 leaves in its result array, as one function of the arrays the region finds.

  The region runs a grid of 100 points over a [100000, 128] operand, a [1, 128] bias row and a [100000, 128] result.
  Point t holds rows 1000·t … 1000·t + 999 of the operand and of the result (block index t on the row axis, 0 on the
  column axis, a block being [1000, 128]) and the whole bias row (block index 0 on both axes). The body adds the bias
  row to every row of its block and takes the maximum with zero, so what point t writes back is block t of the
  rectified sum  (r, g) ↦ max (A (r, g) + b (0, g), 0)  of the whole arrays: an entry (ρ, g) of the block sits at row
  1000·t + ρ of the array, in both the operand and the result, and in column g of the bias row. Row r of the result
  lies in block r / 1000, and 1000 · 100 = 100000, so the 100 blocks tile the array and the array ends holding the
  rectified sum everywhere.
-/
import proofs.«150991_j71700184039837_1_alg».proof.Proof.IdealRegions.Region3
import proofs.«150991_j71700184039837_1_alg».proof.Proof.LibDenseLayers
import proofs.«150991_j71700184039837_1_alg».proof.Proof.LibBlockLayout
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of the whole-buffer rectangle, spelt as a vector, are all zero. -/
theorem zeros2_3 : (![0, 0] : Fin 2 → Nat) = fun _ => 0 := funext fun a => by fin_cases a <;> rfl

/-- The rectified sum of an array and a bias row: entry (r, g) is max (A (r, g) + b (0, g), 0). -/
def rows3 (A : S100000x128.Idx → EReal) (b : S1x128.Idx → EReal) : S100000x128.Idx → EReal :=
  fun i => max (A i + b (ix2 (0 : Fin 1) (i 1))) Cert.SageLayers.zeroF

/-- The rectified sum read at an entry. -/
theorem rows3_at (A : S100000x128.Idx → EReal) (b : S1x128.Idx → EReal) (i : S100000x128.Idx) :
    rows3 A b i = max (A i + b (ix2 (0 : Fin 1) (i 1))) Cert.SageLayers.zeroF := rfl

/-- Two values that are the operand's entry and the bias row's entry in the same column rectify to the rectified
    sum's entry. -/
theorem rows3_of_eq (A : S100000x128.Idx → EReal) (b : S1x128.Idx → EReal) (x y : EReal) (i : S100000x128.Idx)
    (hx : x = A i) (hy : y = b (ix2 (0 : Fin 1) (i 1))) : max (x + y) Cert.SageLayers.zeroF = rows3 A b i := by
  subst hx hy; rfl

/-- The body's arithmetic read at an entry of the block: the block's entry plus the bias row's entry in the same
    column, then the maximum with zero. -/
theorem pay3_at (x0 : Vec Ideal S1000x128 .f32) (x1 : Vec Ideal S1x128 .f32) (y : S1000x128.Idx) :
    k3_pay1 x0 x1 y = max (x0 y + x1 (ix2 (0 : Fin 1) (y 1))) Cert.SageLayers.zeroF := by
  obtain ⟨r, g, rfl⟩ : ∃ (r : Fin 1000) (g : Fin 128), y = ix2 r g := ⟨y 0, y 1, eq_ix2 y⟩
  show maximumf (F := Idealize.ShloMosaic.Ideal) (addf (shapeCast S1000x128 x0 shapeCasts_S1000x128_S1000x128)
      (broadcastTo S1000x128 (shapeCast S1x128 x1 shapeCasts_S1x128_S1x128) broadcasts_S1x128_S1000x128))
      (broadcast S1000x128 (Scalar.ofBits .f32 0x00000000#32)) (ix2 r g) = _
  rw [maximumf_apply, addf_apply, shapeCast_self, shapeCast_self, broadcast_apply, Cert.LibBlockLayout.rowBroadcast_at]
  rfl

/-- The index maps, decided over the 100 grid points: point t takes row block t of the operand and of the result,
    and the one block of the bias row. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t (rows 1000·t … 1000·t + 999) of the rectified sum of the arrays as the
    region finds them. -/
theorem flushed3_eq (c : Dev nD) (t : Fin cfg3.N) :
    (data3 (F := Ideal) V c).flushed 2 t
      = ((cfg3.win 2).blk t).view.read (Elt Ideal) (rows3 (V c main_v91) (V c main_v92)) := by
  show (cfg3.win 2).cut (grid3.coords t) ((data3 V c).after 2 t) = _
  rw [data3_after2]
  unfold stored3
  rw [View.canon_unit_zero zeros2_3]
  simp only [View.ld_unit_zero (S := S1000x128) zeros2_3, View.ld_unit_zero (S := S1x128) zeros2_3]
  funext j
  refine (pay3_at (blk3 V c 0 t) (blk3 V c 1 t) j).trans ?_
  obtain ⟨e00, e01, e10, e11, e20, e21⟩ := idx_facts3 t
  have h0 : (((cfg3.win 0).blk t).view.emb j : S100000x128.Idx) = ((cfg3.win 2).blk t).view.emb j := by
    funext a; apply Fin.ext
    match a with
    | ⟨0, _⟩ => show win3_0.index t (0 : Fin 2) * 1000 + 1 * (j 0).val = win3_2.index t (0 : Fin 2) * 1000 + 1 * (j 0).val; omega
    | ⟨1, _⟩ => show win3_0.index t (1 : Fin 2) * 128 + 1 * (j 1).val = win3_2.index t (1 : Fin 2) * 128 + 1 * (j 1).val; omega
  have h1 : (((cfg3.win 1).blk t).view.emb (ix2 (0 : Fin 1) (j 1)) : S1x128.Idx)
      = ix2 (0 : Fin 1) ((((cfg3.win 2).blk t).view.emb j : S100000x128.Idx) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  exact rows3_of_eq (V c main_v91) (V c main_v92) _ _ (((cfg3.win 2).blk t).view.emb j)
    (congrArg (V c main_v91) h0) (congrArg (V c main_v92) h1)

/-- An entry of the result array lies in point t's block iff each coordinate lies in the block's range on its axis. -/
theorem mem_blk3 (t : Fin cfg3.N) (i : S100000x128.Idx) :
    i ∈ ((cfg3.win 2).blk t).view.set ↔ ∀ a : Fin 2, win3_2.index t a * S1000x128.size a ≤ (i a).val ∧ (i a).val < win3_2.index t a * S1000x128.size a + S1000x128.size a := by
  show i ∈ ((View.whole main_v93).slice (win3_2.rect t)).set ↔ _
  rw [View.set_slice_whole, Rect.mem_set_unit]
  exact Iff.rfl

/-- The blocks tile the array: row r lies in block r / 1000, and every point writes its block back. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 1000 :=
    ⟨⟨(i 0).val / 1000, by have := N_3; show _ < grid3.N; omega⟩, rfl⟩
  obtain ⟨-, -, -, -, e20, e21⟩ := idx_facts3 t
  refine ⟨t, flush3_2 t, ?_⟩
  rw [mem_blk3]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 128 ≤ (i 1).val ∧ (i 1).val < win3_2.index t (1 : Fin 2) * 128 + 128; omega

/-- The result array after the region: the rectified sum of the operand and the bias row as the region finds them. -/
theorem rows3_eq (c : Dev nD) :
    (data3 (F := Ideal) V c).arrAt 2 cfg3.N = rows3 (V c main_v91) (V c main_v92) :=
  (data3 (F := Ideal) V c).arrAt_eq_of_cover 2 (rows3 (V c main_v91) (V c main_v92)) (fun t _ => flushed3_eq V c t) covered3

end Cert.KernelIdeal.Frame

end
-- ==== Proof.IdealValues.Left4.lean ====
/-
  What region 4 leaves in its result array, as one function of the arrays the region finds.

  The region runs a grid of 100 points over a [100000, 128] first operand, a [128, 128] second operand, a [1, 128] bias
  row and a [100000, 128] result. Point t holds rows 1000·t … 1000·t + 999 of the first operand and of the result (block
  index t on the row axis, 0 on the column axis) and the whole of the second operand and of the bias row (block index 0
  on both axes). The body multiplies its [1000, 128] block by the second operand into a zero accumulator — on the extended
  reals the narrowing to bf16 is the identity and the product is the plain sum over the 128 contracted entries — and adds
  the bias row to every row, so what point t writes back is block t of the layer
  (r, g) ↦ Σₖ A (r, k) · W (k, g) + b (0, g)  of the whole arrays: entry (ρ, g) of the block sits at row 1000·t + ρ of
  the array, and reads row 1000·t + ρ of the first operand, column g of the second and column g of the bias row. Row r
  of the result lies in block r / 1000, and 1000 · 100 = 100000, so the 100 blocks tile the array and the array ends
  holding the layer everywhere.
-/
import proofs.«150991_j71700184039837_1_alg».proof.Proof.IdealRegions.Region4
import proofs.«150991_j71700184039837_1_alg».proof.Proof.LibDenseLayers
import proofs.«150991_j71700184039837_1_alg».proof.Proof.LibBlockLayout
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of the whole-buffer rectangle, spelt as a vector, are all zero. -/
theorem zeros2_4 : (![0, 0] : Fin 2 → Nat) = fun _ => 0 := funext fun a => by fin_cases a <;> rfl

/-- The layer x · W + b of the whole arrays: entry (r, g) is Σₖ A (r, k) · W (k, g) + b (0, g). -/
abbrev rows4 (A : S100000x128.Idx → EReal) (W : S128x128.Idx → EReal) (b : S1x128.Idx → EReal) : S100000x128.Idx → EReal :=
  Cert.SageLayers.affLayer (R := 100000) (K := 128) (N := 128) A W b

/-- The layer read at an entry. -/
theorem rows4_at (A : S100000x128.Idx → EReal) (W : S128x128.Idx → EReal) (b : S1x128.Idx → EReal) (i : S100000x128.Idx) :
    rows4 A W b i = Cert.SageLayers.affineAt (R := 100000) (K := 128) (N := 128) A W b (i 0) (i 1) := rfl

/-- Two layer entries agree when the rows of the first operands, the columns of the second and the bias entries they
    read agree. -/
theorem affineAt_of_eq_4 {R R' K N : ℕ}
    (A' : (⟨2, ![R', K]⟩ : Shape).Idx → EReal) (W' : (⟨2, ![K, N]⟩ : Shape).Idx → EReal) (b' : (⟨2, ![1, N]⟩ : Shape).Idx → EReal)
    (A : (⟨2, ![R, K]⟩ : Shape).Idx → EReal) (W : (⟨2, ![K, N]⟩ : Shape).Idx → EReal) (b : (⟨2, ![1, N]⟩ : Shape).Idx → EReal)
    (r' : Fin R') (g' : Fin N) (r : Fin R) (g : Fin N)
    (hA : ∀ k : Fin K, A' (ix2 r' k) = A (ix2 r k)) (hW : ∀ k : Fin K, W' (ix2 k g') = W (ix2 k g))
    (hb : b' (ix2 (0 : Fin 1) g') = b (ix2 (0 : Fin 1) g)) :
    Cert.SageLayers.affineAt A' W' b' r' g' = Cert.SageLayers.affineAt A W b r g := by
  unfold Cert.SageLayers.affineAt
  rw [hb]
  exact congrArg (· + b (ix2 (0 : Fin 1) g)) (Finset.sum_congr rfl fun k _ => by rw [hA k, hW k])

/-- The body's arithmetic read at an entry of the block: row (y 0) of the first block against column (y 1) of the
    second, summed over the 128 contracted entries, plus the bias row's entry in that column. -/
theorem pay4_at (x0 : Vec Ideal S1000x128 .f32) (x1 : Vec Ideal S128x128 .f32) (x2 : Vec Ideal S1x128 .f32) (y : S1000x128.Idx) :
    k4_pay1 x0 x1 x2 y = Cert.SageLayers.affineAt (R := 1000) (K := 128) (N := 128) x0 x1 x2 (y 0) (y 1) := by
  obtain ⟨r, g, rfl⟩ : ∃ (r : Fin 1000) (g : Fin 128), y = ix2 r g := ⟨y 0, y 1, eq_ix2 y⟩
  show addf (F := Idealize.ShloMosaic.Ideal) (matmul dot_S1000x128_S128x128_S1000x128_1_0_0_1_n_n none
        (truncf .bf16 (shapeCast S1000x128 x0 shapeCasts_S1000x128_S1000x128) bitsLt_bf16_f32) (truncf .bf16 x1 bitsLt_bf16_f32)
        (constant S1000x128 .f32 0x00000000#32))
      (broadcastTo S1000x128 (shapeCast S1x128 x2 shapeCasts_S1x128_S1x128) broadcasts_S1x128_S1000x128) (ix2 r g) = _
  rw [shapeCast_self x0]
  exact Cert.SageLayers.kernel_affine_at (R := 1000) (K := 128) (N := 128) x0 x1 x2 bitsLt_bf16_f32 bitsLt_bf16_f32
    shapeCasts_S1x128_S1x128 broadcasts_S1x128_S1000x128 r g

/-- The index maps, decided over the 100 grid points: point t takes row block t of the first operand and of the
    result, and the one block of the second operand and of the bias row. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t (rows 1000·t … 1000·t + 999) of the layer of the arrays as the region
    finds them. -/
theorem flushed4_eq (c : Dev nD) (t : Fin cfg4.N) :
    (data4 (F := Ideal) V c).flushed 3 t
      = ((cfg4.win 3).blk t).view.read (Elt Ideal) (rows4 (V c main_v93) (V c main_arg5) (V c main_v95)) := by
  show (cfg4.win 3).cut (grid4.coords t) ((data4 V c).after 3 t) = _
  rw [data4_after3]
  unfold stored4
  rw [View.canon_unit_zero zeros2_4]
  simp only [View.ld_unit_zero (S := S1000x128) zeros2_4, View.ld_unit_zero (S := S128x128) zeros2_4,
    View.ld_unit_zero (S := S1x128) zeros2_4]
  funext j
  refine (pay4_at (blk4 V c 0 t) (blk4 V c 1 t) (blk4 V c 2 t) j).trans ?_
  obtain ⟨e00, e01, e10, e11, e20, e21, e30, e31⟩ := idx_facts4 t
  have hA : ∀ k : Fin 128, (((cfg4.win 0).blk t).view.emb (ix2 (j 0) k) : S100000x128.Idx)
      = ix2 ((((cfg4.win 3).blk t).view.emb j : S100000x128.Idx) 0) k := fun k => by
    funext a; apply Fin.ext
    match a with
    | ⟨0, _⟩ => show win4_0.index t (0 : Fin 2) * 1000 + 1 * (j 0).val = win4_3.index t (0 : Fin 2) * 1000 + 1 * (j 0).val; omega
    | ⟨1, _⟩ => show win4_0.index t (1 : Fin 2) * 128 + 1 * k.val = k.val; omega
  have hW : ∀ k : Fin 128, (((cfg4.win 1).blk t).view.emb (ix2 k (j 1)) : S128x128.Idx)
      = ix2 k ((((cfg4.win 3).blk t).view.emb j : S100000x128.Idx) 1) := fun k => by
    funext a; apply Fin.ext
    match a with
    | ⟨0, _⟩ => show win4_1.index t (0 : Fin 2) * 128 + 1 * k.val = k.val; omega
    | ⟨1, _⟩ => show win4_1.index t (1 : Fin 2) * 128 + 1 * (j 1).val = win4_3.index t (1 : Fin 2) * 128 + 1 * (j 1).val; omega
  have hb : (((cfg4.win 2).blk t).view.emb (ix2 (0 : Fin 1) (j 1)) : S1x128.Idx)
      = ix2 (0 : Fin 1) ((((cfg4.win 3).blk t).view.emb j : S100000x128.Idx) 1) := by
    funext a; apply Fin.ext
    match a with
    | ⟨0, _⟩ => show win4_2.index t (0 : Fin 2) * 1 + 1 * 0 = 0; omega
    | ⟨1, _⟩ => show win4_2.index t (1 : Fin 2) * 128 + 1 * (j 1).val = win4_3.index t (1 : Fin 2) * 128 + 1 * (j 1).val; omega
  exact affineAt_of_eq_4 (R := 100000) (R' := 1000) (K := 128) (N := 128) _ _ _ (V c main_v93) (V c main_arg5) (V c main_v95) (j 0) (j 1)
    ((((cfg4.win 3).blk t).view.emb j : S100000x128.Idx) 0) ((((cfg4.win 3).blk t).view.emb j : S100000x128.Idx) 1)
    (fun k => congrArg (V c main_v93) (hA k)) (fun k => congrArg (V c main_arg5) (hW k)) (congrArg (V c main_v95) hb)

/-- An entry of the result array lies in point t's block iff each coordinate lies in the block's range on its axis. -/
theorem mem_blk4 (t : Fin cfg4.N) (i : S100000x128.Idx) :
    i ∈ ((cfg4.win 3).blk t).view.set ↔ ∀ a : Fin 2, win4_3.index t a * S1000x128.size a ≤ (i a).val ∧ (i a).val < win4_3.index t a * S1000x128.size a + S1000x128.size a := by
  show i ∈ ((View.whole main_v96).slice (win4_3.rect t)).set ↔ _
  rw [View.set_slice_whole, Rect.mem_set_unit]
  exact Iff.rfl

/-- The blocks tile the array: row r lies in block r / 1000, and every point writes its block back. -/
theorem covered4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ : ∃ t : Fin cfg4.N, t.val = (i 0).val / 1000 :=
    ⟨⟨(i 0).val / 1000, by have := N_4; show _ < grid4.N; omega⟩, rfl⟩
  obtain ⟨-, -, -, -, -, -, e30, e31⟩ := idx_facts4 t
  refine ⟨t, flush4_3 t, ?_⟩
  rw [mem_blk4]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 128 ≤ (i 1).val ∧ (i 1).val < win4_3.index t (1 : Fin 2) * 128 + 128; omega

/-- The result array after the region: the layer x · W + b of the operands and the bias row as the region finds them. -/
theorem rows4_eq (c : Dev nD) :
    (data4 (F := Ideal) V c).arrAt 3 cfg4.N = rows4 (V c main_v93) (V c main_arg5) (V c main_v95) :=
  (data4 (F := Ideal) V c).arrAt_eq_of_cover 3 (rows4 (V c main_v93) (V c main_arg5) (V c main_v95)) (fun t _ => flushed4_eq V c t) covered4

end Cert.KernelIdeal.Frame

end
-- ==== Proof.IdealValues.Left5.lean ====
/-
  What region 5 leaves in its result array, as one function of the arrays the region finds.

  The region runs a grid of 100 points over a [100000, 128] operand, a [1, 128] bias row and a [100000, 128] result.
  Point t holds rows 1000·t … 1000·t + 999 of the operand and of the result (block index t on the row axis, 0 on the
  column axis, a block being [1000, 128]) and the whole bias row (block index 0 on both axes). The body adds the bias
  row to every row of its block and takes the maximum with zero, so what point t writes back is block t of the
  rectified sum  (r, g) ↦ max (A (r, g) + b (0, g), 0)  of the whole arrays: an entry (ρ, g) of the block sits at row
  1000·t + ρ of the array, in both the operand and the result, and in column g of the bias row. Row r of the result
  lies in block r / 1000, and 1000 · 100 = 100000, so the 100 blocks tile the array and the array ends holding the
  rectified sum everywhere.
-/
import proofs.«150991_j71700184039837_1_alg».proof.Proof.IdealRegions.Region5
import proofs.«150991_j71700184039837_1_alg».proof.Proof.LibDenseLayers
import proofs.«150991_j71700184039837_1_alg».proof.Proof.LibBlockLayout
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of the whole-buffer rectangle, spelt as a vector, are all zero. -/
theorem zeros2_5 : (![0, 0] : Fin 2 → Nat) = fun _ => 0 := funext fun a => by fin_cases a <;> rfl

/-- The rectified sum of an array and a bias row: entry (r, g) is max (A (r, g) + b (0, g), 0). -/
def rows5 (A : S100000x128.Idx → EReal) (b : S1x128.Idx → EReal) : S100000x128.Idx → EReal :=
  fun i => max (A i + b (ix2 (0 : Fin 1) (i 1))) Cert.SageLayers.zeroF

/-- The rectified sum read at an entry. -/
theorem rows5_at (A : S100000x128.Idx → EReal) (b : S1x128.Idx → EReal) (i : S100000x128.Idx) :
    rows5 A b i = max (A i + b (ix2 (0 : Fin 1) (i 1))) Cert.SageLayers.zeroF := rfl

/-- Two values that are the operand's entry and the bias row's entry in the same column rectify to the rectified
    sum's entry. -/
theorem rows5_of_eq (A : S100000x128.Idx → EReal) (b : S1x128.Idx → EReal) (x y : EReal) (i : S100000x128.Idx)
    (hx : x = A i) (hy : y = b (ix2 (0 : Fin 1) (i 1))) : max (x + y) Cert.SageLayers.zeroF = rows5 A b i := by
  subst hx hy; rfl

/-- The body's arithmetic read at an entry of the block: the block's entry plus the bias row's entry in the same
    column, then the maximum with zero. -/
theorem pay5_at (x0 : Vec Ideal S1000x128 .f32) (x1 : Vec Ideal S1x128 .f32) (y : S1000x128.Idx) :
    k5_pay1 x0 x1 y = max (x0 y + x1 (ix2 (0 : Fin 1) (y 1))) Cert.SageLayers.zeroF := by
  obtain ⟨r, g, rfl⟩ : ∃ (r : Fin 1000) (g : Fin 128), y = ix2 r g := ⟨y 0, y 1, eq_ix2 y⟩
  show maximumf (F := Idealize.ShloMosaic.Ideal) (addf (shapeCast S1000x128 x0 shapeCasts_S1000x128_S1000x128)
      (broadcastTo S1000x128 (shapeCast S1x128 x1 shapeCasts_S1x128_S1x128) broadcasts_S1x128_S1000x128))
      (broadcast S1000x128 (Scalar.ofBits .f32 0x00000000#32)) (ix2 r g) = _
  rw [maximumf_apply, addf_apply, shapeCast_self, shapeCast_self, broadcast_apply, Cert.LibBlockLayout.rowBroadcast_at]
  rfl

/-- The index maps, decided over the 100 grid points: point t takes row block t of the operand and of the result,
    and the one block of the bias row. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t (rows 1000·t … 1000·t + 999) of the rectified sum of the arrays as the
    region finds them. -/
theorem flushed5_eq (c : Dev nD) (t : Fin cfg5.N) :
    (data5 (F := Ideal) V c).flushed 2 t
      = ((cfg5.win 2).blk t).view.read (Elt Ideal) (rows5 (V c main_v136) (V c main_v137)) := by
  show (cfg5.win 2).cut (grid5.coords t) ((data5 V c).after 2 t) = _
  rw [data5_after2]
  unfold stored5
  rw [View.canon_unit_zero zeros2_5]
  simp only [View.ld_unit_zero (S := S1000x128) zeros2_5, View.ld_unit_zero (S := S1x128) zeros2_5]
  funext j
  refine (pay5_at (blk5 V c 0 t) (blk5 V c 1 t) j).trans ?_
  obtain ⟨e00, e01, e10, e11, e20, e21⟩ := idx_facts5 t
  have h0 : (((cfg5.win 0).blk t).view.emb j : S100000x128.Idx) = ((cfg5.win 2).blk t).view.emb j := by
    funext a; apply Fin.ext
    match a with
    | ⟨0, _⟩ => show win5_0.index t (0 : Fin 2) * 1000 + 1 * (j 0).val = win5_2.index t (0 : Fin 2) * 1000 + 1 * (j 0).val; omega
    | ⟨1, _⟩ => show win5_0.index t (1 : Fin 2) * 128 + 1 * (j 1).val = win5_2.index t (1 : Fin 2) * 128 + 1 * (j 1).val; omega
  have h1 : (((cfg5.win 1).blk t).view.emb (ix2 (0 : Fin 1) (j 1)) : S1x128.Idx)
      = ix2 (0 : Fin 1) ((((cfg5.win 2).blk t).view.emb j : S100000x128.Idx) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  exact rows5_of_eq (V c main_v136) (V c main_v137) _ _ (((cfg5.win 2).blk t).view.emb j)
    (congrArg (V c main_v136) h0) (congrArg (V c main_v137) h1)

/-- An entry of the result array lies in point t's block iff each coordinate lies in the block's range on its axis. -/
theorem mem_blk5 (t : Fin cfg5.N) (i : S100000x128.Idx) :
    i ∈ ((cfg5.win 2).blk t).view.set ↔ ∀ a : Fin 2, win5_2.index t a * S1000x128.size a ≤ (i a).val ∧ (i a).val < win5_2.index t a * S1000x128.size a + S1000x128.size a := by
  show i ∈ ((View.whole main_v138).slice (win5_2.rect t)).set ↔ _
  rw [View.set_slice_whole, Rect.mem_set_unit]
  exact Iff.rfl

/-- The blocks tile the array: row r lies in block r / 1000, and every point writes its block back. -/
theorem covered5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 1000 :=
    ⟨⟨(i 0).val / 1000, by have := N_5; show _ < grid5.N; omega⟩, rfl⟩
  obtain ⟨-, -, -, -, e20, e21⟩ := idx_facts5 t
  refine ⟨t, flush5_2 t, ?_⟩
  rw [mem_blk5]
  intro a
  match a with
  | ⟨0, _⟩ => show win5_2.index t (0 : Fin 2) * 1000 ≤ (i 0).val ∧ (i 0).val < win5_2.index t (0 : Fin 2) * 1000 + 1000; omega
  | ⟨1, _⟩ => show win5_2.index t (1 : Fin 2) * 128 ≤ (i 1).val ∧ (i 1).val < win5_2.index t (1 : Fin 2) * 128 + 128; omega

/-- The result array after the region: the rectified sum of the operand and the bias row as the region finds them. -/
theorem rows5_eq (c : Dev nD) :
    (data5 (F := Ideal) V c).arrAt 2 cfg5.N = rows5 (V c main_v136) (V c main_v137) :=
  (data5 (F := Ideal) V c).arrAt_eq_of_cover 2 (rows5 (V c main_v136) (V c main_v137)) (fun t _ => flushed5_eq V c t) covered5

end Cert.KernelIdeal.Frame

end
-- ==== Proof.IdealValues.Left6.lean ====
/-
  What region 6 leaves in its result array, as one function of the arrays the region finds.

  The region runs a grid of 100 points over a [100000, 512] first operand, a [512, 512] second operand, a [1, 512] bias
  row and a [100000, 512] result. Point t holds rows 1000·t … 1000·t + 999 of the first operand and of the result (block
  index t on the row axis, 0 on the column axis) and the whole of the second operand and of the bias row (block index 0
  on both axes). The body multiplies its [1000, 512] block by the second operand into a zero accumulator — on the extended
  reals the narrowing to bf16 is the identity and the product is the plain sum over the 512 contracted entries — and adds
  the bias row to every row, so what point t writes back is block t of the layer
  (r, g) ↦ Σₖ A (r, k) · W (k, g) + b (0, g)  of the whole arrays: entry (ρ, g) of the block sits at row 1000·t + ρ of
  the array, and reads row 1000·t + ρ of the first operand, column g of the second and column g of the bias row. Row r
  of the result lies in block r / 1000, and 1000 · 100 = 100000, so the 100 blocks tile the array and the array ends
  holding the layer everywhere.
-/
import proofs.«150991_j71700184039837_1_alg».proof.Proof.IdealRegions.Region6
import proofs.«150991_j71700184039837_1_alg».proof.Proof.LibDenseLayers
import proofs.«150991_j71700184039837_1_alg».proof.Proof.LibBlockLayout
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of the whole-buffer rectangle, spelt as a vector, are all zero. -/
theorem zeros2_6 : (![0, 0] : Fin 2 → Nat) = fun _ => 0 := funext fun a => by fin_cases a <;> rfl

/-- The layer x · W + b of the whole arrays: entry (r, g) is Σₖ A (r, k) · W (k, g) + b (0, g). -/
abbrev rows6 (A : S100000x512.Idx → EReal) (W : S512x512.Idx → EReal) (b : S1x512.Idx → EReal) : S100000x512.Idx → EReal :=
  Cert.SageLayers.affLayer (R := 100000) (K := 512) (N := 512) A W b

/-- The layer read at an entry. -/
theorem rows6_at (A : S100000x512.Idx → EReal) (W : S512x512.Idx → EReal) (b : S1x512.Idx → EReal) (i : S100000x512.Idx) :
    rows6 A W b i = Cert.SageLayers.affineAt (R := 100000) (K := 512) (N := 512) A W b (i 0) (i 1) := rfl

/-- Two layer entries agree when the rows of the first operands, the columns of the second and the bias entries they
    read agree. -/
theorem affineAt_of_eq_6 {R R' K N : ℕ}
    (A' : (⟨2, ![R', K]⟩ : Shape).Idx → EReal) (W' : (⟨2, ![K, N]⟩ : Shape).Idx → EReal) (b' : (⟨2, ![1, N]⟩ : Shape).Idx → EReal)
    (A : (⟨2, ![R, K]⟩ : Shape).Idx → EReal) (W : (⟨2, ![K, N]⟩ : Shape).Idx → EReal) (b : (⟨2, ![1, N]⟩ : Shape).Idx → EReal)
    (r' : Fin R') (g' : Fin N) (r : Fin R) (g : Fin N)
    (hA : ∀ k : Fin K, A' (ix2 r' k) = A (ix2 r k)) (hW : ∀ k : Fin K, W' (ix2 k g') = W (ix2 k g))
    (hb : b' (ix2 (0 : Fin 1) g') = b (ix2 (0 : Fin 1) g)) :
    Cert.SageLayers.affineAt A' W' b' r' g' = Cert.SageLayers.affineAt A W b r g := by
  unfold Cert.SageLayers.affineAt
  rw [hb]
  exact congrArg (· + b (ix2 (0 : Fin 1) g)) (Finset.sum_congr rfl fun k _ => by rw [hA k, hW k])

/-- The body's arithmetic read at an entry of the block: row (y 0) of the first block against column (y 1) of the
    second, summed over the 512 contracted entries, plus the bias row's entry in that column. -/
theorem pay6_at (x0 : Vec Ideal S1000x512 .f32) (x1 : Vec Ideal S512x512 .f32) (x2 : Vec Ideal S1x512 .f32) (y : S1000x512.Idx) :
    k6_pay1 x0 x1 x2 y = Cert.SageLayers.affineAt (R := 1000) (K := 512) (N := 512) x0 x1 x2 (y 0) (y 1) := by
  obtain ⟨r, g, rfl⟩ : ∃ (r : Fin 1000) (g : Fin 512), y = ix2 r g := ⟨y 0, y 1, eq_ix2 y⟩
  show addf (F := Idealize.ShloMosaic.Ideal) (matmul dot_S1000x512_S512x512_S1000x512_1_0_0_1_n_n none
        (truncf .bf16 (shapeCast S1000x512 x0 shapeCasts_S1000x512_S1000x512) bitsLt_bf16_f32) (truncf .bf16 (shapeCast S512x512 x1 shapeCasts_S512x512_S512x512) bitsLt_bf16_f32)
        (constant S1000x512 .f32 0x00000000#32))
      (broadcastTo S1000x512 (shapeCast S1x512 x2 shapeCasts_S1x512_S1x512) broadcasts_S1x512_S1000x512) (ix2 r g) = _
  rw [shapeCast_self x0, shapeCast_self x1]
  exact Cert.SageLayers.kernel_affine_at (R := 1000) (K := 512) (N := 512) x0 x1 x2 bitsLt_bf16_f32 bitsLt_bf16_f32
    shapeCasts_S1x512_S1x512 broadcasts_S1x512_S1000x512 r g

/-- The index maps, decided over the 100 grid points: point t takes row block t of the first operand and of the
    result, and the one block of the second operand and of the bias row. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t (rows 1000·t … 1000·t + 999) of the layer of the arrays as the region
    finds them. -/
theorem flushed6_eq (c : Dev nD) (t : Fin cfg6.N) :
    (data6 (F := Ideal) V c).flushed 3 t
      = ((cfg6.win 3).blk t).view.read (Elt Ideal) (rows6 (V c main_v139) (V c main_v140) (V c main_v141)) := by
  show (cfg6.win 3).cut (grid6.coords t) ((data6 V c).after 3 t) = _
  rw [data6_after3]
  unfold stored6
  rw [View.canon_unit_zero zeros2_6]
  simp only [View.ld_unit_zero (S := S1000x512) zeros2_6, View.ld_unit_zero (S := S512x512) zeros2_6,
    View.ld_unit_zero (S := S1x512) zeros2_6]
  funext j
  refine (pay6_at (blk6 V c 0 t) (blk6 V c 1 t) (blk6 V c 2 t) j).trans ?_
  obtain ⟨e00, e01, e10, e11, e20, e21, e30, e31⟩ := idx_facts6 t
  have hA : ∀ k : Fin 512, (((cfg6.win 0).blk t).view.emb (ix2 (j 0) k) : S100000x512.Idx)
      = ix2 ((((cfg6.win 3).blk t).view.emb j : S100000x512.Idx) 0) k := fun k => by
    funext a; apply Fin.ext
    match a with
    | ⟨0, _⟩ => show win6_0.index t (0 : Fin 2) * 1000 + 1 * (j 0).val = win6_3.index t (0 : Fin 2) * 1000 + 1 * (j 0).val; omega
    | ⟨1, _⟩ => show win6_0.index t (1 : Fin 2) * 512 + 1 * k.val = k.val; omega
  have hW : ∀ k : Fin 512, (((cfg6.win 1).blk t).view.emb (ix2 k (j 1)) : S512x512.Idx)
      = ix2 k ((((cfg6.win 3).blk t).view.emb j : S100000x512.Idx) 1) := fun k => by
    funext a; apply Fin.ext
    match a with
    | ⟨0, _⟩ => show win6_1.index t (0 : Fin 2) * 512 + 1 * k.val = k.val; omega
    | ⟨1, _⟩ => show win6_1.index t (1 : Fin 2) * 512 + 1 * (j 1).val = win6_3.index t (1 : Fin 2) * 512 + 1 * (j 1).val; omega
  have hb : (((cfg6.win 2).blk t).view.emb (ix2 (0 : Fin 1) (j 1)) : S1x512.Idx)
      = ix2 (0 : Fin 1) ((((cfg6.win 3).blk t).view.emb j : S100000x512.Idx) 1) := by
    funext a; apply Fin.ext
    match a with
    | ⟨0, _⟩ => show win6_2.index t (0 : Fin 2) * 1 + 1 * 0 = 0; omega
    | ⟨1, _⟩ => show win6_2.index t (1 : Fin 2) * 512 + 1 * (j 1).val = win6_3.index t (1 : Fin 2) * 512 + 1 * (j 1).val; omega
  exact affineAt_of_eq_6 (R := 100000) (R' := 1000) (K := 512) (N := 512) _ _ _ (V c main_v139) (V c main_v140) (V c main_v141) (j 0) (j 1)
    ((((cfg6.win 3).blk t).view.emb j : S100000x512.Idx) 0) ((((cfg6.win 3).blk t).view.emb j : S100000x512.Idx) 1)
    (fun k => congrArg (V c main_v139) (hA k)) (fun k => congrArg (V c main_v140) (hW k)) (congrArg (V c main_v141) hb)

/-- An entry of the result array lies in point t's block iff each coordinate lies in the block's range on its axis. -/
theorem mem_blk6 (t : Fin cfg6.N) (i : S100000x512.Idx) :
    i ∈ ((cfg6.win 3).blk t).view.set ↔ ∀ a : Fin 2, win6_3.index t a * S1000x512.size a ≤ (i a).val ∧ (i a).val < win6_3.index t a * S1000x512.size a + S1000x512.size a := by
  show i ∈ ((View.whole main_v142).slice (win6_3.rect t)).set ↔ _
  rw [View.set_slice_whole, Rect.mem_set_unit]
  exact Iff.rfl

/-- The blocks tile the array: row r lies in block r / 1000, and every point writes its block back. -/
theorem covered6 (i : S100000x512.Idx) :
    ∃ t : Fin cfg6.N, (cfg6.win 3).flush t = true ∧ i ∈ ((cfg6.win 3).blk t).view.set := by
  have hi0 : (i 0).val < 100000 := (i 0).isLt
  have hi1 : (i 1).val < 512 := (i 1).isLt
  obtain ⟨t, ht⟩ : ∃ t : Fin cfg6.N, t.val = (i 0).val / 1000 :=
    ⟨⟨(i 0).val / 1000, by have := N_6; show _ < grid6.N; omega⟩, rfl⟩
  obtain ⟨-, -, -, -, -, -, e30, e31⟩ := idx_facts6 t
  refine ⟨t, flush6_3 t, ?_⟩
  rw [mem_blk6]
  intro a
  match a with
  | ⟨0, _⟩ => show win6_3.index t (0 : Fin 2) * 1000 ≤ (i 0).val ∧ (i 0).val < win6_3.index t (0 : Fin 2) * 1000 + 1000; omega
  | ⟨1, _⟩ => show win6_3.index t (1 : Fin 2) * 512 ≤ (i 1).val ∧ (i 1).val < win6_3.index t (1 : Fin 2) * 512 + 512; omega

/-- The result array after the region: the layer x · W + b of the operands and the bias row as the region finds them. -/
theorem rows6_eq (c : Dev nD) :
    (data6 (F := Ideal) V c).arrAt 3 cfg6.N = rows6 (V c main_v139) (V c main_v140) (V c main_v141) :=
  (data6 (F := Ideal) V c).arrAt_eq_of_cover 3 (rows6 (V c main_v139) (V c main_v140) (V c main_v141)) (fun t _ => flushed6_eq V c t) covered6

end Cert.KernelIdeal.Frame

end
-- ==== Proof.HostStretches.Carried.lean ====
/-
  What the core's buffers hold between the items of the main function, for the buffers an item does not write.

  The ten argument arrays are written by no host operation and changed by no region: at every stage they hold what
  the launch memory holds. A region's result array holds, right after the region, what the region left there, and keeps
  it through every later item that does not write it: the first layer's output (the 256-wide activation) and the second
  layer's output (128 wide) are carried unchanged to the final concatenation.
-/
import proofs.«150991_j71700184039837_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe

variable {F : FTy → Type} [FloatOps F]
variable (m : (ℓ : Loc nD τ sig) → Buf (Elt F) ℓ) (outs : Outs (F := F))

/-! ## The argument arrays -/

/-- The ten argument arrays of the main function. -/
abbrev argRefs : List (Ref sig .tc) :=
  [main_arg0, main_arg1, main_arg2, main_arg3, main_arg4, main_arg5, main_arg6, main_arg7, main_arg8, main_arg9]

/-- At launch an argument array holds the launch memory's contents. -/
theorem V0_arg (c : Dev nD) {r : Ref sig .tc} (hr : r ∈ argRefs) : V0 m c r = m ((c : Thread nD τ).loc r) := rfl
/-- After item 0 an argument array still holds the launch memory's contents: no operation of the host stretch before it writes an argument. -/
theorem V1_arg (c : Dev nD) {r : Ref sig .tc} (hr : r ∈ argRefs) : V1 m c r = m ((c : Thread nD τ).loc r) :=
  (V1_of m c r ((by decide : ∀ r ∈ argRefs, r ∉ hostOps0_W) r hr)).trans (V0_arg m c hr)
/-- After item 1 an argument array still holds the launch memory's contents: the region before it may change only its result array. -/
theorem V2_arg (c : Dev nD) {r : Ref sig .tc} (hr : r ∈ argRefs) : V2 m outs c r = m ((c : Thread nD τ).loc r) :=
  (V2_of m outs c r ((by decide : ∀ r ∈ argRefs, r ∉ ([main_v6] : List (Ref sig .tc))) r hr)).trans (V1_arg m c hr)
/-- After item 2 an argument array still holds the launch memory's contents: no operation of the host stretch before it writes an argument. -/
theorem V3_arg (c : Dev nD) {r : Ref sig .tc} (hr : r ∈ argRefs) : V3 m outs c r = m ((c : Thread nD τ).loc r) :=
  (V3_of m outs c r ((by decide : ∀ r ∈ argRefs, r ∉ hostOps1_W) r hr)).trans (V2_arg m outs c hr)
/-- After item 3 an argument array still holds the launch memory's contents: no operation of the host stretch before it writes an argument. -/
theorem V4_arg (c : Dev nD) {r : Ref sig .tc} (hr : r ∈ argRefs) : V4 m outs c r = m ((c : Thread nD τ).loc r) :=
  (V4_of m outs c r ((by decide : ∀ r ∈ argRefs, r ∉ hostOps1_1_W) r hr)).trans (V3_arg m outs c hr)
/-- After item 4 an argument array still holds the launch memory's contents: no operation of the host stretch before it writes an argument. -/
theorem V5_arg (c : Dev nD) {r : Ref sig .tc} (hr : r ∈ argRefs) : V5 m outs c r = m ((c : Thread nD τ).loc r) :=
  (V5_of m outs c r ((by decide : ∀ r ∈ argRefs, r ∉ hostOps1_2_W) r hr)).trans (V4_arg m outs c hr)
/-- After item 5 an argument array still holds the launch memory's contents: the region before it may change only its result array. -/
theorem V6_arg (c : Dev nD) {r : Ref sig .tc} (hr : r ∈ argRefs) : V6 m outs c r = m ((c : Thread nD τ).loc r) :=
  (V6_of m outs c r ((by decide : ∀ r ∈ argRefs, r ∉ ([main_v48] : List (Ref sig .tc))) r hr)).trans (V5_arg m outs c hr)
/-- After item 6 an argument array still holds the launch memory's contents: no operation of the host stretch before it writes an argument. -/
theorem V7_arg (c : Dev nD) {r : Ref sig .tc} (hr : r ∈ argRefs) : V7 m outs c r = m ((c : Thread nD τ).loc r) :=
  (V7_of m outs c r ((by decide : ∀ r ∈ argRefs, r ∉ hostOps2_W) r hr)).trans (V6_arg m outs c hr)
/-- After item 7 an argument array still holds the launch memory's contents: the region before it may change only its result array. -/
theorem V8_arg (c : Dev nD) {r : Ref sig .tc} (hr : r ∈ argRefs) : V8 m outs c r = m ((c : Thread nD τ).loc r) :=
  (V8_of m outs c r ((by decide : ∀ r ∈ argRefs, r ∉ ([main_v51] : List (Ref sig .tc))) r hr)).trans (V7_arg m outs c hr)
/-- After item 8 an argument array still holds the launch memory's contents: no operation of the host stretch before it writes an argument. -/
theorem V9_arg (c : Dev nD) {r : Ref sig .tc} (hr : r ∈ argRefs) : V9 m outs c r = m ((c : Thread nD τ).loc r) :=
  (V9_of m outs c r ((by decide : ∀ r ∈ argRefs, r ∉ hostOps3_W) r hr)).trans (V8_arg m outs c hr)
/-- After item 9 an argument array still holds the launch memory's contents: no operation of the host stretch before it writes an argument. -/
theorem V10_arg (c : Dev nD) {r : Ref sig .tc} (hr : r ∈ argRefs) : V10 m outs c r = m ((c : Thread nD τ).loc r) :=
  (V10_of m outs c r ((by decide : ∀ r ∈ argRefs, r ∉ hostOps3_1_W) r hr)).trans (V9_arg m outs c hr)
/-- After item 10 an argument array still holds the launch memory's contents: no operation of the host stretch before it writes an argument. -/
theorem V11_arg (c : Dev nD) {r : Ref sig .tc} (hr : r ∈ argRefs) : V11 m outs c r = m ((c : Thread nD τ).loc r) :=
  (V11_of m outs c r ((by decide : ∀ r ∈ argRefs, r ∉ hostOps3_2_W) r hr)).trans (V10_arg m outs c hr)
/-- After item 11 an argument array still holds the launch memory's contents: the region before it may change only its result array. -/
theorem V12_arg (c : Dev nD) {r : Ref sig .tc} (hr : r ∈ argRefs) : V12 m outs c r = m ((c : Thread nD τ).loc r) :=
  (V12_of m outs c r ((by decide : ∀ r ∈ argRefs, r ∉ ([main_v93] : List (Ref sig .tc))) r hr)).trans (V11_arg m outs c hr)
/-- After item 12 an argument array still holds the launch memory's contents: no operation of the host stretch before it writes an argument. -/
theorem V13_arg (c : Dev nD) {r : Ref sig .tc} (hr : r ∈ argRefs) : V13 m outs c r = m ((c : Thread nD τ).loc r) :=
  (V13_of m outs c r ((by decide : ∀ r ∈ argRefs, r ∉ hostOps4_W) r hr)).trans (V12_arg m outs c hr)
/-- After item 13 an argument array still holds the launch memory's contents: the region before it may change only its result array. -/
theorem V14_arg (c : Dev nD) {r : Ref sig .tc} (hr : r ∈ argRefs) : V14 m outs c r = m ((c : Thread nD τ).loc r) :=
  (V14_of m outs c r ((by decide : ∀ r ∈ argRefs, r ∉ ([main_v96] : List (Ref sig .tc))) r hr)).trans (V13_arg m outs c hr)
/-- After item 14 an argument array still holds the launch memory's contents: no operation of the host stretch before it writes an argument. -/
theorem V15_arg (c : Dev nD) {r : Ref sig .tc} (hr : r ∈ argRefs) : V15 m outs c r = m ((c : Thread nD τ).loc r) :=
  (V15_of m outs c r ((by decide : ∀ r ∈ argRefs, r ∉ hostOps5_W) r hr)).trans (V14_arg m outs c hr)
/-- After item 15 an argument array still holds the launch memory's contents: no operation of the host stretch before it writes an argument. -/
theorem V16_arg (c : Dev nD) {r : Ref sig .tc} (hr : r ∈ argRefs) : V16 m outs c r = m ((c : Thread nD τ).loc r) :=
  (V16_of m outs c r ((by decide : ∀ r ∈ argRefs, r ∉ hostOps5_1_W) r hr)).trans (V15_arg m outs c hr)
/-- After item 16 an argument array still holds the launch memory's contents: no operation of the host stretch before it writes an argument. -/
theorem V17_arg (c : Dev nD) {r : Ref sig .tc} (hr : r ∈ argRefs) : V17 m outs c r = m ((c : Thread nD τ).loc r) :=
  (V17_of m outs c r ((by decide : ∀ r ∈ argRefs, r ∉ hostOps5_2_W) r hr)).trans (V16_arg m outs c hr)
/-- After item 17 an argument array still holds the launch memory's contents: the region before it may change only its result array. -/
theorem V18_arg (c : Dev nD) {r : Ref sig .tc} (hr : r ∈ argRefs) : V18 m outs c r = m ((c : Thread nD τ).loc r) :=
  (V18_of m outs c r ((by decide : ∀ r ∈ argRefs, r ∉ ([main_v138] : List (Ref sig .tc))) r hr)).trans (V17_arg m outs c hr)
/-- After item 18 an argument array still holds the launch memory's contents: no operation of the host stretch before it writes an argument. -/
theorem V19_arg (c : Dev nD) {r : Ref sig .tc} (hr : r ∈ argRefs) : V19 m outs c r = m ((c : Thread nD τ).loc r) :=
  (V19_of m outs c r ((by decide : ∀ r ∈ argRefs, r ∉ hostOps6_W) r hr)).trans (V18_arg m outs c hr)
/-- After item 19 an argument array still holds the launch memory's contents: the region before it may change only its result array. -/
theorem V20_arg (c : Dev nD) {r : Ref sig .tc} (hr : r ∈ argRefs) : V20 m outs c r = m ((c : Thread nD τ).loc r) :=
  (V20_of m outs c r ((by decide : ∀ r ∈ argRefs, r ∉ ([main_v142] : List (Ref sig .tc))) r hr)).trans (V19_arg m outs c hr)

/-! ## What a region leaves in its result array -/
/-- Right after region 0 its result array holds what the region left there. -/
theorem V2_main_v6 (c : Dev nD) : V2 m outs c main_v6 = outs 2 main_v6 c := by
  simp only [V2, Function.update_self]
/-- Right after region 1 its result array holds what the region left there. -/
theorem V6_main_v48 (c : Dev nD) : V6 m outs c main_v48 = outs 6 main_v48 c := by
  simp only [V6, Function.update_self]
/-- Right after region 2 its result array holds what the region left there. -/
theorem V8_main_v51 (c : Dev nD) : V8 m outs c main_v51 = outs 8 main_v51 c := by
  simp only [V8, Function.update_self]
/-- Right after region 3 its result array holds what the region left there. -/
theorem V12_main_v93 (c : Dev nD) : V12 m outs c main_v93 = outs 12 main_v93 c := by
  simp only [V12, Function.update_self]
/-- Right after region 4 its result array holds what the region left there. -/
theorem V14_main_v96 (c : Dev nD) : V14 m outs c main_v96 = outs 14 main_v96 c := by
  simp only [V14, Function.update_self]
/-- Right after region 5 its result array holds what the region left there. -/
theorem V18_main_v138 (c : Dev nD) : V18 m outs c main_v138 = outs 18 main_v138 c := by
  simp only [V18, Function.update_self]
/-- Right after region 6 its result array holds what the region left there. -/
theorem V20_main_v142 (c : Dev nD) : V20 m outs c main_v142 = outs 20 main_v142 c := by
  simp only [V20, Function.update_self]

/-! ## Carried unchanged -/

/-- The first layer's output is not written by the host stretch that prepares the second layer's bias row. -/
theorem V7_main_v48 (c : Dev nD) : V7 m outs c main_v48 = V6 m outs c main_v48 :=
  V7_of m outs c main_v48 (by decide)

/-- The second layer's output is not written by the host stretch that prepares the third layer's bias row. -/
theorem V13_main_v93 (c : Dev nD) : V13 m outs c main_v93 = V12 m outs c main_v93 :=
  V13_of m outs c main_v93 (by decide)

/-- The first layer's output reaches the final concatenation as the first bias-and-maximum region left it. -/
theorem V18_main_v48 (c : Dev nD) : V18 m outs c main_v48 = V6 m outs c main_v48 :=
  (V18_of m outs c main_v48 (by decide)).trans <| (V17_of m outs c main_v48 (by decide)).trans <|
  (V16_of m outs c main_v48 (by decide)).trans <| (V15_of m outs c main_v48 (by decide)).trans <|
  (V14_of m outs c main_v48 (by decide)).trans <| (V13_of m outs c main_v48 (by decide)).trans <|
  (V12_of m outs c main_v48 (by decide)).trans <| (V11_of m outs c main_v48 (by decide)).trans <|
  (V10_of m outs c main_v48 (by decide)).trans <| (V9_of m outs c main_v48 (by decide)).trans <|
  (V8_of m outs c main_v48 (by decide)).trans <| V7_of m outs c main_v48 (by decide)

/-- The second layer's output reaches the final concatenation as the second bias-and-maximum region left it. -/
theorem V18_main_v93 (c : Dev nD) : V18 m outs c main_v93 = V12 m outs c main_v93 :=
  (V18_of m outs c main_v93 (by decide)).trans <| (V17_of m outs c main_v93 (by decide)).trans <|
  (V16_of m outs c main_v93 (by decide)).trans <| (V15_of m outs c main_v93 (by decide)).trans <|
  (V14_of m outs c main_v93 (by decide)).trans <| V13_of m outs c main_v93 (by decide)

/-- The first layer's output at the final concatenation is what region 1 left. -/
theorem V18_main_v48_outs (c : Dev nD) : V18 m outs c main_v48 = outs 6 main_v48 c :=
  (V18_main_v48 m outs c).trans (V6_main_v48 m outs c)

/-- The second layer's output at the final concatenation is what region 3 left. -/
theorem V18_main_v93_outs (c : Dev nD) : V18 m outs c main_v93 = outs 12 main_v93 c :=
  (V18_main_v93 m outs c).trans (V12_main_v93 m outs c)

/-- The row-block product of region 0 is not written by the host stretches that compute the graph's weights. -/
theorem V4_main_v6 (c : Dev nD) : V4 m outs c main_v6 = V2 m outs c main_v6 :=
  (V4_of m outs c main_v6 (by decide)).trans (V3_of m outs c main_v6 (by decide))

/-- The row-block product of region 2 is not written by the host stretches that compute the graph's weights. -/
theorem V10_main_v51 (c : Dev nD) : V10 m outs c main_v51 = V8 m outs c main_v51 :=
  (V10_of m outs c main_v51 (by decide)).trans (V9_of m outs c main_v51 (by decide))

/-- The row-block product of region 4 is not written by the host stretches that compute the graph's weights. -/
theorem V16_main_v96 (c : Dev nD) : V16 m outs c main_v96 = V14 m outs c main_v96 :=
  (V16_of m outs c main_v96 (by decide)).trans (V15_of m outs c main_v96 (by decide))

end Cert.KernelIdeal.Frame

end
-- ==== Proof.HostStretches.BiasRows.lean ====
/-
  The row vectors and the transposed matrix the host prepares for the regions.

  Before each matrix-product region of a graph layer the host builds a zero bias row: the constant zero broadcast to a
  vector of 256 (or 128) entries and reshaped to one row. Before each bias-and-maximum region it reshapes the layer's
  bias vector (an argument) to one row. Before the last region it transposes the 512 × 512 weight matrix and reshapes
  the last bias vector to one row. Each is read here off the core's buffers as the operations' term over the launch
  memory's argument arrays.
-/
import proofs.«150991_j71700184039837_1_alg».proof.Proof.Gen.KernelIdeal.Regions
import proofs.«150991_j71700184039837_1_alg».proof.Proof.HostStretches.Carried

set_option maxRecDepth 16384

noncomputable section

namespace Cert.KernelIdeal.Frame

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (outs : Outs (F := F))

/-! ## The zero bias rows of the matrix-product regions -/

/-- Region 0's bias row: the constant zero broadcast to 256 entries, as one row. -/
theorem V1_main_v5 (c : Dev nD) :
    V1 m c main_v5 = shapeCast S1x256 (broadcastInDim S256 ![] bcast_S_S256 (constant (F := F) S_ .f32 0x00000000#32)) shapeCasts_S256_S1x256 := by
  show StableHlo.after hostOps0 (V0 m c) (Proc.devRef .tc main_v5) = _
  after_results
  rfl

/-- Region 2's bias row: the constant zero broadcast to 128 entries, as one row. -/
theorem V7_main_v50 (c : Dev nD) :
    V7 m outs c main_v50 = shapeCast S1x128 (broadcastInDim S128 ![] bcast_S_S128 (constant (F := F) S_ .f32 0x00000000#32)) shapeCasts_S128_S1x128 := by
  show StableHlo.after hostOps2 (V6 m outs c) (Proc.devRef .tc main_v50) = _
  after_results
  rfl

/-- Region 4's bias row: the constant zero broadcast to 128 entries, as one row. -/
theorem V13_main_v95 (c : Dev nD) :
    V13 m outs c main_v95 = shapeCast S1x128 (broadcastInDim S128 ![] bcast_S_S128 (constant (F := F) S_ .f32 0x00000000#32)) shapeCasts_S128_S1x128 := by
  show StableHlo.after hostOps4 (V12 m outs c) (Proc.devRef .tc main_v95) = _
  after_results
  rfl

/-! ## The bias rows of the bias-and-maximum regions -/

/-- Region 1's bias row: the first layer's bias vector as one row. -/
theorem V5_main_v47 (c : Dev nD) :
    V5 m outs c main_v47 = shapeCast S1x256 (m ((c : Thread nD τ).loc main_arg2)) shapeCasts_S256_S1x256 := by
  rw [← V4_arg m outs c (r := main_arg2) (by decide)]
  show StableHlo.after hostOps1_2 (V4 m outs c) (Proc.devRef .tc main_v47) = _
  after_results_simp
  rfl

/-- Region 3's bias row: the second layer's bias vector as one row. -/
theorem V11_main_v92 (c : Dev nD) :
    V11 m outs c main_v92 = shapeCast S1x128 (m ((c : Thread nD τ).loc main_arg4)) shapeCasts_S128_S1x128 := by
  rw [← V10_arg m outs c (r := main_arg4) (by decide)]
  show StableHlo.after hostOps3_2 (V10 m outs c) (Proc.devRef .tc main_v92) = _
  after_results_simp
  rfl

/-- Region 5's bias row: the third layer's bias vector as one row. -/
theorem V17_main_v137 (c : Dev nD) :
    V17 m outs c main_v137 = shapeCast S1x128 (m ((c : Thread nD τ).loc main_arg6)) shapeCasts_S128_S1x128 := by
  rw [← V16_arg m outs c (r := main_arg6) (by decide)]
  show StableHlo.after hostOps5_2 (V16 m outs c) (Proc.devRef .tc main_v137) = _
  after_results_simp
  rfl

/-! ## The last region's operands -/

/-- Region 6's second operand: the 512 × 512 weight matrix transposed. -/
theorem V19_main_v140 (c : Dev nD) :
    V19 m outs c main_v140 = transpose S512x512 [1, 0] (m ((c : Thread nD τ).loc main_arg7)) transposes_S512x512_S512x512_1_0 := by
  rw [← V18_arg m outs c (r := main_arg7) (by decide)]
  show StableHlo.after hostOps6 (V18 m outs c) (Proc.devRef .tc main_v140) = _
  after_results

/-- Region 6's bias row: the last bias vector as one row. -/
theorem V19_main_v141 (c : Dev nD) :
    V19 m outs c main_v141 = shapeCast S1x512 (m ((c : Thread nD τ).loc main_arg8)) shapeCasts_S512_S1x512 := by
  rw [← V18_arg m outs c (r := main_arg8) (by decide)]
  show StableHlo.after hostOps6 (V18 m outs c) (Proc.devRef .tc main_v141) = _
  after_results
  rfl

end Cert.KernelIdeal.Frame

end
-- ==== Proof.HostStretches.Concat.lean ====
/-
  The last region's first operand: the three layers' outputs set side by side.

  After the third bias-and-maximum region the host concatenates, along the columns, the first layer's output (256
  columns) and the second and third layers' outputs (128 columns each) into one array of 512 columns. Read off the
  core's buffers, that array is the side-by-side stage of the three arrays the regions left.
-/
import proofs.«150991_j71700184039837_1_alg».proof.Proof.Gen.KernelIdeal.Regions
import proofs.«150991_j71700184039837_1_alg».proof.Proof.GraphStages
import proofs.«150991_j71700184039837_1_alg».proof.Proof.LibNary3
import proofs.«150991_j71700184039837_1_alg».proof.Proof.HostStretches.Carried

set_option maxRecDepth 16384

noncomputable section

namespace Cert.KernelIdeal.Frame

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (outs : Outs (F := F))

/-- Region 6's first operand is the three layers' outputs, as the buffers hold them after region 5, side by side. -/
theorem V19_main_v139 (c : Dev nD) :
    V19 m outs c main_v139
      = Cert.Stages.sideBySide (V18 m outs c main_v48) (V18 m outs c main_v93) (V18 m outs c main_v138) := by
  show StableHlo.after hostOps6 (V18 m outs c) (Proc.devRef .tc main_v139) = _
  simp only [StableHlo.after_cons, StableHlo.after_nil]
  rw [StableHlo.reshape_result_ne]; rotate_left; decide
  rw [StableHlo.unary_result_ne]; rotate_left; decide
  rw [Cert.LibNary3.nary3_result]
  rfl

/-- Region 6's first operand is what regions 1, 3 and 5 left in their result arrays, side by side. -/
theorem V19_main_v139_outs (c : Dev nD) :
    V19 m outs c main_v139
      = Cert.Stages.sideBySide (outs 6 main_v48 c) (outs 12 main_v93 c) (outs 18 main_v138 c) := by
  rw [V19_main_v139, V18_main_v48_outs, V18_main_v93_outs, V18_main_v138]

end Cert.KernelIdeal.Frame

end
-- ==== Proof.HostStretches.Spread.lean ====
/-
  The host's graph stages between the regions, read off the core's buffers as the shared stage functions.

  Each of the three layers runs, between its matrix-product region and its bias-and-maximum region, the same stages on
  the edge list (an argument array of 2 × 300000 node numbers): the source and destination columns (a row of the edge
  list followed by the self loops 0 … 99999), the degree (a scatter-add of ones at the destination column), its inverse
  square root where it is positive and zero elsewhere, the edge weights (the product of that value gathered at the two
  ends of each edge, a negative node number first wrapped by adding 100000), and the weighted sum over each node's
  incoming edges of the rows the matrix-product region left. The two rows of the edge list are cut out once, before
  region 0, and are written by nothing afterwards. This module proves, stage by stage and for every layer, that the
  buffer an operation writes holds the corresponding stage function of the edge list; the last one of a layer is the
  array the bias-and-maximum region takes as its first operand.
-/
import proofs.«150991_j71700184039837_1_alg».proof.Proof.Gen.KernelIdeal.Regions
import proofs.«150991_j71700184039837_1_alg».proof.Proof.GraphStages
import proofs.«150991_j71700184039837_1_alg».proof.Proof.HostStretches.Carried

set_option maxRecDepth 16384

noncomputable section

namespace Cert.KernelIdeal.Frame

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (outs : Outs (F := F))

/-- The edge list as the launch memory holds it on core `c`. -/
abbrev edges (c : Dev nD) : Cert.Stages.Arr (F := F) Cert.ReferenceIdeal.S2x300000 .i32 :=
  m ((c : Thread nD τ).loc main_arg9)

/-! ## The two rows of the edge list -/

/-- Row 0 of the edge list (the sources) as a vector of 300000 node numbers. -/
theorem V1_main_v1 (c : Dev nD) :
    V1 m c main_v1 = shapeCast S300000 (extractStridedSlice S1x300000 ![0, 0] (edges m c) slices_S2x300000_S1x300000_0_0) shapeCasts_S1x300000_S300000 := by
  show StableHlo.after hostOps0 (V0 m c) (Proc.devRef .tc main_v1) = _
  after_results
  rfl

/-- Row 1 of the edge list (the destinations) as a vector of 300000 node numbers. -/
theorem V1_main_v3 (c : Dev nD) :
    V1 m c main_v3 = shapeCast S300000 (extractStridedSlice S1x300000 ![1, 0] (edges m c) slices_S2x300000_S1x300000_1_0) shapeCasts_S1x300000_S300000 := by
  show StableHlo.after hostOps0 (V0 m c) (Proc.devRef .tc main_v3) = _
  after_results
  rfl

/-! ## The first layer -/

/-- Row 0 of the edge list is not written between the launch's first stretch and the first layer. -/
theorem V2_main_v1 (c : Dev nD) : V2 m outs c main_v1 = V1 m c main_v1 :=
    V2_of m outs c main_v1 (by decide)

/-- Row 1 of the edge list is not written between the launch's first stretch and the first layer. -/
theorem V2_main_v3 (c : Dev nD) : V2 m outs c main_v3 = V1 m c main_v3 :=
    V2_of m outs c main_v3 (by decide)

/-- The first layer's source column: row 0 of the edge list followed by the self loops. -/
theorem V3_main_v8 (c : Dev nD) : V3 m outs c main_v8 = Cert.Stages.sources (edges m c) := by
  show StableHlo.after hostOps1 (V2 m outs c) (Proc.devRef .tc main_v8) = _
  after_results
  rw [V2_main_v1, V1_main_v1]
  rfl

/-- The first layer's destination column: row 1 of the edge list followed by the self loops. -/
theorem V3_main_v9 (c : Dev nD) : V3 m outs c main_v9 = Cert.Stages.dests (edges m c) := by
  show StableHlo.after hostOps1 (V2 m outs c) (Proc.devRef .tc main_v9) = _
  after_results
  rw [V2_main_v3, V1_main_v3]
  rfl

/-- The first layer's scatter-add of ones at the destination column is the degree. -/
theorem V3_main_v13 (c : Dev nD) : V3 m outs c main_v13 = Cert.Stages.degree (edges m c) := by
  show StableHlo.after hostOps1 (V2 m outs c) (Proc.devRef .tc main_v13) = _
  after_results
  rw [V2_main_v3, V1_main_v3]
  rfl

/-- Where the degree is positive (first layer). -/
theorem V3_main_v15 (c : Dev nD) : V3 m outs c main_v15
    = cmpf .ogt (Cert.Stages.degree (edges m c)) (broadcastInDim S100000 ![] bcast_S_S100000 (constant (F := F) S_ .f32 0x00000000#32)) := by
  show StableHlo.after hostOps1 (V2 m outs c) (Proc.devRef .tc main_v15) = _
  after_results
  rw [V2_main_v3, V1_main_v3]
  rfl

/-- The inverse square root of the degree, taken everywhere (first layer). -/
theorem V3_main_v16 (c : Dev nD) : V3 m outs c main_v16 = Host.rsqrt (Cert.Stages.degree (edges m c)) := by
  show StableHlo.after hostOps1 (V2 m outs c) (Proc.devRef .tc main_v16) = _
  after_results
  rw [V2_main_v3, V1_main_v3]
  rfl

/-- The zero vector chosen where the degree is not positive (first layer). -/
theorem V3_main_v17 (c : Dev nD) : V3 m outs c main_v17
    = broadcastInDim S100000 ![] bcast_S_S100000 (constant (F := F) S_ .f32 0x00000000#32) := by
  show StableHlo.after hostOps1 (V2 m outs c) (Proc.devRef .tc main_v17) = _
  after_results

/-- The first layer's selection between the two is the inverse square root of the degree where it is positive and
    zero elsewhere. -/
theorem V4_main_v18 (c : Dev nD) : V4 m outs c main_v18 = Cert.Stages.invRoot (edges m c) := by
  have h15 := V3_main_v15 m outs c
  have h16 := V3_main_v16 m outs c
  have h17 := V3_main_v17 m outs c
  show StableHlo.after hostOps1_1 (V3 m outs c) (Proc.devRef .tc main_v18) = _
  generalize V3 m outs c = X at h15 h16 h17 ⊢
  simp only [StableHlo.after_cons, StableHlo.after_nil]
  rw [StableHlo.ternary_result]
  show select (X (Proc.devRef .tc main_v15)) (X (Proc.devRef .tc main_v16)) (X (Proc.devRef .tc main_v17)) = _
  rw [h15, h16, h17]
  rfl

/-- The selection does not write the source column. -/
theorem V4_main_v8 (c : Dev nD) : V4 m outs c main_v8 = Cert.Stages.sources (edges m c) :=
  (V4_of m outs c main_v8 (by decide)).trans (V3_main_v8 m outs c)

/-- The selection does not write the destination column. -/
theorem V4_main_v9 (c : Dev nD) : V4 m outs c main_v9 = Cert.Stages.dests (edges m c) :=
  (V4_of m outs c main_v9 (by decide)).trans (V3_main_v9 m outs c)

/-- The first layer's edge weights: the product of the two gathers of the inverse square root, at the wrapped source
    and destination columns. -/
theorem V5_main_v33 (c : Dev nD) : V5 m outs c main_v33 = Cert.Stages.edgeWeight (edges m c) := by
  have h8 := V4_main_v8 m outs c
  have h9 := V4_main_v9 m outs c
  have h18 := V4_main_v18 m outs c
  show StableHlo.after hostOps1_2 (V4 m outs c) (Proc.devRef .tc main_v33) = _
  generalize V4 m outs c = X at h8 h9 h18 ⊢
  after_results_simp
  rw [h8, h9, h18]
  rfl

/-- The first layer's weighted gather and scatter-add: the rows of the first matrix product, gathered at each edge's source, scaled
    by the edge's weight and added into the row of the edge's destination. -/
theorem V5_main_v46 (c : Dev nD) :
    V5 m outs c main_v46 = Cert.Stages.spread256 (V2 m outs c main_v6) (edges m c) := by
  have h8 := V4_main_v8 m outs c
  have h9 := V4_main_v9 m outs c
  have h18 := V4_main_v18 m outs c
  have h6 := V4_main_v6 m outs c
  show StableHlo.after hostOps1_2 (V4 m outs c) (Proc.devRef .tc main_v46) = _
  generalize V4 m outs c = X at h8 h9 h18 h6 ⊢
  after_results_simp
  rw [h8, h9, h18, h6]
  rfl

/-- The same, over what the matrix-product region before it left in its result array. -/
theorem V5_main_v46_outs (c : Dev nD) :
    V5 m outs c main_v46 = Cert.Stages.spread256 (outs 2 main_v6 c) (edges m c) := by
  rw [V5_main_v46, V2_main_v6]

/-! ## The second layer -/

/-- Row 0 of the edge list is not written between the launch's first stretch and the second layer. -/
theorem V8_main_v1 (c : Dev nD) : V8 m outs c main_v1 = V1 m c main_v1 :=
    (V8_of m outs c main_v1 (by decide)).trans <|
    (V7_of m outs c main_v1 (by decide)).trans <|
    (V6_of m outs c main_v1 (by decide)).trans <|
    (V5_of m outs c main_v1 (by decide)).trans <|
    (V4_of m outs c main_v1 (by decide)).trans <|
    (V3_of m outs c main_v1 (by decide)).trans <|
    V2_of m outs c main_v1 (by decide)

/-- Row 1 of the edge list is not written between the launch's first stretch and the second layer. -/
theorem V8_main_v3 (c : Dev nD) : V8 m outs c main_v3 = V1 m c main_v3 :=
    (V8_of m outs c main_v3 (by decide)).trans <|
    (V7_of m outs c main_v3 (by decide)).trans <|
    (V6_of m outs c main_v3 (by decide)).trans <|
    (V5_of m outs c main_v3 (by decide)).trans <|
    (V4_of m outs c main_v3 (by decide)).trans <|
    (V3_of m outs c main_v3 (by decide)).trans <|
    V2_of m outs c main_v3 (by decide)

/-- The second layer's source column: row 0 of the edge list followed by the self loops. -/
theorem V9_main_v53 (c : Dev nD) : V9 m outs c main_v53 = Cert.Stages.sources (edges m c) := by
  show StableHlo.after hostOps3 (V8 m outs c) (Proc.devRef .tc main_v53) = _
  after_results
  rw [V8_main_v1, V1_main_v1]
  rfl

/-- The second layer's destination column: row 1 of the edge list followed by the self loops. -/
theorem V9_main_v54 (c : Dev nD) : V9 m outs c main_v54 = Cert.Stages.dests (edges m c) := by
  show StableHlo.after hostOps3 (V8 m outs c) (Proc.devRef .tc main_v54) = _
  after_results
  rw [V8_main_v3, V1_main_v3]
  rfl

/-- The second layer's scatter-add of ones at the destination column is the degree. -/
theorem V9_main_v58 (c : Dev nD) : V9 m outs c main_v58 = Cert.Stages.degree (edges m c) := by
  show StableHlo.after hostOps3 (V8 m outs c) (Proc.devRef .tc main_v58) = _
  after_results
  rw [V8_main_v3, V1_main_v3]
  rfl

/-- Where the degree is positive (second layer). -/
theorem V9_main_v60 (c : Dev nD) : V9 m outs c main_v60
    = cmpf .ogt (Cert.Stages.degree (edges m c)) (broadcastInDim S100000 ![] bcast_S_S100000 (constant (F := F) S_ .f32 0x00000000#32)) := by
  show StableHlo.after hostOps3 (V8 m outs c) (Proc.devRef .tc main_v60) = _
  after_results
  rw [V8_main_v3, V1_main_v3]
  rfl

/-- The inverse square root of the degree, taken everywhere (second layer). -/
theorem V9_main_v61 (c : Dev nD) : V9 m outs c main_v61 = Host.rsqrt (Cert.Stages.degree (edges m c)) := by
  show StableHlo.after hostOps3 (V8 m outs c) (Proc.devRef .tc main_v61) = _
  after_results
  rw [V8_main_v3, V1_main_v3]
  rfl

/-- The zero vector chosen where the degree is not positive (second layer). -/
theorem V9_main_v62 (c : Dev nD) : V9 m outs c main_v62
    = broadcastInDim S100000 ![] bcast_S_S100000 (constant (F := F) S_ .f32 0x00000000#32) := by
  show StableHlo.after hostOps3 (V8 m outs c) (Proc.devRef .tc main_v62) = _
  after_results

/-- The second layer's selection between the two is the inverse square root of the degree where it is positive and
    zero elsewhere. -/
theorem V10_main_v63 (c : Dev nD) : V10 m outs c main_v63 = Cert.Stages.invRoot (edges m c) := by
  have h15 := V9_main_v60 m outs c
  have h16 := V9_main_v61 m outs c
  have h17 := V9_main_v62 m outs c
  show StableHlo.after hostOps3_1 (V9 m outs c) (Proc.devRef .tc main_v63) = _
  generalize V9 m outs c = X at h15 h16 h17 ⊢
  simp only [StableHlo.after_cons, StableHlo.after_nil]
  rw [StableHlo.ternary_result]
  show select (X (Proc.devRef .tc main_v60)) (X (Proc.devRef .tc main_v61)) (X (Proc.devRef .tc main_v62)) = _
  rw [h15, h16, h17]
  rfl

/-- The selection does not write the source column. -/
theorem V10_main_v53 (c : Dev nD) : V10 m outs c main_v53 = Cert.Stages.sources (edges m c) :=
  (V10_of m outs c main_v53 (by decide)).trans (V9_main_v53 m outs c)

/-- The selection does not write the destination column. -/
theorem V10_main_v54 (c : Dev nD) : V10 m outs c main_v54 = Cert.Stages.dests (edges m c) :=
  (V10_of m outs c main_v54 (by decide)).trans (V9_main_v54 m outs c)

/-- The second layer's edge weights: the product of the two gathers of the inverse square root, at the wrapped source
    and destination columns. -/
theorem V11_main_v78 (c : Dev nD) : V11 m outs c main_v78 = Cert.Stages.edgeWeight (edges m c) := by
  have h8 := V10_main_v53 m outs c
  have h9 := V10_main_v54 m outs c
  have h18 := V10_main_v63 m outs c
  show StableHlo.after hostOps3_2 (V10 m outs c) (Proc.devRef .tc main_v78) = _
  generalize V10 m outs c = X at h8 h9 h18 ⊢
  after_results_simp
  rw [h8, h9, h18]
  rfl

/-- The second layer's weighted gather and scatter-add: the rows of the second matrix product, gathered at each edge's source, scaled
    by the edge's weight and added into the row of the edge's destination. -/
theorem V11_main_v91 (c : Dev nD) :
    V11 m outs c main_v91 = Cert.Stages.spread128 (V8 m outs c main_v51) (edges m c) := by
  have h8 := V10_main_v53 m outs c
  have h9 := V10_main_v54 m outs c
  have h18 := V10_main_v63 m outs c
  have h6 := V10_main_v51 m outs c
  show StableHlo.after hostOps3_2 (V10 m outs c) (Proc.devRef .tc main_v91) = _
  generalize V10 m outs c = X at h8 h9 h18 h6 ⊢
  after_results_simp
  rw [h8, h9, h18, h6]
  rfl

/-- The same, over what the matrix-product region before it left in its result array. -/
theorem V11_main_v91_outs (c : Dev nD) :
    V11 m outs c main_v91 = Cert.Stages.spread128 (outs 8 main_v51 c) (edges m c) := by
  rw [V11_main_v91, V8_main_v51]

/-! ## The third layer -/

/-- Row 0 of the edge list is not written between the launch's first stretch and the third layer. -/
theorem V14_main_v1 (c : Dev nD) : V14 m outs c main_v1 = V1 m c main_v1 :=
    (V14_of m outs c main_v1 (by decide)).trans <|
    (V13_of m outs c main_v1 (by decide)).trans <|
    (V12_of m outs c main_v1 (by decide)).trans <|
    (V11_of m outs c main_v1 (by decide)).trans <|
    (V10_of m outs c main_v1 (by decide)).trans <|
    (V9_of m outs c main_v1 (by decide)).trans <|
    (V8_of m outs c main_v1 (by decide)).trans <|
    (V7_of m outs c main_v1 (by decide)).trans <|
    (V6_of m outs c main_v1 (by decide)).trans <|
    (V5_of m outs c main_v1 (by decide)).trans <|
    (V4_of m outs c main_v1 (by decide)).trans <|
    (V3_of m outs c main_v1 (by decide)).trans <|
    V2_of m outs c main_v1 (by decide)

/-- Row 1 of the edge list is not written between the launch's first stretch and the third layer. -/
theorem V14_main_v3 (c : Dev nD) : V14 m outs c main_v3 = V1 m c main_v3 :=
    (V14_of m outs c main_v3 (by decide)).trans <|
    (V13_of m outs c main_v3 (by decide)).trans <|
    (V12_of m outs c main_v3 (by decide)).trans <|
    (V11_of m outs c main_v3 (by decide)).trans <|
    (V10_of m outs c main_v3 (by decide)).trans <|
    (V9_of m outs c main_v3 (by decide)).trans <|
    (V8_of m outs c main_v3 (by decide)).trans <|
    (V7_of m outs c main_v3 (by decide)).trans <|
    (V6_of m outs c main_v3 (by decide)).trans <|
    (V5_of m outs c main_v3 (by decide)).trans <|
    (V4_of m outs c main_v3 (by decide)).trans <|
    (V3_of m outs c main_v3 (by decide)).trans <|
    V2_of m outs c main_v3 (by decide)

/-- The third layer's source column: row 0 of the edge list followed by the self loops. -/
theorem V15_main_v98 (c : Dev nD) : V15 m outs c main_v98 = Cert.Stages.sources (edges m c) := by
  show StableHlo.after hostOps5 (V14 m outs c) (Proc.devRef .tc main_v98) = _
  after_results
  rw [V14_main_v1, V1_main_v1]
  rfl

/-- The third layer's destination column: row 1 of the edge list followed by the self loops. -/
theorem V15_main_v99 (c : Dev nD) : V15 m outs c main_v99 = Cert.Stages.dests (edges m c) := by
  show StableHlo.after hostOps5 (V14 m outs c) (Proc.devRef .tc main_v99) = _
  after_results
  rw [V14_main_v3, V1_main_v3]
  rfl

/-- The third layer's scatter-add of ones at the destination column is the degree. -/
theorem V15_main_v103 (c : Dev nD) : V15 m outs c main_v103 = Cert.Stages.degree (edges m c) := by
  show StableHlo.after hostOps5 (V14 m outs c) (Proc.devRef .tc main_v103) = _
  after_results
  rw [V14_main_v3, V1_main_v3]
  rfl

/-- Where the degree is positive (third layer). -/
theorem V15_main_v105 (c : Dev nD) : V15 m outs c main_v105
    = cmpf .ogt (Cert.Stages.degree (edges m c)) (broadcastInDim S100000 ![] bcast_S_S100000 (constant (F := F) S_ .f32 0x00000000#32)) := by
  show StableHlo.after hostOps5 (V14 m outs c) (Proc.devRef .tc main_v105) = _
  after_results
  rw [V14_main_v3, V1_main_v3]
  rfl

/-- The inverse square root of the degree, taken everywhere (third layer). -/
theorem V15_main_v106 (c : Dev nD) : V15 m outs c main_v106 = Host.rsqrt (Cert.Stages.degree (edges m c)) := by
  show StableHlo.after hostOps5 (V14 m outs c) (Proc.devRef .tc main_v106) = _
  after_results
  rw [V14_main_v3, V1_main_v3]
  rfl

/-- The zero vector chosen where the degree is not positive (third layer). -/
theorem V15_main_v107 (c : Dev nD) : V15 m outs c main_v107
    = broadcastInDim S100000 ![] bcast_S_S100000 (constant (F := F) S_ .f32 0x00000000#32) := by
  show StableHlo.after hostOps5 (V14 m outs c) (Proc.devRef .tc main_v107) = _
  after_results

/-- The third layer's selection between the two is the inverse square root of the degree where it is positive and
    zero elsewhere. -/
theorem V16_main_v108 (c : Dev nD) : V16 m outs c main_v108 = Cert.Stages.invRoot (edges m c) := by
  have h15 := V15_main_v105 m outs c
  have h16 := V15_main_v106 m outs c
  have h17 := V15_main_v107 m outs c
  show StableHlo.after hostOps5_1 (V15 m outs c) (Proc.devRef .tc main_v108) = _
  generalize V15 m outs c = X at h15 h16 h17 ⊢
  simp only [StableHlo.after_cons, StableHlo.after_nil]
  rw [StableHlo.ternary_result]
  show select (X (Proc.devRef .tc main_v105)) (X (Proc.devRef .tc main_v106)) (X (Proc.devRef .tc main_v107)) = _
  rw [h15, h16, h17]
  rfl

/-- The selection does not write the source column. -/
theorem V16_main_v98 (c : Dev nD) : V16 m outs c main_v98 = Cert.Stages.sources (edges m c) :=
  (V16_of m outs c main_v98 (by decide)).trans (V15_main_v98 m outs c)

/-- The selection does not write the destination column. -/
theorem V16_main_v99 (c : Dev nD) : V16 m outs c main_v99 = Cert.Stages.dests (edges m c) :=
  (V16_of m outs c main_v99 (by decide)).trans (V15_main_v99 m outs c)

/-- The third layer's edge weights: the product of the two gathers of the inverse square root, at the wrapped source
    and destination columns. -/
theorem V17_main_v123 (c : Dev nD) : V17 m outs c main_v123 = Cert.Stages.edgeWeight (edges m c) := by
  have h8 := V16_main_v98 m outs c
  have h9 := V16_main_v99 m outs c
  have h18 := V16_main_v108 m outs c
  show StableHlo.after hostOps5_2 (V16 m outs c) (Proc.devRef .tc main_v123) = _
  generalize V16 m outs c = X at h8 h9 h18 ⊢
  after_results_simp
  rw [h8, h9, h18]
  rfl

/-- The third layer's weighted gather and scatter-add: the rows of the third matrix product, gathered at each edge's source, scaled
    by the edge's weight and added into the row of the edge's destination. -/
theorem V17_main_v136 (c : Dev nD) :
    V17 m outs c main_v136 = Cert.Stages.spread128 (V14 m outs c main_v96) (edges m c) := by
  have h8 := V16_main_v98 m outs c
  have h9 := V16_main_v99 m outs c
  have h18 := V16_main_v108 m outs c
  have h6 := V16_main_v96 m outs c
  show StableHlo.after hostOps5_2 (V16 m outs c) (Proc.devRef .tc main_v136) = _
  generalize V16 m outs c = X at h8 h9 h18 h6 ⊢
  after_results_simp
  rw [h8, h9, h18, h6]
  rfl

/-- The same, over what the matrix-product region before it left in its result array. -/
theorem V17_main_v136_outs (c : Dev nD) :
    V17 m outs c main_v136 = Cert.Stages.spread128 (outs 14 main_v96 c) (edges m c) := by
  rw [V17_main_v136, V14_main_v96]

end Cert.KernelIdeal.Frame

end
-- ==== Proof.LibLayerForms.lean ====
/-
  Three identities on the extended reals between a pipelined kernel's row-block layers and a host program's spellings
  of the same layers, for any extents R, K, N:
    * a dense layer x · W + b whose bias row is zero is the plain product x · W (adding the zero word changes nothing);
    * max (a + b, 0) with the bias a vector reshaped to a [1, N] row is the host's "add the vector broadcast to every
      row, then the maximum with the zero matrix";
    * a dense layer x · W + b with the bias a reshaped vector is the host's product plus the vector broadcast to every
      row.
  Each is read entry by entry: both products are the same finite sum over the contracted axis, a broadcast row read at
  (r, g) is the vector at g, and the zero matrix read anywhere is the zero word.
-/
import proofs.«150991_j71700184039837_1_alg».proof.Proof.LibDenseLayers

noncomputable section

open scoped BigOperators

namespace Cert.LayerForms

open Idealize.ShloMosaic Idealize.ShloMosaic.ValueIdx Cert.SageLayers

variable {R K N : ℕ}

/-- Row r, column g of max (a + bias row, 0), as a whole matrix. -/
def reluRows (A : (⟨2, ![R, N]⟩ : Shape).Idx → EReal) (b : (⟨2, ![1, N]⟩ : Shape).Idx → EReal) :
    (⟨2, ![R, N]⟩ : Shape).Idx → EReal :=
  fun i => max (A i + b (ix2 (0 : Fin 1) (i 1))) zeroF

/-- A dense layer whose bias row is zero everywhere is the host's plain product. -/
theorem dense_zero_bias (A : FVec Ideal ⟨2, ![R, K]⟩ .f32) (W : FVec Ideal ⟨2, ![K, N]⟩ .f32)
    (z : (⟨2, ![1, N]⟩ : Shape).Idx → EReal) (hz : ∀ g : Fin N, z (ix2 (0 : Fin 1) g) = zeroF) :
    affLayer A W z = Host.dotGeneral (DotDims.plain R K N) none A W := by
  funext i
  obtain ⟨r, g, rfl⟩ : ∃ (r : Fin R) (g : Fin N), i = ix2 r g := ⟨i 0, i 1, eq_ix2 i⟩
  rw [host_dot_at]
  show (∑ k : Fin K, A (ix2 r k) * W (ix2 k g)) + z (ix2 (0 : Fin 1) g) = dotAt A W r g
  rw [hz g]
  show (∑ k : Fin K, A (ix2 r k) * W (ix2 k g)) + Ideal.ofBits .f32 0x00000000#32 = dotAt A W r g
  rw [Ideal.ofBits_zero_f32, add_zero]
  rfl

/-- max (a + b, 0) with the bias a reshaped vector is the host's spelling of it. -/
theorem relu_rows_host (A : FVec Ideal ⟨2, ![R, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank) (hb0 : (⟨0, ![]⟩ : Shape).BroadcastsInDim ⟨2, ![R, N]⟩ d0) :
    reluRows A (shapeCast ⟨2, ![1, N]⟩ b hc)
      = maximumf (addf A (broadcastInDim ⟨2, ![R, N]⟩ d2 hb2 (broadcastInDim ⟨2, ![1, N]⟩ d1 hb1 b)))
          (broadcastInDim ⟨2, ![R, N]⟩ d0 hb0 (constant (F := Ideal) ⟨0, ![]⟩ .f32 0x00000000#32)) := by
  funext i
  obtain ⟨r, g, rfl⟩ : ∃ (r : Fin R) (g : Fin N), i = ix2 r g := ⟨i 0, i 1, eq_ix2 i⟩
  rw [maximumf_apply, addf_apply, host_zero_at, Cert.LibHostRows.bcast_1b_ab_at d2 hd20 hd21 hb2 _ r g,
    row_of_vector b d1 hd1 hb1 hc]
  rfl

/-- A dense layer with the bias a reshaped vector is the host's product plus the broadcast vector. -/
theorem dense_host (A : FVec Ideal ⟨2, ![R, K]⟩ .f32) (W : FVec Ideal ⟨2, ![K, N]⟩ .f32) (b : FVec Ideal ⟨1, ![N]⟩ .f32)
    (hc : (⟨1, ![N]⟩ : Shape).ShapeCasts ⟨2, ![1, N]⟩)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    affLayer A W (shapeCast ⟨2, ![1, N]⟩ b hc)
      = addf (Host.dotGeneral (DotDims.plain R K N) none A W)
          (broadcastInDim ⟨2, ![R, N]⟩ d2 hb2 (broadcastInDim ⟨2, ![1, N]⟩ d1 hb1 b)) := by
  funext i
  obtain ⟨r, g, rfl⟩ : ∃ (r : Fin R) (g : Fin N), i = ix2 r g := ⟨i 0, i 1, eq_ix2 i⟩
  rw [host_affine_at A W b d1 hd1 hb1 d2 hd20 hd21 hb2 r g, row_of_vector b d1 hd1 hb1 hc]
  rfl

end Cert.LayerForms

end
-- ==== Proof.KernelNetwork.lean ====
/-
  The kernel's result is the network of GraphStages applied to its ten arguments, on the extended reals.
  Region by region, what a region leaves in its result array is a closed form of the arrays it is entered with, and
  those arrays are the host stretches' stage functions of what the earlier regions left:
    * a matrix-product region leaves x · W plus its bias row; in the three graph layers that row is zero, so it leaves
      the host's plain product; in the last region it is the reshaped bias vector, so it leaves the host's product plus
      the broadcast bias;
    * a bias-and-maximum region leaves max (a + bias row, 0), the row a reshaped bias vector: the host's bias-then-maximum;
    * between them the host spreads the product over the graph's edges, and at the end sets the three layers' outputs
      side by side and transposes the last weight matrix.
  Composing the seven steps gives the network.
-/
import proofs.«150991_j71700184039837_1_alg».proof.Proof.IdealValueRun
import proofs.«150991_j71700184039837_1_alg».proof.Proof.IdealValues.Left0
import proofs.«150991_j71700184039837_1_alg».proof.Proof.IdealValues.Left1
import proofs.«150991_j71700184039837_1_alg».proof.Proof.IdealValues.Left2
import proofs.«150991_j71700184039837_1_alg».proof.Proof.IdealValues.Left3
import proofs.«150991_j71700184039837_1_alg».proof.Proof.IdealValues.Left4
import proofs.«150991_j71700184039837_1_alg».proof.Proof.IdealValues.Left5
import proofs.«150991_j71700184039837_1_alg».proof.Proof.IdealValues.Left6
import proofs.«150991_j71700184039837_1_alg».proof.Proof.HostStretches.Carried
import proofs.«150991_j71700184039837_1_alg».proof.Proof.HostStretches.BiasRows
import proofs.«150991_j71700184039837_1_alg».proof.Proof.HostStretches.Concat
import proofs.«150991_j71700184039837_1_alg».proof.Proof.HostStretches.Spread
import proofs.«150991_j71700184039837_1_alg».proof.Proof.LibLayerForms
import proofs.«150991_j71700184039837_1_alg».proof.Proof.GraphStages

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- A zero vector reshaped to one row is zero at every entry. -/
theorem zero_row_at {N : ℕ} (hc : (⟨1, ![N]⟩ : Shape).ShapeCasts ⟨2, ![1, N]⟩)
    (d : Fin (⟨0, ![]⟩ : Shape).rank → Fin (⟨1, ![N]⟩ : Shape).rank) (hb : (⟨0, ![]⟩ : Shape).BroadcastsInDim ⟨1, ![N]⟩ d) (g : Fin N) :
    shapeCast ⟨2, ![1, N]⟩ (broadcastInDim ⟨1, ![N]⟩ d hb (constant (F := Ideal) ⟨0, ![]⟩ .f32 0x00000000#32)) hc (ix2 (0 : Fin 1) g)
      = Cert.SageLayers.zeroF := by
  rw [shapeCast_apply _ hc (ix2 (0 : Fin 1) g) (ix1 g) (by
    rw [Shape.rowMajor_val_one, Shape.rowMajor_val_two]
    show g.val = (0 : Fin 1).val * N + g.val
    simp)]
  exact Cert.SageLayers.host_zero_at d hb _

/-- The three graph layers' host products, as whole-array functions on the extended reals. -/
def product512x256 (x : FVec Ideal Cert.ReferenceIdeal.S100000x512 .f32) (w : FVec Ideal Cert.ReferenceIdeal.S512x256 .f32) : FVec Ideal Cert.ReferenceIdeal.S100000x256 .f32 :=
  Host.dotGeneral (F := Ideal) Cert.ReferenceIdeal.dot_S100000x512_S512x256_S100000x256_1_0_0_1_n_n none x w
def product256x128 (x : FVec Ideal Cert.ReferenceIdeal.S100000x256 .f32) (w : FVec Ideal Cert.ReferenceIdeal.S256x128 .f32) : FVec Ideal Cert.ReferenceIdeal.S100000x128 .f32 :=
  Host.dotGeneral (F := Ideal) Cert.ReferenceIdeal.dot_S100000x256_S256x128_S100000x128_1_0_0_1_n_n none x w
def product128x128 (x : FVec Ideal Cert.ReferenceIdeal.S100000x128 .f32) (w : FVec Ideal Cert.ReferenceIdeal.S128x128 .f32) : FVec Ideal Cert.ReferenceIdeal.S100000x128 .f32 :=
  Host.dotGeneral (F := Ideal) Cert.ReferenceIdeal.dot_S100000x128_S128x128_S100000x128_1_0_0_1_n_n none x w

/-- Region 0 leaves the first layer's product x · W1. -/
theorem product1 : left7 m 2 main_v6 c
    = product512x256 (m ((c : Thread nD τ).loc main_arg0)) (m ((c : Thread nD τ).loc main_arg1)) := by
  rw [left7_upto1 m 2 (le_refl _) main_v6 c]
  unfold left1; rw [record_hit]
  rw [rows0_eq (entry0 m) c]
  show rows0 (V1 m c main_arg0) (V1 m c main_arg1) (V1 m c main_v5) = _
  rw [V1_arg m c (r := main_arg0) (by decide), V1_arg m c (r := main_arg1) (by decide), V1_main_v5 m c]
  unfold product512x256
  show _ = Host.dotGeneral (F := Ideal) (DotDims.plain 100000 512 256) none _ _
  exact Cert.LayerForms.dense_zero_bias _ _ _ (fun g => zero_row_at _ _ _ g)

/-- Region 1 leaves the first layer's output: the spread product plus the bias, rectified. -/
theorem layer1 : left7 m 6 main_v48 c
    = Cert.Stages.biasRelu256 (Cert.Stages.spread256 (left7 m 2 main_v6 c) (m ((c : Thread nD τ).loc main_arg9))) (m ((c : Thread nD τ).loc main_arg2)) := by
  rw [left7_upto2 m 6 (le_refl _) main_v48 c]
  unfold left2; rw [record_hit]
  rw [rows1_eq (entry1 m) c]
  show rows1 (V5 m (left1 m) c main_v46) (V5 m (left1 m) c main_v47) = _
  rw [V5_main_v46_outs m (left1 m) c, V5_main_v47 m (left1 m) c, ← left7_upto1 m 2 (le_refl _) main_v6 c]
  unfold Cert.Stages.biasRelu256
  exact Cert.LayerForms.relu_rows_host (R := 100000) (N := 256) _ _ _ _ rfl _ _ rfl rfl _ _ _

/-- Region 2 leaves the second layer's product x1 · W2. -/
theorem product2 : left7 m 8 main_v51 c
    = product256x128 (left7 m 6 main_v48 c) (m ((c : Thread nD τ).loc main_arg3)) := by
  rw [left7_upto3 m 8 (le_refl _) main_v51 c]
  unfold left3; rw [record_hit]
  rw [rows2_eq (entry2 m) c]
  show rows2 (V7 m (left2 m) c main_v48) (V7 m (left2 m) c main_arg3) (V7 m (left2 m) c main_v50) = _
  rw [V7_main_v48 m (left2 m) c, V6_main_v48 m (left2 m) c, V7_arg m (left2 m) c (r := main_arg3) (by decide), V7_main_v50 m (left2 m) c,
    ← left7_upto2 m 6 (le_refl _) main_v48 c]
  unfold product256x128
  show _ = Host.dotGeneral (F := Ideal) (DotDims.plain 100000 256 128) none _ _
  exact Cert.LayerForms.dense_zero_bias _ _ _ (fun g => zero_row_at _ _ _ g)

/-- Region 3 leaves the second layer's output. -/
theorem layer2 : left7 m 12 main_v93 c
    = Cert.Stages.biasRelu128 (Cert.Stages.spread128 (left7 m 8 main_v51 c) (m ((c : Thread nD τ).loc main_arg9))) (m ((c : Thread nD τ).loc main_arg4)) := by
  rw [left7_upto4 m 12 (le_refl _) main_v93 c]
  unfold left4; rw [record_hit]
  rw [rows3_eq (entry3 m) c]
  show rows3 (V11 m (left3 m) c main_v91) (V11 m (left3 m) c main_v92) = _
  rw [V11_main_v91_outs m (left3 m) c, V11_main_v92 m (left3 m) c, ← left7_upto3 m 8 (le_refl _) main_v51 c]
  unfold Cert.Stages.biasRelu128
  exact Cert.LayerForms.relu_rows_host (R := 100000) (N := 128) _ _ _ _ rfl _ _ rfl rfl _ _ _

/-- Region 4 leaves the third layer's product x2 · W3. -/
theorem product3 : left7 m 14 main_v96 c
    = product128x128 (left7 m 12 main_v93 c) (m ((c : Thread nD τ).loc main_arg5)) := by
  rw [left7_upto5 m 14 (le_refl _) main_v96 c]
  unfold left5; rw [record_hit]
  rw [rows4_eq (entry4 m) c]
  show rows4 (V13 m (left4 m) c main_v93) (V13 m (left4 m) c main_arg5) (V13 m (left4 m) c main_v95) = _
  rw [V13_main_v93 m (left4 m) c, V12_main_v93 m (left4 m) c, V13_arg m (left4 m) c (r := main_arg5) (by decide), V13_main_v95 m (left4 m) c,
    ← left7_upto4 m 12 (le_refl _) main_v93 c]
  unfold product128x128
  show _ = Host.dotGeneral (F := Ideal) (DotDims.plain 100000 128 128) none _ _
  exact Cert.LayerForms.dense_zero_bias _ _ _ (fun g => zero_row_at _ _ _ g)

/-- Region 5 leaves the third layer's output. -/
theorem layer3 : left7 m 18 main_v138 c
    = Cert.Stages.biasRelu128 (Cert.Stages.spread128 (left7 m 14 main_v96 c) (m ((c : Thread nD τ).loc main_arg9))) (m ((c : Thread nD τ).loc main_arg6)) := by
  rw [left7_upto6 m 18 (le_refl _) main_v138 c]
  unfold left6; rw [record_hit]
  rw [rows5_eq (entry5 m) c]
  show rows5 (V17 m (left5 m) c main_v136) (V17 m (left5 m) c main_v137) = _
  rw [V17_main_v136_outs m (left5 m) c, V17_main_v137 m (left5 m) c, ← left7_upto5 m 14 (le_refl _) main_v96 c]
  unfold Cert.Stages.biasRelu128
  exact Cert.LayerForms.relu_rows_host (R := 100000) (N := 128) _ _ _ _ rfl _ _ rfl rfl _ _ _

/-- The last recorded array is what region 6's write-backs leave. -/
theorem left7_last : left7 m 20 main_v142 c = (data6 (entry6 m) c).arrAt 3 cfg6.N := by
  unfold left7; rw [record_hit]

/-- Region 6 leaves the last stage: the three outputs side by side times the transposed matrix, plus the last bias. -/
theorem last_stage : left7 m 20 main_v142 c
    = Cert.Stages.lastLayer (Cert.Stages.sideBySide (left7 m 6 main_v48 c) (left7 m 12 main_v93 c) (left7 m 18 main_v138 c))
        (m ((c : Thread nD τ).loc main_arg7)) (m ((c : Thread nD τ).loc main_arg8)) := by
  rw [left7_last m c, rows6_eq (entry6 m) c]
  show rows6 (V19 m (left6 m) c main_v139) (V19 m (left6 m) c main_v140) (V19 m (left6 m) c main_v141) = _
  rw [V19_main_v139_outs m (left6 m) c, V19_main_v140 m (left6 m) c, V19_main_v141 m (left6 m) c,
    ← left7_upto6 m 6 (by decide) main_v48 c, ← left7_upto6 m 12 (by decide) main_v93 c, ← left7_upto6 m 18 (le_refl _) main_v138 c]
  unfold Cert.Stages.lastLayer
  exact Cert.LayerForms.dense_host (R := 100000) (K := 512) (N := 512) _ _ _ _ _ rfl _ _ rfl rfl _

set_option maxRecDepth 200000 in
/-- The kernel's result array is the network of its ten arguments. -/
theorem kernel_is_network : result m c
    = Cert.Stages.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (V20_main_v142 m (left7 m) c).trans ((last_stage m c).trans ?_)
  rw [layer3 m c, product3 m c, layer2 m c, product2 m c, layer1 m c, product1 m c]
  rfl

end Cert.KernelIdeal.Frame

end
-- ==== Proof.lean ====
/-
  The kernel and its reference compute one three-layer graph convolution followed by a dense stage, on 100000 nodes
  with 300000 edges and a self loop per node.

  Each graph layer multiplies the node features by a weight matrix, spreads the product over the edges (each edge
  carries its source's row, scaled by the inverse square roots of the degrees of its two ends, into its destination's
  row), adds a bias to every row and takes the maximum with zero. The last stage sets the three layers' outputs side by
  side, multiplies by the transposed 512 × 512 matrix and adds the last bias. The reference does all of it on the host.
  The kernel does the products and the bias-and-maximum steps in seven pipelined regions of 100 row blocks each and
  leaves the edge stages to the same host operations.

  On the extended reals the two agree stage by stage. A product region narrows its operands to bf16 (the identity on
  the extended reals), accumulates the product from zero and adds a bias row: in the graph layers the row is zero, so
  the region leaves the plain product, entry by entry the same finite sum the host's product is; in the last stage
  the row is the reshaped bias vector, so the region leaves the host's product plus the broadcast bias. A
  bias-and-maximum region leaves max (a + bias row, 0), which is the host's broadcast, sum and maximum read entry by
  entry. The row blocks tile each result array, so what the hundred write-backs leave is the whole-array function. The
  edge stages are the same operations on both sides, so equal products give equal spreads. No step needs the inputs to
  be finite: adding zero, and reading one sum in two spellings, hold for every extended real.

  Each program also runs to the end with its arguments unchanged: the reference is a straight line of host operations;
  each kernel program is host stretches around the seven regions, each region's hundred points fetching blocks,
  running the body and writing the result block back, none of them writing an argument array.
-/
import proofs.«150991_j71700184039837_1_alg».proof.Defs
import proofs.«150991_j71700184039837_1_alg».proof.Proof.Gen.Kernel
import proofs.«150991_j71700184039837_1_alg».proof.Proof.Gen.KernelIdeal
import proofs.«150991_j71700184039837_1_alg».proof.Proof.Gen.ReferenceIdeal
import proofs.«150991_j71700184039837_1_alg».proof.Proof.Gen.Pre_finite_inputs
import proofs.«150991_j71700184039837_1_alg».proof.Proof.BitsValueRun
import proofs.«150991_j71700184039837_1_alg».proof.Proof.IdealValueRun
import proofs.«150991_j71700184039837_1_alg».proof.Proof.ReferenceRunPatched
import proofs.«150991_j71700184039837_1_alg».proof.Proof.ReferenceStaged
import proofs.«150991_j71700184039837_1_alg».proof.Proof.KernelNetwork
import Idealize.ShloMosaic.Adequacy
import Idealize.ShloMosaic.Init

noncomputable section

namespace Cert.Proof

open Idealize.ShloMosaic Idealize.SL.Sem

/-- The word-level kernel runs to the end with its arguments unchanged. -/
theorem frame_kernel : Cert.frame_Kernel := fun m ρ _ => Cert.Kernel.Frame.frame m ρ

/-- So does the idealized kernel. -/
theorem frame_kernel_ideal : Cert.frame_KernelIdeal := fun m ρ _ => Cert.KernelIdeal.Frame.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- From memories agreeing on the ten arguments both idealized programs end with the same result array: the network of
    the arguments. -/
theorem algebraic : Cert.algebraic_KernelIdeal_ReferenceIdeal := by
  intro m ρ m' ρ' _ hagree
  refine ⟨fun c => Cert.KernelIdeal.Frame.result m c, Cert.KernelIdeal.Frame.runs (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.Stages.reference_is_network_staged m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.Frame.kernel_is_network m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
